-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S300000x256 : Shape := ⟨2, ![300000, 256]⟩
abbrev S960000 : Shape := ⟨1, ![960000]⟩
abbrev S240000 : Shape := ⟨1, ![240000]⟩
abbrev S64000 : Shape := ⟨1, ![64000]⟩
abbrev S256x128 : Shape := ⟨2, ![256, 128]⟩
abbrev S128 : Shape := ⟨1, ![128]⟩
abbrev S128x128 : Shape := ⟨2, ![128, 128]⟩
abbrev S128x47 : Shape := ⟨2, ![128, 47]⟩
abbrev S47 : Shape := ⟨1, ![47]⟩
abbrev S_ : Shape := ⟨0, ![]⟩

class Facts : Prop where
  bcast_S_S300000x256 : S_.BroadcastsInDim S300000x256 (![] : Fin 0 → Fin S300000x256.rank)
  reducesTo_S300000x256_S_d0_1 : S300000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x47 : S_.BroadcastsInDim S128x47 (![] : Fin 0 → Fin S128x47.rank)
  reducesTo_S128x47_S_d0_1 : S128x47.ReducesTo [0, 1] S_
  bcast_S_S47 : S_.BroadcastsInDim S47 (![] : Fin 0 → Fin S47.rank)
  reducesTo_S47_S_d0 : S47.ReducesTo [0] S_

variable [Facts]

def fn_part1 {F : FTy → Type} [FloatOps F] (main_arg10 : FVec F S128 .f32) (main_arg11 : FVec F S128x47 .f32) (main_arg12 : FVec F S47 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg10
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x47 .f32 := Host.absf main_arg11
  let main_cst_8 : FVec F S_ .f32 := constant S_ .f32 0x7F800000#32
  let main_v25 : FVec F S128x47 .f32 := broadcastInDim S128x47 ![] bcast_S_S128x47 main_cst_8
  let main_v26 : IVec S128x47 1 := cmpf .olt main_v24 main_v25
  let main_c_9 : IVec S_ 1 := constantI S_ 1 1#1
  let main_v27 : IVec S_ 1 := (fun x v => Host.reduce IntOp.andi x v reducesTo_S128x47_S_d0_1 h_S_) main_v26 main_c_9
  let main_v28 : IVec S_ 1 := andi main_v23 main_v27
  let main_v29 : FVec F S47 .f32 := Host.absf main_arg12
  let main_cst_10 : FVec F S_ .f32 := constant S_ .f32 0x7F800000#32
  let main_v30 : FVec F S47 .f32 := broadcastInDim S47 ![] bcast_S_S47 main_cst_10
  let main_v31 : IVec S47 1 := cmpf .olt main_v29 main_v30
  let main_c_11 : IVec S_ 1 := constantI S_ 1 1#1
  let main_v32 : IVec S_ 1 := (fun x v => Host.reduce IntOp.andi x v reducesTo_S47_S_d0 h_S_) main_v31 main_c_11
  let main_v33 : IVec S_ 1 := andi main_v28 main_v32
  main_v33

def fn {F : FTy → Type} [FloatOps F] (main_arg0 : FVec F S300000x256 .f32) (main_arg1 : IVec S960000 32) (main_arg2 : IVec S960000 32) (main_arg3 : IVec S240000 32) (main_arg4 : IVec S240000 32) (main_arg5 : IVec S64000 32) (main_arg6 : IVec S64000 32) (main_arg7 : FVec F S256x128 .f32) (main_arg8 : FVec F S128 .f32) (main_arg9 : FVec F S128x128 .f32) (main_arg10 : FVec F S128 .f32) (main_arg11 : FVec F S128x47 .f32) (main_arg12 : FVec F S47 .f32) : IVec S_ 1 :=
  let main_v0 : FVec F S300000x256 .f32 := Host.absf main_arg0
  let main_cst : FVec F S_ .f32 := constant S_ .f32 0x7F800000#32
  let main_v1 : FVec F S300000x256 .f32 := broadcastInDim S300000x256 ![] bcast_S_S300000x256 main_cst
  let main_v2 : IVec S300000x256 1 := cmpf .olt main_v0 main_v1
  let main_c : IVec S_ 1 := constantI S_ 1 1#1
  let main_v3 : IVec S_ 1 := (fun x v => Host.reduce IntOp.andi x v reducesTo_S300000x256_S_d0_1 h_S_) main_v2 main_c
  let main_v4 : FVec F S256x128 .f32 := Host.absf main_arg7
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg8
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg9
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg10 main_arg11 main_arg12 main_v13 main_v16
-- ==== Kernel.lean ====
abbrev S300000x256 : Shape := ⟨2, ![300000, 256]⟩
abbrev S960000 : Shape := ⟨1, ![960000]⟩
abbrev S240000 : Shape := ⟨1, ![240000]⟩
abbrev S64000 : Shape := ⟨1, ![64000]⟩
abbrev S256x128 : Shape := ⟨2, ![256, 128]⟩
abbrev S128 : Shape := ⟨1, ![128]⟩
abbrev S128x128 : Shape := ⟨2, ![128, 128]⟩
abbrev S128x47 : Shape := ⟨2, ![128, 47]⟩
abbrev S47 : Shape := ⟨1, ![47]⟩
abbrev S300000x128 : Shape := ⟨2, ![300000, 128]⟩
abbrev S6000x256 : Shape := ⟨2, ![6000, 256]⟩
abbrev S6000x128 : Shape := ⟨2, ![6000, 128]⟩
abbrev S_ : Shape := ⟨0, ![]⟩
abbrev S960000x1 : Shape := ⟨2, ![960000, 1]⟩
abbrev S960000x128 : Shape := ⟨2, ![960000, 128]⟩
abbrev S60000x128 : Shape := ⟨2, ![60000, 128]⟩
abbrev S60000 : Shape := ⟨1, ![60000]⟩
abbrev S60000x1 : Shape := ⟨2, ![60000, 1]⟩
abbrev S1x128 : Shape := ⟨2, ![1, 128]⟩
abbrev S6000x1 : Shape := ⟨2, ![6000, 1]⟩
abbrev S240000x1 : Shape := ⟨2, ![240000, 1]⟩
abbrev S240000x128 : Shape := ⟨2, ![240000, 128]⟩
abbrev S15000x128 : Shape := ⟨2, ![15000, 128]⟩
abbrev S15000 : Shape := ⟨1, ![15000]⟩
abbrev S15000x1 : Shape := ⟨2, ![15000, 1]⟩
abbrev S3000x128 : Shape := ⟨2, ![3000, 128]⟩
abbrev S3000x1 : Shape := ⟨2, ![3000, 1]⟩
abbrev S64000x1 : Shape := ⟨2, ![64000, 1]⟩
abbrev S64000x128 : Shape := ⟨2, ![64000, 128]⟩
abbrev S4000x128 : Shape := ⟨2, ![4000, 128]⟩
abbrev S4000 : Shape := ⟨1, ![4000]⟩
abbrev S4000x1 : Shape := ⟨2, ![4000, 1]⟩
abbrev S2000x128 : Shape := ⟨2, ![2000, 128]⟩
abbrev S2000x1 : Shape := ⟨2, ![2000, 1]⟩
abbrev S4000x47 : Shape := ⟨2, ![4000, 47]⟩

abbrev nBuf : Space → Nat
  | .hbm => 105
  | .vmem => 28
  | .smem => 0
  | _ => 0

abbrev bufTy : (tb : Table) → Fin (tcTables nBuf tb) → BufTy
  | .hbm, ⟨0, _⟩ => ⟨S300000x256, .f32⟩
  | .hbm, ⟨1, _⟩ => ⟨S960000, .i32⟩
  | .hbm, ⟨2, _⟩ => ⟨S960000, .i32⟩
  | .hbm, ⟨3, _⟩ => ⟨S240000, .i32⟩
  | .hbm, ⟨4, _⟩ => ⟨S240000, .i32⟩
  | .hbm, ⟨5, _⟩ => ⟨S64000, .i32⟩
  | .hbm, ⟨6, _⟩ => ⟨S64000, .i32⟩
  | .hbm, ⟨7, _⟩ => ⟨S256x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x47, .f32⟩
  | .hbm, ⟨12, _⟩ => ⟨S47, .f32⟩
  | .hbm, ⟨13, _⟩ => ⟨S300000x128, .f32⟩
  | .hbm, ⟨14, _⟩ => ⟨S_, .i32⟩
  | .hbm, ⟨15, _⟩ => ⟨S960000, .i32⟩
  | .hbm, ⟨16, _⟩ => ⟨S960000, .i1⟩
  | .hbm, ⟨17, _⟩ => ⟨S_, .i32⟩
  | .hbm, ⟨18, _⟩ => ⟨S960000, .i32⟩
  | .hbm, ⟨19, _⟩ => ⟨S960000, .i32⟩
  | .hbm, ⟨20, _⟩ => ⟨S960000, .i32⟩
  | .hbm, ⟨21, _⟩ => ⟨S960000x1, .i32⟩
  | .hbm, ⟨22, _⟩ => ⟨S960000x128, .f32⟩
  | .hbm, ⟨23, _⟩ => ⟨S_, .f32⟩
  | .hbm, ⟨24, _⟩ => ⟨S60000x128, .f32⟩
  | .hbm, ⟨25, _⟩ => ⟨S960000x1, .i32⟩
  | .hbm, ⟨26, _⟩ => ⟨S60000x128, .f32⟩
  | .hbm, ⟨27, _⟩ => ⟨S_, .f32⟩
  | .hbm, ⟨28, _⟩ => ⟨S960000, .f32⟩
  | .hbm, ⟨29, _⟩ => ⟨S_, .f32⟩
  | .hbm, ⟨30, _⟩ => ⟨S60000, .f32⟩
  | .hbm, ⟨31, _⟩ => ⟨S960000x1, .i32⟩
  | .hbm, ⟨32, _⟩ => ⟨S60000, .f32⟩
  | .hbm, ⟨33, _⟩ => ⟨S_, .f32⟩
  | .hbm, ⟨34, _⟩ => ⟨S60000, .f32⟩
  | .hbm, ⟨35, _⟩ => ⟨S60000, .f32⟩
  | .hbm, ⟨36, _⟩ => ⟨S_, .f32⟩
  | .hbm, ⟨37, _⟩ => ⟨S60000, .f32⟩
  | .hbm, ⟨38, _⟩ => ⟨S60000, .f32⟩
  | .hbm, ⟨39, _⟩ => ⟨S60000x1, .f32⟩
  | .hbm, ⟨40, _⟩ => ⟨S1x128, .f32⟩
  | .hbm, ⟨41, _⟩ => ⟨S60000x128, .f32⟩
  | .hbm, ⟨42, _⟩ => ⟨S_, .i32⟩
  | .hbm, ⟨43, _⟩ => ⟨S240000, .i32⟩
  | .hbm, ⟨44, _⟩ => ⟨S240000, .i1⟩
  | .hbm, ⟨45, _⟩ => ⟨S_, .i32⟩
  | .hbm, ⟨46, _⟩ => ⟨S240000, .i32⟩
  | .hbm, ⟨47, _⟩ => ⟨S240000, .i32⟩
  | .hbm, ⟨48, _⟩ => ⟨S240000, .i32⟩
  | .hbm, ⟨49, _⟩ => ⟨S240000x1, .i32⟩
  | .hbm, ⟨50, _⟩ => ⟨S240000x128, .f32⟩
  | .hbm, ⟨51, _⟩ => ⟨S_, .f32⟩
  | .hbm, ⟨52, _⟩ => ⟨S15000x128, .f32⟩
  | .hbm, ⟨53, _⟩ => ⟨S240000x1, .i32⟩
  | .hbm, ⟨54, _⟩ => ⟨S15000x128, .f32⟩
  | .hbm, ⟨55, _⟩ => ⟨S_, .f32⟩
  | .hbm, ⟨56, _⟩ => ⟨S240000, .f32⟩
  | .hbm, ⟨57, _⟩ => ⟨S_, .f32⟩
  | .hbm, ⟨58, _⟩ => ⟨S15000, .f32⟩
  | .hbm, ⟨59, _⟩ => ⟨S240000x1, .i32⟩
  | .hbm, ⟨60, _⟩ => ⟨S15000, .f32⟩
  | .hbm, ⟨61, _⟩ => ⟨S_, .f32⟩
  | .hbm, ⟨62, _⟩ => ⟨S15000, .f32⟩
  | .hbm, ⟨63, _⟩ => ⟨S15000, .f32⟩
  | .hbm, ⟨64, _⟩ => ⟨S_, .f32⟩
  | .hbm, ⟨65, _⟩ => ⟨S15000, .f32⟩
  | .hbm, ⟨66, _⟩ => ⟨S15000, .f32⟩
  | .hbm, ⟨67, _⟩ => ⟨S15000x1, .f32⟩
  | .hbm, ⟨68, _⟩ => ⟨S1x128, .f32⟩
  | .hbm, ⟨69, _⟩ => ⟨S15000x128, .f32⟩
  | .hbm, ⟨70, _⟩ => ⟨S_, .i32⟩
  | .hbm, ⟨71, _⟩ => ⟨S_, .f32⟩
  | .hbm, ⟨72, _⟩ => ⟨S128x128, .f32⟩
  | .hbm, ⟨73, _⟩ => ⟨S_, .i32⟩
  | .hbm, ⟨74, _⟩ => ⟨S_, .f32⟩
  | .hbm, ⟨75, _⟩ => ⟨S128, .f32⟩
  | .hbm, ⟨76, _⟩ => ⟨S_, .i32⟩
  | .hbm, ⟨77, _⟩ => ⟨S64000, .i32⟩
  | .hbm, ⟨78, _⟩ => ⟨S64000, .i1⟩
  | .hbm, ⟨79, _⟩ => ⟨S_, .i32⟩
  | .hbm, ⟨80, _⟩ => ⟨S64000, .i32⟩
  | .hbm, ⟨81, _⟩ => ⟨S64000, .i32⟩
  | .hbm, ⟨82, _⟩ => ⟨S64000, .i32⟩
  | .hbm, ⟨83, _⟩ => ⟨S64000x1, .i32⟩
  | .hbm, ⟨84, _⟩ => ⟨S64000x128, .f32⟩
  | .hbm, ⟨85, _⟩ => ⟨S_, .f32⟩
  | .hbm, ⟨86, _⟩ => ⟨S4000x128, .f32⟩
  | .hbm, ⟨87, _⟩ => ⟨S64000x1, .i32⟩
  | .hbm, ⟨88, _⟩ => ⟨S4000x128, .f32⟩
  | .hbm, ⟨89, _⟩ => ⟨S_, .f32⟩
  | .hbm, ⟨90, _⟩ => ⟨S64000, .f32⟩
  | .hbm, ⟨91, _⟩ => ⟨S_, .f32⟩
  | .hbm, ⟨92, _⟩ => ⟨S4000, .f32⟩
  | .hbm, ⟨93, _⟩ => ⟨S64000x1, .i32⟩
  | .hbm, ⟨94, _⟩ => ⟨S4000, .f32⟩
  | .hbm, ⟨95, _⟩ => ⟨S_, .f32⟩
  | .hbm, ⟨96, _⟩ => ⟨S4000, .f32⟩
  | .hbm, ⟨97, _⟩ => ⟨S4000, .f32⟩
  | .hbm, ⟨98, _⟩ => ⟨S_, .f32⟩
  | .hbm, ⟨99, _⟩ => ⟨S4000, .f32⟩
  | .hbm, ⟨100, _⟩ => ⟨S4000, .f32⟩
  | .hbm, ⟨101, _⟩ => ⟨S4000x1, .f32⟩
  | .hbm, ⟨102, _⟩ => ⟨S1x128, .f32⟩
  | .hbm, ⟨103, _⟩ => ⟨S4000x128, .f32⟩
  | .hbm, ⟨104, _⟩ => ⟨S4000x47, .f32⟩
  | .local _ .vmem, ⟨0, _⟩ => ⟨S6000x256, .f32⟩
  | .local _ .vmem, ⟨1, _⟩ => ⟨S6000x256, .f32⟩
  | .local _ .vmem, ⟨2, _⟩ => ⟨S256x128, .f32⟩
  | .local _ .vmem, ⟨3, _⟩ => ⟨S6000x128, .f32⟩
  | .local _ .vmem, ⟨4, _⟩ => ⟨S6000x128, .f32⟩
  | .local _ .vmem, ⟨5, _⟩ => ⟨S6000x128, .f32⟩
  | .local _ .vmem, ⟨6, _⟩ => ⟨S6000x128, .f32⟩
  | .local _ .vmem, ⟨7, _⟩ => ⟨S6000x1, .f32⟩
  | .local _ .vmem, ⟨8, _⟩ => ⟨S6000x1, .f32⟩
  | .local _ .vmem, ⟨9, _⟩ => ⟨S1x128, .f32⟩
  | .local _ .vmem, ⟨10, _⟩ => ⟨S6000x128, .f32⟩
  | .local _ .vmem, ⟨11, _⟩ => ⟨S6000x128, .f32⟩
  | .local _ .vmem, ⟨12, _⟩ => ⟨S3000x128, .f32⟩
  | .local _ .vmem, ⟨13, _⟩ => ⟨S3000x128, .f32⟩
  | .local _ .vmem, ⟨14, _⟩ => ⟨S3000x1, .f32⟩
  | .local _ .vmem, ⟨15, _⟩ => ⟨S3000x1, .f32⟩
  | .local _ .vmem, ⟨16, _⟩ => ⟨S128x128, .f32⟩
  | .local _ .vmem, ⟨17, _⟩ => ⟨S1x128, .f32⟩
  | .local _ .vmem, ⟨18, _⟩ => ⟨S3000x128, .f32⟩
  | .local _ .vmem, ⟨19, _⟩ => ⟨S3000x128, .f32⟩
  | .local _ .vmem, ⟨20, _⟩ => ⟨S2000x128, .f32⟩
  | .local _ .vmem, ⟨21, _⟩ => ⟨S2000x128, .f32⟩
  | .local _ .vmem, ⟨22, _⟩ => ⟨S2000x1, .f32⟩
  | .local _ .vmem, ⟨23, _⟩ => ⟨S2000x1, .f32⟩
  | .local _ .vmem, ⟨24, _⟩ => ⟨S128x128, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | _, _ => ⟨S300000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_v1 : Ref sig .tc := ⟨.hbm, 15, rfl⟩
abbrev main_v2 : Ref sig .tc := ⟨.hbm, 16, rfl⟩
abbrev main_c_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_3 : Ref sig .tc := ⟨.hbm, 33, rfl⟩
abbrev main_v15 : Ref sig .tc := ⟨.hbm, 34, rfl⟩
abbrev main_v16 : Ref sig .tc := ⟨.hbm, 35, rfl⟩
abbrev main_cst_4 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_5 : Ref sig .tc := ⟨.hbm, 42, rfl⟩
abbrev main_v22 : Ref sig .tc := ⟨.hbm, 43, rfl⟩
abbrev main_v23 : Ref sig .tc := ⟨.hbm, 44, rfl⟩
abbrev main_c_6 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_7 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_8 : Ref sig .tc := ⟨.hbm, 55, rfl⟩
abbrev main_v32 : Ref sig .tc := ⟨.hbm, 56, rfl⟩
abbrev main_cst_9 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_10 : Ref sig .tc := ⟨.hbm, 61, rfl⟩
abbrev main_v36 : Ref sig .tc := ⟨.hbm, 62, rfl⟩
abbrev main_v37 : Ref sig .tc := ⟨.hbm, 63, rfl⟩
abbrev main_cst_11 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_c_12 : Ref sig .tc := ⟨.hbm, 70, rfl⟩
abbrev main_call0_v0 : Ref sig .tc := ⟨.hbm, 71, rfl⟩
abbrev main_v43 : Ref sig .tc := ⟨.hbm, 72, rfl⟩
abbrev main_c_13 : Ref sig .tc := ⟨.hbm, 73, rfl⟩
abbrev main_call1_v0 : Ref sig .tc := ⟨.hbm, 74, rfl⟩
abbrev main_v44 : Ref sig .tc := ⟨.hbm, 75, rfl⟩
abbrev main_c_14 : Ref sig .tc := ⟨.hbm, 76, rfl⟩
abbrev main_v45 : Ref sig .tc := ⟨.hbm, 77, rfl⟩
abbrev main_v46 : Ref sig .tc := ⟨.hbm, 78, rfl⟩
abbrev main_c_15 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_cst_16 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_cst_17 : Ref sig .tc := ⟨.hbm, 89, rfl⟩
abbrev main_v55 : Ref sig .tc := ⟨.hbm, 90, rfl⟩
abbrev main_cst_18 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst_19 : Ref sig .tc := ⟨.hbm, 95, rfl⟩
abbrev main_v59 : Ref sig .tc := ⟨.hbm, 96, rfl⟩
abbrev main_v60 : Ref sig .tc := ⟨.hbm, 97, rfl⟩
abbrev main_cst_20 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg4_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem4_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S6000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S6000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S3000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S3000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S3000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![2], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  inb_S6000x256_S6000x256_0_0 : ∀ a, (![0, 0] : Fin 2 → Nat) a + S6000x256.size a ≤ S6000x256.size a
  h_S6000x256 : 0 < S6000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S6000x128_S6000x128_0_0 : ∀ a, (![0, 0] : Fin 2 → Nat) a + S6000x128.size a ≤ S6000x128.size a
  h_S6000x128 : 0 < S6000x128.numel
  bcast_S_S960000 : S_.BroadcastsInDim S960000 (![] : Fin 0 → Fin S960000.rank)
  bcast_S960000_S960000x1_0 : S960000.BroadcastsInDim S960000x1 (![0] : Fin 1 → Fin S960000x1.rank)
  bcast_S_S60000x128 : S_.BroadcastsInDim S60000x128 (![] : Fin 0 → Fin S60000x128.rank)
  bcast_S_S60000 : S_.BroadcastsInDim S60000 (![] : Fin 0 → Fin S60000.rank)
  bcast_S60000_S60000x1_0 : S60000.BroadcastsInDim S60000x1 (![0] : Fin 1 → Fin S60000x1.rank)
  shapeCasts_S128_S1x128 : S128.ShapeCasts S1x128
  shapeCasts_S6000x128_S6000x128 : S6000x128.ShapeCasts S6000x128
  inb_S6000x1_S6000x1_0_0 : ∀ a, (![0, 0] : Fin 2 → Nat) a + S6000x1.size a ≤ S6000x1.size a
  h_S6000x1 : 0 < S6000x1.numel
  shapeCasts_S6000x1_S6000x1 : S6000x1.ShapeCasts S6000x1
  broadcasts_S6000x1_S6000x128 : S6000x1.Broadcasts S6000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S6000x128 : S1x128.Broadcasts S6000x128
  bcast_S_S240000 : S_.BroadcastsInDim S240000 (![] : Fin 0 → Fin S240000.rank)
  bcast_S240000_S240000x1_0 : S240000.BroadcastsInDim S240000x1 (![0] : Fin 1 → Fin S240000x1.rank)
  bcast_S_S15000x128 : S_.BroadcastsInDim S15000x128 (![] : Fin 0 → Fin S15000x128.rank)
  bcast_S_S15000 : S_.BroadcastsInDim S15000 (![] : Fin 0 → Fin S15000.rank)
  bcast_S15000_S15000x1_0 : S15000.BroadcastsInDim S15000x1 (![0] : Fin 1 → Fin S15000x1.rank)
  inb_S3000x128_S3000x128_0_0 : ∀ a, (![0, 0] : Fin 2 → Nat) a + S3000x128.size a ≤ S3000x128.size a
  h_S3000x128 : 0 < S3000x128.numel
  shapeCasts_S3000x128_S3000x128 : S3000x128.ShapeCasts S3000x128
  inb_S3000x1_S3000x1_0_0 : ∀ a, (![0, 0] : Fin 2 → Nat) a + S3000x1.size a ≤ S3000x1.size a
  h_S3000x1 : 0 < S3000x1.numel
  shapeCasts_S3000x1_S3000x1 : S3000x1.ShapeCasts S3000x1
  broadcasts_S3000x1_S3000x128 : S3000x1.Broadcasts S3000x128
  inb_S128x128_S128x128_0_0 : ∀ a, (![0, 0] : Fin 2 → Nat) a + S128x128.size a ≤ S128x128.size a
  h_S128x128 : 0 < S128x128.numel
  broadcasts_S1x128_S3000x128 : S1x128.Broadcasts S3000x128
  pads_S128x47_S128x128_000_0810 : S128x47.Pads (![0, 0] : Fin 2 → Nat) ![0, 81] ![0, 0] S128x128
  h_S_ : 0 < S_.numel
  pads_S47_S128_0810 : S47.Pads (![0] : Fin 1 → Nat) ![81] ![0] S128
  bcast_S_S64000 : S_.BroadcastsInDim S64000 (![] : Fin 0 → Fin S64000.rank)
  bcast_S64000_S64000x1_0 : S64000.BroadcastsInDim S64000x1 (![0] : Fin 1 → Fin S64000x1.rank)
  bcast_S_S4000x128 : S_.BroadcastsInDim S4000x128 (![] : Fin 0 → Fin S4000x128.rank)
  bcast_S_S4000 : S_.BroadcastsInDim S4000 (![] : Fin 0 → Fin S4000.rank)
  bcast_S4000_S4000x1_0 : S4000.BroadcastsInDim S4000x1 (![0] : Fin 1 → Fin S4000x1.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  shapeCasts_S128x128_S128x128 : S128x128.ShapeCasts S128x128
  broadcasts_S1x128_S2000x128 : S1x128.Broadcasts S2000x128
  slices_S4000x128_S4000x47_0_0 : S4000x128.Slices ![0, 0] S4000x47
  dot_S6000x256_S256x128_S6000x128_1_0_0_1_n_n_wf : DotDims.WF S6000x256 S256x128 S6000x128 [1] [0] [0] [1] [] []
  gather_S300000x128_S960000x1_S960000x128_1_0_n_n_0_1_1128_wf : GatherDims.WF S300000x128 S960000x1 S960000x128 [1] [0] [] [0] [] 1 ![1, 128]
  scatter_S60000x128_S960000x1_S960000x128_1_0_0_1_wf : ScatterDims.WF S60000x128 S960000x1 S960000x128 [1] [0] [0] 1
  scatter_S60000_S960000x1_S960000_n_0_0_1_wf : ScatterDims.WF S60000 S960000x1 S960000 [] [0] [0] 1
  gather_S60000x128_S240000x1_S240000x128_1_0_n_n_0_1_1128_wf : GatherDims.WF S60000x128 S240000x1 S240000x128 [1] [0] [] [0] [] 1 ![1, 128]
  scatter_S15000x128_S240000x1_S240000x128_1_0_0_1_wf : ScatterDims.WF S15000x128 S240000x1 S240000x128 [1] [0] [0] 1
  scatter_S15000_S240000x1_S240000_n_0_0_1_wf : ScatterDims.WF S15000 S240000x1 S240000 [] [0] [0] 1
  dot_S3000x128_S128x128_S3000x128_1_0_0_1_n_n_wf : DotDims.WF S3000x128 S128x128 S3000x128 [1] [0] [0] [1] [] []
  gather_S15000x128_S64000x1_S64000x128_1_0_n_n_0_1_1128_wf : GatherDims.WF S15000x128 S64000x1 S64000x128 [1] [0] [] [0] [] 1 ![1, 128]
  scatter_S4000x128_S64000x1_S64000x128_1_0_0_1_wf : ScatterDims.WF S4000x128 S64000x1 S64000x128 [1] [0] [0] 1
  scatter_S4000_S64000x1_S64000_n_0_0_1_wf : ScatterDims.WF S4000 S64000x1 S64000 [] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6000x256.size a ≤ S300000x256.size a
  hwx0_0 : ∀ i : grid0.Coords, EltTy.bits .f32 = 32 ∨ (Rect.block (s := S300000x256) S6000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6000x128.size a ≤ S300000x128.size a
  hwx0_2 : ∀ i : grid0.Coords, EltTy.bits .f32 = 32 ∨ (Rect.block (s := S300000x128) S6000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6000x128.size a ≤ S60000x128.size a
  hwx1_0 : ∀ i : grid1.Coords, EltTy.bits .f32 = 32 ∨ (Rect.block (s := S60000x128) S6000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6000x1.size a ≤ S60000x1.size a
  hwx1_1 : ∀ i : grid1.Coords, EltTy.bits .f32 = 32 ∨ (Rect.block (s := S60000x1) S6000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S6000x128.size a ≤ S60000x128.size a
  hwx1_3 : ∀ i : grid1.Coords, EltTy.bits .f32 = 32 ∨ (Rect.block (s := S60000x128) S6000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S3000x128.size a ≤ S15000x128.size a
  hwx2_0 : ∀ i : grid2.Coords, EltTy.bits .f32 = 32 ∨ (Rect.block (s := S15000x128) S3000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S3000x1.size a ≤ S15000x1.size a
  hwx2_1 : ∀ i : grid2.Coords, EltTy.bits .f32 = 32 ∨ (Rect.block (s := S15000x1) S3000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S3000x128.size a ≤ S15000x128.size a
  hwx2_4 : ∀ i : grid2.Coords, EltTy.bits .f32 = 32 ∨ (Rect.block (s := S15000x128) S3000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S4000x128.size a
  hwx3_0 : ∀ i : grid3.Coords, EltTy.bits .f32 = 32 ∨ (Rect.block (s := S4000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S4000x1.size a
  hwx3_1 : ∀ i : grid3.Coords, EltTy.bits .f32 = 32 ∨ (Rect.block (s := S4000x1) S2000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x128.size a ≤ S4000x128.size a
  hwx3_4 : ∀ i : grid3.Coords, EltTy.bits .f32 = 32 ∨ (Rect.block (s := S4000x128) S2000x128.size (cc3_transform_4 i) (hinb3_4 i)).WholeWords (EltTy.packing .f32)

variable [Facts₀]

def dot_S6000x256_S256x128_S6000x128_1_0_0_1_n_n : DotDims S6000x256 S256x128 S6000x128 where
  lhsContracting := [1]
  rhsContracting := [0]
  lhsNonContracting := [0]
  rhsNonContracting := [1]
  lhsBatch := []
  rhsBatch := []
  wf := dot_S6000x256_S256x128_S6000x128_1_0_0_1_n_n_wf
def gather_S300000x128_S960000x1_S960000x128_1_0_n_n_0_1_1128 : GatherDims S300000x128 S960000x1 S960000x128 where
  offsetDims := [1]
  collapsedSliceDims := [0]
  operandBatchingDims := []
  startIndicesBatchingDims := []
  startIndexMap := [0]
  indexVectorDim := 1
  sliceSizes := ![1, 128]
  wf := gather_S300000x128_S960000x1_S960000x128_1_0_n_n_0_1_1128_wf
def scatter_S60000x128_S960000x1_S960000x128_1_0_0_1 : ScatterDims S60000x128 S960000x1 S960000x128 where
  updateWindowDims := [1]
  insertedWindowDims := [0]
  scatterDimsToOperandDims := [0]
  indexVectorDim := 1
  wf := scatter_S60000x128_S960000x1_S960000x128_1_0_0_1_wf
def scatter_S60000_S960000x1_S960000_n_0_0_1 : ScatterDims S60000 S960000x1 S960000 where
  updateWindowDims := []
  insertedWindowDims := [0]
  scatterDimsToOperandDims := [0]
  indexVectorDim := 1
  wf := scatter_S60000_S960000x1_S960000_n_0_0_1_wf
def gather_S60000x128_S240000x1_S240000x128_1_0_n_n_0_1_1128 : GatherDims S60000x128 S240000x1 S240000x128 where
  offsetDims := [1]
  collapsedSliceDims := [0]
  operandBatchingDims := []
  startIndicesBatchingDims := []
  startIndexMap := [0]
  indexVectorDim := 1
  sliceSizes := ![1, 128]
  wf := gather_S60000x128_S240000x1_S240000x128_1_0_n_n_0_1_1128_wf
def scatter_S15000x128_S240000x1_S240000x128_1_0_0_1 : ScatterDims S15000x128 S240000x1 S240000x128 where
  updateWindowDims := [1]
  insertedWindowDims := [0]
  scatterDimsToOperandDims := [0]
  indexVectorDim := 1
  wf := scatter_S15000x128_S240000x1_S240000x128_1_0_0_1_wf
def scatter_S15000_S240000x1_S240000_n_0_0_1 : ScatterDims S15000 S240000x1 S240000 where
  updateWindowDims := []
  insertedWindowDims := [0]
  scatterDimsToOperandDims := [0]
  indexVectorDim := 1
  wf := scatter_S15000_S240000x1_S240000_n_0_0_1_wf
def dot_S3000x128_S128x128_S3000x128_1_0_0_1_n_n : DotDims S3000x128 S128x128 S3000x128 where
  lhsContracting := [1]
  rhsContracting := [0]
  lhsNonContracting := [0]
  rhsNonContracting := [1]
  lhsBatch := []
  rhsBatch := []
  wf := dot_S3000x128_S128x128_S3000x128_1_0_0_1_n_n_wf
def gather_S15000x128_S64000x1_S64000x128_1_0_n_n_0_1_1128 : GatherDims S15000x128 S64000x1 S64000x128 where
  offsetDims := [1]
  collapsedSliceDims := [0]
  operandBatchingDims := []
  startIndicesBatchingDims := []
  startIndexMap := [0]
  indexVectorDim := 1
  sliceSizes := ![1, 128]
  wf := gather_S15000x128_S64000x1_S64000x128_1_0_n_n_0_1_1128_wf
def scatter_S4000x128_S64000x1_S64000x128_1_0_0_1 : ScatterDims S4000x128 S64000x1 S64000x128 where
  updateWindowDims := [1]
  insertedWindowDims := [0]
  scatterDimsToOperandDims := [0]
  indexVectorDim := 1
  wf := scatter_S4000x128_S64000x1_S64000x128_1_0_0_1_wf
def scatter_S4000_S64000x1_S64000_n_0_0_1 : ScatterDims S4000 S64000x1 S64000 where
  updateWindowDims := []
  insertedWindowDims := [0]
  scatterDimsToOperandDims := [0]
  indexVectorDim := 1
  wf := scatter_S4000_S64000x1_S64000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S6000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S6000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v10) S6000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S6000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21) S6000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v31) S3000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S3000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v41) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v42) S3000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v54) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v63) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v43) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v64) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v65) S2000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S300000x256 : Shape := ⟨2, ![300000, 256]⟩
abbrev S960000 : Shape := ⟨1, ![960000]⟩
abbrev S240000 : Shape := ⟨1, ![240000]⟩
abbrev S64000 : Shape := ⟨1, ![64000]⟩
abbrev S256x128 : Shape := ⟨2, ![256, 128]⟩
abbrev S128 : Shape := ⟨1, ![128]⟩
abbrev S128x128 : Shape := ⟨2, ![128, 128]⟩
abbrev S128x47 : Shape := ⟨2, ![128, 47]⟩
abbrev S47 : Shape := ⟨1, ![47]⟩
abbrev S_ : Shape := ⟨0, ![]⟩
abbrev S960000x1 : Shape := ⟨2, ![960000, 1]⟩
abbrev S960000x256 : Shape := ⟨2, ![960000, 256]⟩
abbrev S60000x256 : Shape := ⟨2, ![60000, 256]⟩
abbrev S60000 : Shape := ⟨1, ![60000]⟩
abbrev S60000x1 : Shape := ⟨2, ![60000, 1]⟩
abbrev S60000x128 : Shape := ⟨2, ![60000, 128]⟩
abbrev S1x128 : Shape := ⟨2, ![1, 128]⟩
abbrev S240000x1 : Shape := ⟨2, ![240000, 1]⟩
abbrev S240000x128 : Shape := ⟨2, ![240000, 128]⟩
abbrev S15000x128 : Shape := ⟨2, ![15000, 128]⟩
abbrev S15000 : Shape := ⟨1, ![15000]⟩
abbrev S15000x1 : Shape := ⟨2, ![15000, 1]⟩
abbrev S64000x1 : Shape := ⟨2, ![64000, 1]⟩
abbrev S64000x128 : Shape := ⟨2, ![64000, 128]⟩
abbrev S4000x128 : Shape := ⟨2, ![4000, 128]⟩
abbrev S4000 : Shape := ⟨1, ![4000]⟩
abbrev S4000x1 : Shape := ⟨2, ![4000, 1]⟩
abbrev S4000x47 : Shape := ⟨2, ![4000, 47]⟩
abbrev S1x47 : Shape := ⟨2, ![1, 47]⟩

abbrev nBuf : Space → Nat
  | .hbm => 106
  | .vmem => 0
  | .smem => 0
  | _ => 0

abbrev bufTy : (tb : Table) → Fin (tcTables nBuf tb) → BufTy
  | .hbm, ⟨0, _⟩ => ⟨S300000x256, .f32⟩
  | .hbm, ⟨1, _⟩ => ⟨S960000, .i32⟩
  | .hbm, ⟨2, _⟩ => ⟨S960000, .i32⟩
  | .hbm, ⟨3, _⟩ => ⟨S240000, .i32⟩
  | .hbm, ⟨4, _⟩ => ⟨S240000, .i32⟩
  | .hbm, ⟨5, _⟩ => ⟨S64000, .i32⟩
  | .hbm, ⟨6, _⟩ => ⟨S64000, .i32⟩
  | .hbm, ⟨7, _⟩ => ⟨S256x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x47, .f32⟩
  | .hbm, ⟨12, _⟩ => ⟨S47, .f32⟩
  | .hbm, ⟨13, _⟩ => ⟨S_, .i32⟩
  | .hbm, ⟨14, _⟩ => ⟨S960000, .i32⟩
  | .hbm, ⟨15, _⟩ => ⟨S960000, .i1⟩
  | .hbm, ⟨16, _⟩ => ⟨S_, .i32⟩
  | .hbm, ⟨17, _⟩ => ⟨S960000, .i32⟩
  | .hbm, ⟨18, _⟩ => ⟨S960000, .i32⟩
  | .hbm, ⟨19, _⟩ => ⟨S960000, .i32⟩
  | .hbm, ⟨20, _⟩ => ⟨S960000x1, .i32⟩
  | .hbm, ⟨21, _⟩ => ⟨S960000x256, .f32⟩
  | .hbm, ⟨22, _⟩ => ⟨S_, .f32⟩
  | .hbm, ⟨23, _⟩ => ⟨S60000x256, .f32⟩
  | .hbm, ⟨24, _⟩ => ⟨S960000x1, .i32⟩
  | .hbm, ⟨25, _⟩ => ⟨S60000x256, .f32⟩
  | .hbm, ⟨26, _⟩ => ⟨S_, .f32⟩
  | .hbm, ⟨27, _⟩ => ⟨S960000, .f32⟩
  | .hbm, ⟨28, _⟩ => ⟨S_, .f32⟩
  | .hbm, ⟨29, _⟩ => ⟨S60000, .f32⟩
  | .hbm, ⟨30, _⟩ => ⟨S960000x1, .i32⟩
  | .hbm, ⟨31, _⟩ => ⟨S60000, .f32⟩
  | .hbm, ⟨32, _⟩ => ⟨S_, .f32⟩
  | .hbm, ⟨33, _⟩ => ⟨S60000, .f32⟩
  | .hbm, ⟨34, _⟩ => ⟨S60000, .f32⟩
  | .hbm, ⟨35, _⟩ => ⟨S60000x1, .f32⟩
  | .hbm, ⟨36, _⟩ => ⟨S60000x256, .f32⟩
  | .hbm, ⟨37, _⟩ => ⟨S60000x256, .f32⟩
  | .hbm, ⟨38, _⟩ => ⟨S60000x128, .f32⟩
  | .hbm, ⟨39, _⟩ => ⟨S1x128, .f32⟩
  | .hbm, ⟨40, _⟩ => ⟨S60000x128, .f32⟩
  | .hbm, ⟨41, _⟩ => ⟨S60000x128, .f32⟩
  | .hbm, ⟨42, _⟩ => ⟨S_, .f32⟩
  | .hbm, ⟨43, _⟩ => ⟨S60000x128, .f32⟩
  | .hbm, ⟨44, _⟩ => ⟨S60000x128, .f32⟩
  | .hbm, ⟨45, _⟩ => ⟨S_, .i32⟩
  | .hbm, ⟨46, _⟩ => ⟨S240000, .i32⟩
  | .hbm, ⟨47, _⟩ => ⟨S240000, .i1⟩
  | .hbm, ⟨48, _⟩ => ⟨S_, .i32⟩
  | .hbm, ⟨49, _⟩ => ⟨S240000, .i32⟩
  | .hbm, ⟨50, _⟩ => ⟨S240000, .i32⟩
  | .hbm, ⟨51, _⟩ => ⟨S240000, .i32⟩
  | .hbm, ⟨52, _⟩ => ⟨S240000x1, .i32⟩
  | .hbm, ⟨53, _⟩ => ⟨S240000x128, .f32⟩
  | .hbm, ⟨54, _⟩ => ⟨S_, .f32⟩
  | .hbm, ⟨55, _⟩ => ⟨S15000x128, .f32⟩
  | .hbm, ⟨56, _⟩ => ⟨S240000x1, .i32⟩
  | .hbm, ⟨57, _⟩ => ⟨S15000x128, .f32⟩
  | .hbm, ⟨58, _⟩ => ⟨S_, .f32⟩
  | .hbm, ⟨59, _⟩ => ⟨S240000, .f32⟩
  | .hbm, ⟨60, _⟩ => ⟨S_, .f32⟩
  | .hbm, ⟨61, _⟩ => ⟨S15000, .f32⟩
  | .hbm, ⟨62, _⟩ => ⟨S240000x1, .i32⟩
  | .hbm, ⟨63, _⟩ => ⟨S15000, .f32⟩
  | .hbm, ⟨64, _⟩ => ⟨S_, .f32⟩
  | .hbm, ⟨65, _⟩ => ⟨S15000, .f32⟩
  | .hbm, ⟨66, _⟩ => ⟨S15000, .f32⟩
  | .hbm, ⟨67, _⟩ => ⟨S15000x1, .f32⟩
  | .hbm, ⟨68, _⟩ => ⟨S15000x128, .f32⟩
  | .hbm, ⟨69, _⟩ => ⟨S15000x128, .f32⟩
  | .hbm, ⟨70, _⟩ => ⟨S15000x128, .f32⟩
  | .hbm, ⟨71, _⟩ => ⟨S1x128, .f32⟩
  | .hbm, ⟨72, _⟩ => ⟨S15000x128, .f32⟩
  | .hbm, ⟨73, _⟩ => ⟨S15000x128, .f32⟩
  | .hbm, ⟨74, _⟩ => ⟨S_, .f32⟩
  | .hbm, ⟨75, _⟩ => ⟨S15000x128, .f32⟩
  | .hbm, ⟨76, _⟩ => ⟨S15000x128, .f32⟩
  | .hbm, ⟨77, _⟩ => ⟨S_, .i32⟩
  | .hbm, ⟨78, _⟩ => ⟨S64000, .i32⟩
  | .hbm, ⟨79, _⟩ => ⟨S64000, .i1⟩
  | .hbm, ⟨80, _⟩ => ⟨S_, .i32⟩
  | .hbm, ⟨81, _⟩ => ⟨S64000, .i32⟩
  | .hbm, ⟨82, _⟩ => ⟨S64000, .i32⟩
  | .hbm, ⟨83, _⟩ => ⟨S64000, .i32⟩
  | .hbm, ⟨84, _⟩ => ⟨S64000x1, .i32⟩
  | .hbm, ⟨85, _⟩ => ⟨S64000x128, .f32⟩
  | .hbm, ⟨86, _⟩ => ⟨S_, .f32⟩
  | .hbm, ⟨87, _⟩ => ⟨S4000x128, .f32⟩
  | .hbm, ⟨88, _⟩ => ⟨S64000x1, .i32⟩
  | .hbm, ⟨89, _⟩ => ⟨S4000x128, .f32⟩
  | .hbm, ⟨90, _⟩ => ⟨S_, .f32⟩
  | .hbm, ⟨91, _⟩ => ⟨S64000, .f32⟩
  | .hbm, ⟨92, _⟩ => ⟨S_, .f32⟩
  | .hbm, ⟨93, _⟩ => ⟨S4000, .f32⟩
  | .hbm, ⟨94, _⟩ => ⟨S64000x1, .i32⟩
  | .hbm, ⟨95, _⟩ => ⟨S4000, .f32⟩
  | .hbm, ⟨96, _⟩ => ⟨S_, .f32⟩
  | .hbm, ⟨97, _⟩ => ⟨S4000, .f32⟩
  | .hbm, ⟨98, _⟩ => ⟨S4000, .f32⟩
  | .hbm, ⟨99, _⟩ => ⟨S4000x1, .f32⟩
  | .hbm, ⟨100, _⟩ => ⟨S4000x128, .f32⟩
  | .hbm, ⟨101, _⟩ => ⟨S4000x128, .f32⟩
  | .hbm, ⟨102, _⟩ => ⟨S4000x47, .f32⟩
  | .hbm, ⟨103, _⟩ => ⟨S1x47, .f32⟩
  | .hbm, ⟨104, _⟩ => ⟨S4000x47, .f32⟩
  | .hbm, ⟨105, _⟩ => ⟨S4000x47, .f32⟩
  | _, _ => ⟨S300000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_cst_2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_3 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_call0_cst : Ref sig .tc := ⟨.hbm, 42, rfl⟩
abbrev main_call0_v0 : Ref sig .tc := ⟨.hbm, 43, rfl⟩
abbrev main_v23 : Ref sig .tc := ⟨.hbm, 44, rfl⟩
abbrev main_c_4 : Ref sig .tc := ⟨.hbm, 45, rfl⟩
abbrev main_v24 : Ref sig .tc := ⟨.hbm, 46, rfl⟩
abbrev main_v25 : Ref sig .tc := ⟨.hbm, 47, rfl⟩
abbrev main_c_5 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_6 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_7 : Ref sig .tc := ⟨.hbm, 58, rfl⟩
abbrev main_v34 : Ref sig .tc := ⟨.hbm, 59, rfl⟩
abbrev main_cst_8 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_9 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_call1_cst : Ref sig .tc := ⟨.hbm, 74, rfl⟩
abbrev main_call1_v0 : Ref sig .tc := ⟨.hbm, 75, rfl⟩
abbrev main_v47 : Ref sig .tc := ⟨.hbm, 76, rfl⟩
abbrev main_c_10 : Ref sig .tc := ⟨.hbm, 77, rfl⟩
abbrev main_v48 : Ref sig .tc := ⟨.hbm, 78, rfl⟩
abbrev main_v49 : Ref sig .tc := ⟨.hbm, 79, rfl⟩
abbrev main_c_11 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_12 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_13 : Ref sig .tc := ⟨.hbm, 90, rfl⟩
abbrev main_v58 : Ref sig .tc := ⟨.hbm, 91, rfl⟩
abbrev main_cst_14 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_15 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩

abbrev nD : Nat := 1
abbrev τ : Topo := Topo.v7x

variable {F : FTy → Type} [FloatOps F]

class Facts₀ : Prop where
  bcast_S_S960000 : S_.BroadcastsInDim S960000 (![] : Fin 0 → Fin S960000.rank)
  bcast_S960000_S960000x1_0 : S960000.BroadcastsInDim S960000x1 (![0] : Fin 1 → Fin S960000x1.rank)
  bcast_S_S60000x256 : S_.BroadcastsInDim S60000x256 (![] : Fin 0 → Fin S60000x256.rank)
  bcast_S_S60000 : S_.BroadcastsInDim S60000 (![] : Fin 0 → Fin S60000.rank)
  bcast_S60000_S60000x1_0 : S60000.BroadcastsInDim S60000x1 (![0] : Fin 1 → Fin S60000x1.rank)
  bcast_S60000x1_S60000x256_0_1 : S60000x1.BroadcastsInDim S60000x256 (![0, 1] : Fin 2 → Fin S60000x256.rank)
  bcast_S128_S1x128_1 : S128.BroadcastsInDim S1x128 (![1] : Fin 1 → Fin S1x128.rank)
  bcast_S1x128_S60000x128_0_1 : S1x128.BroadcastsInDim S60000x128 (![0, 1] : Fin 2 → Fin S60000x128.rank)
  bcast_S_S60000x128 : S_.BroadcastsInDim S60000x128 (![] : Fin 0 → Fin S60000x128.rank)
  bcast_S_S240000 : S_.BroadcastsInDim S240000 (![] : Fin 0 → Fin S240000.rank)
  bcast_S240000_S240000x1_0 : S240000.BroadcastsInDim S240000x1 (![0] : Fin 1 → Fin S240000x1.rank)
  bcast_S_S15000x128 : S_.BroadcastsInDim S15000x128 (![] : Fin 0 → Fin S15000x128.rank)
  bcast_S_S15000 : S_.BroadcastsInDim S15000 (![] : Fin 0 → Fin S15000.rank)
  bcast_S15000_S15000x1_0 : S15000.BroadcastsInDim S15000x1 (![0] : Fin 1 → Fin S15000x1.rank)
  bcast_S15000x1_S15000x128_0_1 : S15000x1.BroadcastsInDim S15000x128 (![0, 1] : Fin 2 → Fin S15000x128.rank)
  bcast_S1x128_S15000x128_0_1 : S1x128.BroadcastsInDim S15000x128 (![0, 1] : Fin 2 → Fin S15000x128.rank)
  bcast_S_S64000 : S_.BroadcastsInDim S64000 (![] : Fin 0 → Fin S64000.rank)
  bcast_S64000_S64000x1_0 : S64000.BroadcastsInDim S64000x1 (![0] : Fin 1 → Fin S64000x1.rank)
  bcast_S_S4000x128 : S_.BroadcastsInDim S4000x128 (![] : Fin 0 → Fin S4000x128.rank)
  bcast_S_S4000 : S_.BroadcastsInDim S4000 (![] : Fin 0 → Fin S4000.rank)
  bcast_S4000_S4000x1_0 : S4000.BroadcastsInDim S4000x1 (![0] : Fin 1 → Fin S4000x1.rank)
  bcast_S4000x1_S4000x128_0_1 : S4000x1.BroadcastsInDim S4000x128 (![0, 1] : Fin 2 → Fin S4000x128.rank)
  bcast_S47_S1x47_1 : S47.BroadcastsInDim S1x47 (![1] : Fin 1 → Fin S1x47.rank)
  bcast_S1x47_S4000x47_0_1 : S1x47.BroadcastsInDim S4000x47 (![0, 1] : Fin 2 → Fin S4000x47.rank)
  gather_S300000x256_S960000x1_S960000x256_1_0_n_n_0_1_1256_wf : GatherDims.WF S300000x256 S960000x1 S960000x256 [1] [0] [] [0] [] 1 ![1, 256]
  scatter_S60000x256_S960000x1_S960000x256_1_0_0_1_wf : ScatterDims.WF S60000x256 S960000x1 S960000x256 [1] [0] [0] 1
  scatter_S60000_S960000x1_S960000_n_0_0_1_wf : ScatterDims.WF S60000 S960000x1 S960000 [] [0] [0] 1
  dot_S60000x256_S256x128_S60000x128_1_0_0_1_n_n_wf : DotDims.WF S60000x256 S256x128 S60000x128 [1] [0] [0] [1] [] []
  gather_S60000x128_S240000x1_S240000x128_1_0_n_n_0_1_1128_wf : GatherDims.WF S60000x128 S240000x1 S240000x128 [1] [0] [] [0] [] 1 ![1, 128]
  scatter_S15000x128_S240000x1_S240000x128_1_0_0_1_wf : ScatterDims.WF S15000x128 S240000x1 S240000x128 [1] [0] [0] 1
  scatter_S15000_S240000x1_S240000_n_0_0_1_wf : ScatterDims.WF S15000 S240000x1 S240000 [] [0] [0] 1
  dot_S15000x128_S128x128_S15000x128_1_0_0_1_n_n_wf : DotDims.WF S15000x128 S128x128 S15000x128 [1] [0] [0] [1] [] []
  gather_S15000x128_S64000x1_S64000x128_1_0_n_n_0_1_1128_wf : GatherDims.WF S15000x128 S64000x1 S64000x128 [1] [0] [] [0] [] 1 ![1, 128]
  scatter_S4000x128_S64000x1_S64000x128_1_0_0_1_wf : ScatterDims.WF S4000x128 S64000x1 S64000x128 [1] [0] [0] 1
  scatter_S4000_S64000x1_S64000_n_0_0_1_wf : ScatterDims.WF S4000 S64000x1 S64000 [] [0] [0] 1
  dot_S4000x128_S128x47_S4000x47_1_0_0_1_n_n_wf : DotDims.WF S4000x128 S128x47 S4000x47 [1] [0] [0] [1] [] []

variable [Facts₀]

def gather_S300000x256_S960000x1_S960000x256_1_0_n_n_0_1_1256 : GatherDims S300000x256 S960000x1 S960000x256 where
  offsetDims := [1]
  collapsedSliceDims := [0]
  operandBatchingDims := []
  startIndicesBatchingDims := []
  startIndexMap := [0]
  indexVectorDim := 1
  sliceSizes := ![1, 256]
  wf := gather_S300000x256_S960000x1_S960000x256_1_0_n_n_0_1_1256_wf
def scatter_S60000x256_S960000x1_S960000x256_1_0_0_1 : ScatterDims S60000x256 S960000x1 S960000x256 where
  updateWindowDims := [1]
  insertedWindowDims := [0]
  scatterDimsToOperandDims := [0]
  indexVectorDim := 1
  wf := scatter_S60000x256_S960000x1_S960000x256_1_0_0_1_wf
def scatter_S60000_S960000x1_S960000_n_0_0_1 : ScatterDims S60000 S960000x1 S960000 where
  updateWindowDims := []
  insertedWindowDims := [0]
  scatterDimsToOperandDims := [0]
  indexVectorDim := 1
  wf := scatter_S60000_S960000x1_S960000_n_0_0_1_wf
def dot_S60000x256_S256x128_S60000x128_1_0_0_1_n_n : DotDims S60000x256 S256x128 S60000x128 where
  lhsContracting := [1]
  rhsContracting := [0]
  lhsNonContracting := [0]
  rhsNonContracting := [1]
  lhsBatch := []
  rhsBatch := []
  wf := dot_S60000x256_S256x128_S60000x128_1_0_0_1_n_n_wf
def gather_S60000x128_S240000x1_S240000x128_1_0_n_n_0_1_1128 : GatherDims S60000x128 S240000x1 S240000x128 where
  offsetDims := [1]
  collapsedSliceDims := [0]
  operandBatchingDims := []
  startIndicesBatchingDims := []
  startIndexMap := [0]
  indexVectorDim := 1
  sliceSizes := ![1, 128]
  wf := gather_S60000x128_S240000x1_S240000x128_1_0_n_n_0_1_1128_wf
def scatter_S15000x128_S240000x1_S240000x128_1_0_0_1 : ScatterDims S15000x128 S240000x1 S240000x128 where
  updateWindowDims := [1]
  insertedWindowDims := [0]
  scatterDimsToOperandDims := [0]
  indexVectorDim := 1
  wf := scatter_S15000x128_S240000x1_S240000x128_1_0_0_1_wf
def scatter_S15000_S240000x1_S240000_n_0_0_1 : ScatterDims S15000 S240000x1 S240000 where
  updateWindowDims := []
  insertedWindowDims := [0]
  scatterDimsToOperandDims := [0]
  indexVectorDim := 1
  wf := scatter_S15000_S240000x1_S240000_n_0_0_1_wf
def dot_S15000x128_S128x128_S15000x128_1_0_0_1_n_n : DotDims S15000x128 S128x128 S15000x128 where
  lhsContracting := [1]
  rhsContracting := [0]
  lhsNonContracting := [0]
  rhsNonContracting := [1]
  lhsBatch := []
  rhsBatch := []
  wf := dot_S15000x128_S128x128_S15000x128_1_0_0_1_n_n_wf
def gather_S15000x128_S64000x1_S64000x128_1_0_n_n_0_1_1128 : GatherDims S15000x128 S64000x1 S64000x128 where
  offsetDims := [1]
  collapsedSliceDims := [0]
  operandBatchingDims := []
  startIndicesBatchingDims := []
  startIndexMap := [0]
  indexVectorDim := 1
  sliceSizes := ![1, 128]
  wf := gather_S15000x128_S64000x1_S64000x128_1_0_n_n_0_1_1128_wf
def scatter_S4000x128_S64000x1_S64000x128_1_0_0_1 : ScatterDims S4000x128 S64000x1 S64000x128 where
  updateWindowDims := [1]
  insertedWindowDims := [0]
  scatterDimsToOperandDims := [0]
  indexVectorDim := 1
  wf := scatter_S4000x128_S64000x1_S64000x128_1_0_0_1_wf
def scatter_S4000_S64000x1_S64000_n_0_0_1 : ScatterDims S4000 S64000x1 S64000 where
  updateWindowDims := []
  insertedWindowDims := [0]
  scatterDimsToOperandDims := [0]
  indexVectorDim := 1
  wf := scatter_S4000_S64000x1_S64000_n_0_0_1_wf
def dot_S4000x128_S128x47_S4000x47_1_0_0_1_n_n : DotDims S4000x128 S128x47 S4000x47 where
  lhsContracting := [1]
  rhsContracting := [0]
  lhsNonContracting := [0]
  rhsNonContracting := [1]
  lhsBatch := []
  rhsBatch := []
  wf := dot_S4000x128_S128x47_S4000x47_1_0_0_1_n_n_wf

class Facts : Prop extends Facts₀ where

variable [Facts]
-- ==== Proof.KernelRun.lean ====
/-
  The program's run with its RESULT named: every weakly fair execution ends with the result buffer at what the last
  stretch of host operations leaves there — the fold of the four dense steps and of the host stretches between them
  over the launch memory — and with the argument arrays as launched.
-/
import proofs.«118031_j18141941859038_2_alg».proof.Proof.Gen.KernelIdeal.Frame

set_option maxRecDepth 16384

noncomputable section

namespace Cert.KernelIdeal.KV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_result : θ_run defs (onTc (τ := τ) (main (F := F))) ⟨m, fun _ => 0, ρ⟩ (fun r => ∀ c : Dev nD,
      r.2.mem ((c.tc : Thread nD τ).loc main_v66) = W12 m ρ c (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v66 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c)⟩)

end Cert.KernelIdeal.KV

end
-- ==== Proof.Spec.lean ====
/-
  The three dense steps of a three-layer mean-aggregating graph network, each as ONE function of whole arrays, index by
  index, on the extended reals: a product of a row array with a weight matrix; a scaled row plus a bias, clipped at
  zero; and a scaled row times a weight matrix plus a bias, clipped at zero or not. "Scaled" is the product of every
  entry of row `r` with the one entry of row `r` of a column `[M, 1]` — the reciprocal of a node's in-degree.
-/
import Idealize.ShloMosaic.Lib.ValueIdx

noncomputable section

open scoped BigOperators

namespace Cert.Spec

open Idealize.ShloMosaic Idealize.ShloMosaic.ValueIdx

/-- A rank-2 array of extended reals. -/
abbrev A2 (a b : Nat) := (⟨2, ![a, b]⟩ : Shape).Idx → EReal

/-- The row coordinate of a rank-2 index, typed by the literal extent. -/
abbrev row {a b : Nat} (i : (⟨2, ![a, b]⟩ : Shape).Idx) : Fin a := ⟨(i 0).val, idx2_lt0 i⟩
/-- The column coordinate of a rank-2 index, typed by the literal extent. -/
abbrev col {a b : Nat} (i : (⟨2, ![a, b]⟩ : Shape).Idx) : Fin b := ⟨(i 1).val, idx2_lt1 i⟩

theorem row_ix2 {a b : Nat} (p : Fin a) (q : Fin b) : row (ix2 p q) = p := rfl
theorem col_ix2 {a b : Nat} (p : Fin a) (q : Fin b) : col (ix2 p q) = q := rfl

/-- Rows times a matrix: entry `(r, n)` is `Σ_k A[r, k] · B[k, n]`. -/
def mm {M K N : Nat} (A : A2 M K) (B : A2 K N) : A2 M N :=
  fun i => ∑ k : Fin K, A (ix2 (row i) k) * B (ix2 k (col i))

/-- A scaled row plus a bias, clipped at zero: entry `(r, n)` is `max (S[r, n] · v[r, 0] + b[0, n]) 0`. -/
def scaleBiasRelu {M C : Nat} (S : A2 M C) (v : A2 M 1) (b : A2 1 C) : A2 M C :=
  fun i => max (S i * v (ix2 (row i) (0 : Fin 1)) + b (ix2 (0 : Fin 1) (col i))) 0

/-- A scaled row times a matrix plus a bias: entry `(r, n)` is `Σ_k (S[r, k] · v[r, 0]) · W[k, n] + b[0, n]`. -/
def scaleMmBias {M K N : Nat} (S : A2 M K) (v : A2 M 1) (W : A2 K N) (b : A2 1 N) : A2 M N :=
  fun i => (∑ k : Fin K, (S (ix2 (row i) k) * v (ix2 (row i) (0 : Fin 1))) * W (ix2 k (col i))) + b (ix2 (0 : Fin 1) (col i))

/-- The same clipped at zero. -/
def scaleMmBiasRelu {M K N : Nat} (S : A2 M K) (v : A2 M 1) (W : A2 K N) (b : A2 1 N) : A2 M N :=
  fun i => max (scaleMmBias S v W b i) 0

end Cert.Spec

end
-- ==== Proof.KernelTerms.lean ====
/-
  The kernel's program as ONE function of its thirteen argument arrays: between the dense steps the host gathers the
  rows of the edges' source nodes, sums them per destination node, counts the edges per destination node and takes the
  reciprocal of `max(count, 1)`; the last layer's weight matrix and bias are padded with zero columns to 128 and the
  result cut back to its first 47 columns.
-/
import proofs.«118031_j18141941859038_2_alg».proof.Proof.Gen.KernelIdeal
import proofs.«118031_j18141941859038_2_alg».proof.Proof.Spec
import Idealize.ShloMosaic.PureOps.Ideal
import Idealize.ShloMosaic.Lib.ValueIdx

noncomputable section

namespace Cert.KernelIdeal.KV

open Cert.KernelIdeal Idealize.ShloMosaic Idealize.ShloMosaic.ValueIdx Cert.Spec
open Facts₀ Facts

/-- Layer 0's source indices as the gather reads them: a negative index counted from the end, then one per row
    of an `[E, 1]` column. -/
def wrapIdx0 (xs : IVec S960000 32) : IVec S960000x1 32 :=
  broadcastInDim S960000x1 ![0] bcast_S960000_S960000x1_0
    (select (cmpi .slt xs (broadcastInDim S960000 ![] bcast_S_S960000 (constantI S_ 32 0#32)))
      (addi xs (broadcastInDim S960000 ![] bcast_S_S960000 (constantI S_ 32 300000#32))) xs)

/-- Layer 0's message sums: for every destination node the sum, over the edges into it, of the source node's row
    of `H`. -/
def segSum0 (H : FVec Ideal S300000x128 .f32) (xs xd : IVec S960000 32) : FVec Ideal S60000x128 .f32 :=
  Host.scatterAdd (F := Ideal) scatter_S60000x128_S960000x1_S960000x128_1_0_0_1
    (broadcastInDim S60000x128 ![] bcast_S_S60000x128 (constant (F := Ideal) S_ .f32 0x00000000#32))
    (broadcastInDim S960000x1 ![0] bcast_S960000_S960000x1_0 xd)
    (Host.gather gather_S300000x128_S960000x1_S960000x128_1_0_n_n_0_1_1128 H (wrapIdx0 xs))

/-- Layer 0's in-degrees: for every destination node the number of edges into it, as a sum of ones. -/
def deg0 (xd : IVec S960000 32) : FVec Ideal S60000 .f32 :=
  Host.scatterAdd (F := Ideal) scatter_S60000_S960000x1_S960000_n_0_0_1
    (broadcastInDim S60000 ![] bcast_S_S60000 (constant (F := Ideal) S_ .f32 0x00000000#32))
    (broadcastInDim S960000x1 ![0] bcast_S960000_S960000x1_0 xd)
    (broadcastInDim S960000 ![] bcast_S_S960000 (constant (F := Ideal) S_ .f32 0x3F800000#32))

/-- The reciprocal of `max(in-degree, 1)`, as a column. -/
def invDeg0 (xd : IVec S960000 32) : FVec Ideal S60000x1 .f32 :=
  broadcastInDim S60000x1 ![0] bcast_S60000_S60000x1_0
    (Host.divf (F := Ideal) (broadcastInDim S60000 ![] bcast_S_S60000 (constant (F := Ideal) S_ .f32 0x3F800000#32))
      (maximumf (deg0 xd) (broadcastInDim S60000 ![] bcast_S_S60000 (constant (F := Ideal) S_ .f32 0x3F800000#32))))

/-- Layer 1's source indices as the gather reads them: a negative index counted from the end, then one per row
    of an `[E, 1]` column. -/
def wrapIdx1 (xs : IVec S240000 32) : IVec S240000x1 32 :=
  broadcastInDim S240000x1 ![0] bcast_S240000_S240000x1_0
    (select (cmpi .slt xs (broadcastInDim S240000 ![] bcast_S_S240000 (constantI S_ 32 0#32)))
      (addi xs (broadcastInDim S240000 ![] bcast_S_S240000 (constantI S_ 32 60000#32))) xs)

/-- Layer 1's message sums: for every destination node the sum, over the edges into it, of the source node's row
    of `H`. -/
def segSum1 (H : FVec Ideal S60000x128 .f32) (xs xd : IVec S240000 32) : FVec Ideal S15000x128 .f32 :=
  Host.scatterAdd (F := Ideal) scatter_S15000x128_S240000x1_S240000x128_1_0_0_1
    (broadcastInDim S15000x128 ![] bcast_S_S15000x128 (constant (F := Ideal) S_ .f32 0x00000000#32))
    (broadcastInDim S240000x1 ![0] bcast_S240000_S240000x1_0 xd)
    (Host.gather gather_S60000x128_S240000x1_S240000x128_1_0_n_n_0_1_1128 H (wrapIdx1 xs))

/-- Layer 1's in-degrees: for every destination node the number of edges into it, as a sum of ones. -/
def deg1 (xd : IVec S240000 32) : FVec Ideal S15000 .f32 :=
  Host.scatterAdd (F := Ideal) scatter_S15000_S240000x1_S240000_n_0_0_1
    (broadcastInDim S15000 ![] bcast_S_S15000 (constant (F := Ideal) S_ .f32 0x00000000#32))
    (broadcastInDim S240000x1 ![0] bcast_S240000_S240000x1_0 xd)
    (broadcastInDim S240000 ![] bcast_S_S240000 (constant (F := Ideal) S_ .f32 0x3F800000#32))

/-- The reciprocal of `max(in-degree, 1)`, as a column. -/
def invDeg1 (xd : IVec S240000 32) : FVec Ideal S15000x1 .f32 :=
  broadcastInDim S15000x1 ![0] bcast_S15000_S15000x1_0
    (Host.divf (F := Ideal) (broadcastInDim S15000 ![] bcast_S_S15000 (constant (F := Ideal) S_ .f32 0x3F800000#32))
      (maximumf (deg1 xd) (broadcastInDim S15000 ![] bcast_S_S15000 (constant (F := Ideal) S_ .f32 0x3F800000#32))))

/-- Layer 2's source indices as the gather reads them: a negative index counted from the end, then one per row
    of an `[E, 1]` column. -/
def wrapIdx2 (xs : IVec S64000 32) : IVec S64000x1 32 :=
  broadcastInDim S64000x1 ![0] bcast_S64000_S64000x1_0
    (select (cmpi .slt xs (broadcastInDim S64000 ![] bcast_S_S64000 (constantI S_ 32 0#32)))
      (addi xs (broadcastInDim S64000 ![] bcast_S_S64000 (constantI S_ 32 15000#32))) xs)

/-- Layer 2's message sums: for every destination node the sum, over the edges into it, of the source node's row
    of `H`. -/
def segSum2 (H : FVec Ideal S15000x128 .f32) (xs xd : IVec S64000 32) : FVec Ideal S4000x128 .f32 :=
  Host.scatterAdd (F := Ideal) scatter_S4000x128_S64000x1_S64000x128_1_0_0_1
    (broadcastInDim S4000x128 ![] bcast_S_S4000x128 (constant (F := Ideal) S_ .f32 0x00000000#32))
    (broadcastInDim S64000x1 ![0] bcast_S64000_S64000x1_0 xd)
    (Host.gather gather_S15000x128_S64000x1_S64000x128_1_0_n_n_0_1_1128 H (wrapIdx2 xs))

/-- Layer 2's in-degrees: for every destination node the number of edges into it, as a sum of ones. -/
def deg2 (xd : IVec S64000 32) : FVec Ideal S4000 .f32 :=
  Host.scatterAdd (F := Ideal) scatter_S4000_S64000x1_S64000_n_0_0_1
    (broadcastInDim S4000 ![] bcast_S_S4000 (constant (F := Ideal) S_ .f32 0x00000000#32))
    (broadcastInDim S64000x1 ![0] bcast_S64000_S64000x1_0 xd)
    (broadcastInDim S64000 ![] bcast_S_S64000 (constant (F := Ideal) S_ .f32 0x3F800000#32))

/-- The reciprocal of `max(in-degree, 1)`, as a column. -/
def invDeg2 (xd : IVec S64000 32) : FVec Ideal S4000x1 .f32 :=
  broadcastInDim S4000x1 ![0] bcast_S4000_S4000x1_0
    (Host.divf (F := Ideal) (broadcastInDim S4000 ![] bcast_S_S4000 (constant (F := Ideal) S_ .f32 0x3F800000#32))
      (maximumf (deg2 xd) (broadcastInDim S4000 ![] bcast_S_S4000 (constant (F := Ideal) S_ .f32 0x3F800000#32))))

/-- A bias vector as a `[1, 128]` row. -/
def biasRow (b : FVec Ideal S128 .f32) : FVec Ideal S1x128 .f32 := shapeCast S1x128 b shapeCasts_S128_S1x128

/-- The last weight matrix with 81 zero columns appended. -/
def padW (w : FVec Ideal S128x47 .f32) : FVec Ideal S128x128 .f32 :=
  pad S128x128 ![0, 0] ![0, 81] ![0, 0] w (sitofp (F := Ideal) .f32 (constantI S_ 32 0#32)) pads_S128x47_S128x128_000_0810 h_S_

/-- The last bias with 81 zeros appended. -/
def padB (b : FVec Ideal S47 .f32) : FVec Ideal S128 .f32 :=
  pad S128 ![0] ![81] ![0] b (sitofp (F := Ideal) .f32 (constantI S_ 32 0#32)) pads_S47_S128_0810 h_S_

/-- The first hidden layer. -/
def hidden1 (x0 : FVec Ideal S300000x256 .f32) (x1 x2 : IVec S960000 32) (x7 : FVec Ideal S256x128 .f32) (x8 : FVec Ideal S128 .f32) :
    FVec Ideal S60000x128 .f32 :=
  scaleBiasRelu (segSum0 (mm x0 x7) x1 x2) (invDeg0 x2) (biasRow x8)

/-- The second hidden layer, from the first. -/
def hidden2 (H : FVec Ideal S60000x128 .f32) (x3 x4 : IVec S240000 32) (x9 : FVec Ideal S128x128 .f32) (x10 : FVec Ideal S128 .f32) :
    FVec Ideal S15000x128 .f32 :=
  scaleMmBiasRelu (segSum1 H x3 x4) (invDeg1 x4) x9 (biasRow x10)

/-- The padded output layer, from the second hidden layer. -/
def outPad (H : FVec Ideal S15000x128 .f32) (x5 x6 : IVec S64000 32) (x11 : FVec Ideal S128x47 .f32) (x12 : FVec Ideal S47 .f32) :
    FVec Ideal S4000x128 .f32 :=
  scaleMmBias (segSum2 H x5 x6) (invDeg2 x6) (padW x11) (biasRow (padB x12))

/-- The kernel's result. -/
def result (x0 : FVec Ideal S300000x256 .f32) (x1 x2 : IVec S960000 32) (x3 x4 : IVec S240000 32) (x5 x6 : IVec S64000 32)
    (x7 : FVec Ideal S256x128 .f32) (x8 : FVec Ideal S128 .f32) (x9 : FVec Ideal S128x128 .f32) (x10 : FVec Ideal S128 .f32)
    (x11 : FVec Ideal S128x47 .f32) (x12 : FVec Ideal S47 .f32) : FVec Ideal S4000x47 .f32 :=
  extractStridedSlice S4000x47 ![0, 0] (outPad (hidden2 (hidden1 x0 x1 x2 x7 x8) x3 x4 x9 x10) x5 x6 x11 x12) slices_S4000x128_S4000x47_0_0

end Cert.KernelIdeal.KV

end
-- ==== Proof.Region0.lean ====
/-
  The first dense step: every block of 6000 rows of the feature array is multiplied by the whole first weight matrix,
  so the array the step leaves is the product of the feature array with the weight matrix, index by index: entry
  `(r, n)` is `Σ_k x[r, k] · w[k, n]` (the roundings to bf16 on the way into the matrix unit are the identity on the
  extended reals, and the accumulator starts at zero).
-/
import proofs.«118031_j18141941859038_2_alg».proof.Proof.Gen.KernelIdeal.Frame
import proofs.«118031_j18141941859038_2_alg».proof.Proof.Spec

import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.KV

open Cert.KernelIdeal Cert.KernelIdeal.Gen Idealize.ShloMosaic Idealize.ShloMosaic.TcCoe Idealize.SL.Sem
open Idealize.ShloMosaic.ValueIdx Cert.Spec
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-- The dot's operand indices at a result index and a contraction index, coordinate by coordinate. -/
theorem lhs0_0 (i : S6000x128.Idx) (q : dot_S6000x256_S256x128_S6000x128_1_0_0_1_n_n.contr.Idx) : (dot_S6000x256_S256x128_S6000x128_1_0_0_1_n_n.lhsIdx i q 0).val = (i 0).val := by
  unfold DotDims.lhsIdx
  rw [dif_neg (show ¬(0 : Fin S6000x256.rank) ∈ dot_S6000x256_S256x128_S6000x128_1_0_0_1_n_n.lhsBatch by decide), dif_pos (show (0 : Fin S6000x256.rank) ∈ dot_S6000x256_S256x128_S6000x128_1_0_0_1_n_n.lhsNonContracting by decide)]
  rfl
theorem lhs0_1 (i : S6000x128.Idx) (q : dot_S6000x256_S256x128_S6000x128_1_0_0_1_n_n.contr.Idx) : (dot_S6000x256_S256x128_S6000x128_1_0_0_1_n_n.lhsIdx i q 1).val = (q ⟨0, by decide⟩).val :=
  dot_S6000x256_S256x128_S6000x128_1_0_0_1_n_n.lhsIdx_val_of_single rfl i q
theorem rhs0_0 (i : S6000x128.Idx) (q : dot_S6000x256_S256x128_S6000x128_1_0_0_1_n_n.contr.Idx) : (dot_S6000x256_S256x128_S6000x128_1_0_0_1_n_n.rhsIdx i q 0).val = (q ⟨0, by decide⟩).val :=
  dot_S6000x256_S256x128_S6000x128_1_0_0_1_n_n.rhsIdx_val_of_single rfl i q
theorem rhs0_1 (i : S6000x128.Idx) (q : dot_S6000x256_S256x128_S6000x128_1_0_0_1_n_n.contr.Idx) : (dot_S6000x256_S256x128_S6000x128_1_0_0_1_n_n.rhsIdx i q 1).val = (i 1).val := by
  unfold DotDims.rhsIdx
  rw [dif_neg (show ¬(1 : Fin S256x128.rank) ∈ dot_S6000x256_S256x128_S6000x128_1_0_0_1_n_n.rhsBatch by decide), dif_pos (show (1 : Fin S256x128.rank) ∈ dot_S6000x256_S256x128_S6000x128_1_0_0_1_n_n.rhsNonContracting by decide)]
  rfl

/-- The matrix unit's product into a zero accumulator, read at row `p`, column `q`: the row of the left operand
    against the column of the right one. -/
theorem dot0_apply {φ₁ φ₂ : FTy} (l : FVec Ideal S6000x256 φ₁) (r : FVec Ideal S256x128 φ₂) (p : Fin 6000) (q : Fin 128) :
    matmul (F := Ideal) dot_S6000x256_S256x128_S6000x128_1_0_0_1_n_n none l r (constant S6000x128 .f32 0x00000000#32) (ix2 p q) = ∑ k : Fin 256, l (ix2 p k) * r (ix2 k q) := by
  refine (Ideal.matmul_constant_zero_apply dot_S6000x256_S256x128_S6000x128_1_0_0_1_n_n none l r (ix2 p q)).trans ?_
  rw [← Equiv.sum_comp (contrEquiv1 dot_S6000x256_S256x128_S6000x128_1_0_0_1_n_n 256 rfl rfl).symm]
  refine Finset.sum_congr rfl fun k _ => ?_
  have hk := contrEquiv1_symm_val dot_S6000x256_S256x128_S6000x128_1_0_0_1_n_n 256 rfl rfl k
  have el : dot_S6000x256_S256x128_S6000x128_1_0_0_1_n_n.lhsIdx (ix2 p q) ((contrEquiv1 dot_S6000x256_S256x128_S6000x128_1_0_0_1_n_n 256 rfl rfl).symm k) = ix2 p k := funext fun a => Fin.ext (by
    match a with
    | ⟨0, _⟩ => exact lhs0_0 _ _
    | ⟨1, _⟩ => exact (lhs0_1 _ _).trans hk)
  have er : dot_S6000x256_S256x128_S6000x128_1_0_0_1_n_n.rhsIdx (ix2 p q) ((contrEquiv1 dot_S6000x256_S256x128_S6000x128_1_0_0_1_n_n 256 rfl rfl).symm k) = ix2 k q := funext fun a => Fin.ext (by
    match a with
    | ⟨0, _⟩ => exact (rhs0_0 _ _).trans hk
    | ⟨1, _⟩ => exact rhs0_1 _ _)
  rw [el, er]

/-- The body's value at row `p`, column `q` of a block. -/
theorem pay0_apply (x0 : Vec Ideal S6000x256 .f32) (x1 : Vec Ideal S256x128 .f32) (p : Fin 6000) (q : Fin 128) :
    k0_pay1 (F := Ideal) x0 x1 (ix2 p q) = ∑ k : Fin 256, x0 (ix2 p k) * x1 (ix2 k q) := by
  unfold k0_pay1
  exact dot0_apply _ _ p q

/-- Where the blocks sit: the feature block and the result block at point `t` are rows `6000·t …`, the weight
    matrix is one block. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The array the step leaves, as a function of the arrays it finds. -/
abbrev proj (c : Dev nD) : A2 300000 128 := mm (V c (Pipeline.arrRef spec0 0)) (V c (Pipeline.arrRef spec0 1))

/-- What point `t` writes back is block `t` of the product. -/
theorem flushed0 (c : Dev nD) (t : Fin cfg0.N) :
    (dat0 V c).flushed 2 t = ((cfg0.win 2).blk t).view.read (Elt Ideal) (proj V c) := by
  show (cfg0.win 2).cut (grid0.coords t) ((dat0 V c).after 2 t) = _
  rw [after0_2]
  unfold out0_2
  rw [View.canon_unit_zero hz0]
  simp only [View.ld_unit_zero (S := S6000x256) hz0, View.ld_unit_zero (S := S256x128) hz0]
  obtain ⟨e0, e1, e2, e3, e4, e5⟩ := idx_facts0 t
  funext y
  obtain ⟨p, q, rfl⟩ : ∃ (p : Fin 6000) (q : Fin 128), y = ix2 p q := ⟨y 0, y 1, eq_ix2 y⟩
  refine (pay0_apply _ _ p q).trans ?_
  show _ = mm (V c (Pipeline.arrRef spec0 0)) (V c (Pipeline.arrRef spec0 1)) (((cfg0.win 2).blk t).view.emb (ix2 p q))
  unfold mm
  refine Finset.sum_congr rfl fun k _ => ?_
  have h0 : iblk0 V c 0 t (ix2 p k) = V c (Pipeline.arrRef spec0 0) (ix2 (row (((cfg0.win 2).blk t).view.emb (ix2 p q))) k) := by
    show V c (Pipeline.arrRef spec0 0) (((cfg0.win 0).blk t).view.emb (ix2 p k)) = _
    refine congrArg _ (funext fun a => Fin.ext ?_)
    match a with
    | ⟨0, _⟩ => show win0_0.index t (0 : Fin 2) * 6000 + 1 * p.val = win0_2.index t (0 : Fin 2) * 6000 + 1 * p.val; omega
    | ⟨1, _⟩ => show win0_0.index t (1 : Fin 2) * 256 + 1 * k.val = k.val; omega
  have h1 : iblk0 V c 1 t (ix2 k q) = V c (Pipeline.arrRef spec0 1) (ix2 k (col (((cfg0.win 2).blk t).view.emb (ix2 p q)))) := by
    show V c (Pipeline.arrRef spec0 1) (((cfg0.win 1).blk t).view.emb (ix2 k q)) = _
    refine congrArg _ (funext fun a => Fin.ext ?_)
    match a with
    | ⟨0, _⟩ => show win0_1.index t (0 : Fin 2) * 256 + 1 * k.val = k.val; omega
    | ⟨1, _⟩ => show win0_1.index t (1 : Fin 2) * 128 + 1 * q.val = win0_2.index t (1 : Fin 2) * 128 + 1 * q.val; omega
  rw [h0, h1]

/-- An index of the result array is in point `t`'s block iff each coordinate is in the block's range. -/
theorem mem_blk0 (t : Fin cfg0.N) (i : S300000x128.Idx) :
    i ∈ ((cfg0.win 2).blk t).view.set ↔ ∀ a : Fin 2, win0_2.index t a * S6000x128.size a ≤ (i a).val ∧ (i a).val < win0_2.index t a * S6000x128.size a + S6000x128.size a := by
  show i ∈ ((View.whole main_v0).slice (win0_2.rect t)).set ↔ _
  rw [View.set_slice_whole, Rect.mem_set_unit]
  exact Iff.rfl

/-- Every row of the result is in the block of the point `row / 6000`. -/
theorem cover0 (i : S300000x128.Idx) : ∃ t : Fin cfg0.N, (cfg0.win 2).flush t = true ∧ i ∈ ((cfg0.win 2).blk t).view.set := by
  have hi0 : (i 0).val < 300000 := (i 0).isLt
  have hi1 : (i 1).val < 128 := (i 1).isLt
  have hN : grid0.N = 50 := N_0
  let t : Fin cfg0.N := ⟨(i 0).val / 6000, by show (i 0).val / 6000 < grid0.N; rw [hN]; omega⟩
  obtain ⟨e0, e1, e2, e3, e4, e5⟩ := idx_facts0 t
  have ht : t.val = (i 0).val / 6000 := rfl
  refine ⟨t, flush0_2 t, ?_⟩
  rw [mem_blk0]
  intro a
  match a with
  | ⟨0, _⟩ => show win0_2.index t (0 : Fin 2) * 6000 ≤ (i 0).val ∧ (i 0).val < win0_2.index t (0 : Fin 2) * 6000 + 6000; omega
  | ⟨1, _⟩ => show win0_2.index t (1 : Fin 2) * 128 ≤ (i 1).val ∧ (i 1).val < win0_2.index t (1 : Fin 2) * 128 + 128; omega

/-- THE ARRAY the first step leaves: the product of the feature array with the weight matrix. -/
theorem final0 (c : Dev nD) : (dat0 V c).arrAt 2 cfg0.N = proj V c :=
  (dat0 V c).arrAt_eq_of_cover 2 (proj V c) (fun t _ => flushed0 V c t) cover0

end Cert.KernelIdeal.KV

end
-- ==== Proof.LibKeepdims.lean ====
/-
  Two layout operations of a keep-dimensions reduction read at an index of a rank-2 array: a column `[a, 1]` broadcast
  along its unit axis to `[a, b]`, and a vector `[a]` cast to the column `[a, 1]`. (The row form `[1, b] → [a, b]` and
  the leading-unit-axis casts are the library's, Lib/ValueLayout.lean.)
-/
import Idealize.ShloMosaic.Lib.Pipeline.Value
import Idealize.ShloMosaic.Lib.ValueIdx

namespace Idealize.ShloMosaic.ValueIdx

open Idealize.ShloMosaic

variable {α : Type}

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(p, u)`, the vector's entry `p`. -/
theorem shapeCast_a_a1_apply {a : ℕ} (v : (⟨1, ![a]⟩ : Shape).Idx → α) (h : (⟨1, ![a]⟩ : Shape).ShapeCasts ⟨2, ![a, 1]⟩)
    (p : Fin a) (u : Fin 1) : shapeCast ⟨2, ![a, 1]⟩ v h (ix2 p u) = v (ix1 p) :=
  shapeCast_apply v h _ _ (by
    rw [Shape.rowMajor_val_one, Shape.rowMajor_val_two]
    show p.val = p.val * 1 + u.val
    have := u.isLt
    omega)

/-- A column `[a, 1]` cast to the vector `[a]` reads, at `p`, the column's entry of row `p`. -/
theorem shapeCast_a1_a_apply {a : ℕ} (v : (⟨2, ![a, 1]⟩ : Shape).Idx → α) (h : (⟨2, ![a, 1]⟩ : Shape).ShapeCasts ⟨1, ![a]⟩)
    (p : Fin a) : shapeCast ⟨1, ![a]⟩ v h (ix1 p) = v (ix2 p (0 : Fin 1)) :=
  shapeCast_apply v h _ _ (by
    rw [Shape.rowMajor_val_two, Shape.rowMajor_val_one]
    show p.val * 1 + 0 = p.val
    omega)

end Idealize.ShloMosaic.ValueIdx
-- ==== Proof.Region1.lean ====
/-
  The second dense step, entry by entry: the summed messages of a node, times the reciprocal of its in-degree, plus
  the bias, clipped at zero. Each block of 6000 rows is computed from the same rows of the message sums and of the
  reciprocal column and from the whole bias row, so the array the step leaves is that one function of the arrays it
  finds.
-/
import proofs.«118031_j18141941859038_2_alg».proof.Proof.Gen.KernelIdeal.Frame
import proofs.«118031_j18141941859038_2_alg».proof.Proof.Spec
import proofs.«118031_j18141941859038_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.KV

open Cert.KernelIdeal Cert.KernelIdeal.Gen Idealize.ShloMosaic Idealize.ShloMosaic.TcCoe Idealize.SL.Sem
open Idealize.ShloMosaic.ValueIdx Cert.Spec
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-- The body's value at row `p`, column `q` of a block. -/
theorem pay1_apply (x0 : Vec Ideal S6000x128 .f32) (x1 : Vec Ideal S6000x1 .f32) (x2 : Vec Ideal S1x128 .f32) (p : Fin 6000) (q : Fin 128) :
    k1_pay1 (F := Ideal) x0 x1 x2 (ix2 p q) = max (x0 (ix2 p q) * x1 (ix2 p (0 : Fin 1)) + x2 (ix2 (0 : Fin 1) q)) 0 := by
  unfold k1_pay1
  simp only [shapeCast_self]
  show max (x0 (ix2 p q) * broadcastTo S6000x128 x1 broadcasts_S6000x1_S6000x128 (ix2 p q)
      + broadcastTo S6000x128 x2 broadcasts_S1x128_S6000x128 (ix2 p q)) (Ideal.ofBits .f32 0x00000000#32) = _
  rw [broadcastTo_a1_ab_apply, broadcastTo_1b_ab_apply, Ideal.ofBits_zero_f32]

/-- Where the blocks sit. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The array the step leaves, as a function of the arrays it finds. -/
abbrev h1 (c : Dev nD) : A2 60000 128 :=
  scaleBiasRelu (V c (Pipeline.arrRef spec1 0)) (V c (Pipeline.arrRef spec1 1)) (V c (Pipeline.arrRef spec1 2))

/-- What point `t` writes back is block `t` of that function. -/
theorem flushed1 (c : Dev nD) (t : Fin cfg1.N) :
    (dat1 V c).flushed 3 t = ((cfg1.win 3).blk t).view.read (Elt Ideal) (h1 V c) := by
  show (cfg1.win 3).cut (grid1.coords t) ((dat1 V c).after 3 t) = _
  rw [after1_3]
  unfold out1_3
  rw [View.canon_unit_zero hz1]
  simp only [View.ld_unit_zero (S := S6000x128) hz1, View.ld_unit_zero (S := S6000x1) hz1, View.ld_unit_zero (S := S1x128) hz1]
  obtain ⟨e0, e1, e2, e3, e4, e5, e6, e7⟩ := idx_facts1 t
  funext y
  obtain ⟨p, q, rfl⟩ : ∃ (p : Fin 6000) (q : Fin 128), y = ix2 p q := ⟨y 0, y 1, eq_ix2 y⟩
  refine (pay1_apply _ _ _ p q).trans ?_
  show _ = scaleBiasRelu (V c (Pipeline.arrRef spec1 0)) (V c (Pipeline.arrRef spec1 1)) (V c (Pipeline.arrRef spec1 2)) (((cfg1.win 3).blk t).view.emb (ix2 p q))
  unfold scaleBiasRelu
  have h0 : iblk1 V c 0 t (ix2 p q) = V c (Pipeline.arrRef spec1 0) (((cfg1.win 3).blk t).view.emb (ix2 p q)) := by
    show V c (Pipeline.arrRef spec1 0) (((cfg1.win 0).blk t).view.emb (ix2 p q)) = _
    refine congrArg _ (funext fun a => Fin.ext ?_)
    match a with
    | ⟨0, _⟩ => show win1_0.index t (0 : Fin 2) * 6000 + 1 * p.val = win1_3.index t (0 : Fin 2) * 6000 + 1 * p.val; omega
    | ⟨1, _⟩ => show win1_0.index t (1 : Fin 2) * 128 + 1 * q.val = win1_3.index t (1 : Fin 2) * 128 + 1 * q.val; omega
  have h1 : iblk1 V c 1 t (ix2 p (0 : Fin 1)) = V c (Pipeline.arrRef spec1 1) (ix2 (row (((cfg1.win 3).blk t).view.emb (ix2 p q))) (0 : Fin 1)) := by
    show V c (Pipeline.arrRef spec1 1) (((cfg1.win 1).blk t).view.emb (ix2 p (0 : Fin 1))) = _
    refine congrArg _ (funext fun a => Fin.ext ?_)
    match a with
    | ⟨0, _⟩ => show win1_1.index t (0 : Fin 2) * 6000 + 1 * p.val = win1_3.index t (0 : Fin 2) * 6000 + 1 * p.val; omega
    | ⟨1, _⟩ => show win1_1.index t (1 : Fin 2) * 1 + 1 * 0 = 0; omega
  have h2 : iblk1 V c 2 t (ix2 (0 : Fin 1) q) = V c (Pipeline.arrRef spec1 2) (ix2 (0 : Fin 1) (col (((cfg1.win 3).blk t).view.emb (ix2 p q)))) := by
    show V c (Pipeline.arrRef spec1 2) (((cfg1.win 2).blk t).view.emb (ix2 (0 : Fin 1) q)) = _
    refine congrArg _ (funext fun a => Fin.ext ?_)
    match a with
    | ⟨0, _⟩ => show win1_2.index t (0 : Fin 2) * 1 + 1 * 0 = 0; omega
    | ⟨1, _⟩ => show win1_2.index t (1 : Fin 2) * 128 + 1 * q.val = win1_3.index t (1 : Fin 2) * 128 + 1 * q.val; omega
  rw [h0, h1, h2]

/-- An index of the result array is in point `t`'s block iff each coordinate is in the block's range. -/
theorem mem_blk1 (t : Fin cfg1.N) (i : S60000x128.Idx) :
    i ∈ ((cfg1.win 3).blk t).view.set ↔ ∀ a : Fin 2, win1_3.index t a * S6000x128.size a ≤ (i a).val ∧ (i a).val < win1_3.index t a * S6000x128.size a + S6000x128.size a := by
  show i ∈ ((View.whole main_v21).slice (win1_3.rect t)).set ↔ _
  rw [View.set_slice_whole, Rect.mem_set_unit]
  exact Iff.rfl

/-- Every row of the result is in the block of the point `row / 6000`. -/
theorem cover1 (i : S60000x128.Idx) : ∃ t : Fin cfg1.N, (cfg1.win 3).flush t = true ∧ i ∈ ((cfg1.win 3).blk t).view.set := by
  have hi0 : (i 0).val < 60000 := (i 0).isLt
  have hi1 : (i 1).val < 128 := (i 1).isLt
  have hN : grid1.N = 10 := N_1
  let t : Fin cfg1.N := ⟨(i 0).val / 6000, by show (i 0).val / 6000 < grid1.N; rw [hN]; omega⟩
  obtain ⟨e0, e1, e2, e3, e4, e5, e6, e7⟩ := idx_facts1 t
  have ht : t.val = (i 0).val / 6000 := rfl
  refine ⟨t, flush1_3 t, ?_⟩
  rw [mem_blk1]
  intro a
  match a with
  | ⟨0, _⟩ => show win1_3.index t (0 : Fin 2) * 6000 ≤ (i 0).val ∧ (i 0).val < win1_3.index t (0 : Fin 2) * 6000 + 6000; omega
  | ⟨1, _⟩ => show win1_3.index t (1 : Fin 2) * 128 ≤ (i 1).val ∧ (i 1).val < win1_3.index t (1 : Fin 2) * 128 + 128; omega

/-- THE ARRAY the second step leaves. -/
theorem final1 (c : Dev nD) : (dat1 V c).arrAt 3 cfg1.N = h1 V c :=
  (dat1 V c).arrAt_eq_of_cover 3 (h1 V c) (fun t _ => flushed1 V c t) cover1

end Cert.KernelIdeal.KV

end
-- ==== Proof.Region2.lean ====
/-
  The second layer's dense step: every block of 3000 rows of the summed features is scaled row by row by the
  reciprocal in-degree (one entry per row, a column), multiplied by the whole second weight matrix, the bias row is
  added and the result is clipped at zero; so the array the step leaves is, index by index,
  `max (Σ_k (S[r, k] · v[r, 0]) · W[k, n] + b[0, n]) 0` (the roundings to bf16 on the way into the matrix unit are the
  identity on the extended reals, and the accumulator starts at zero).
-/
import proofs.«118031_j18141941859038_2_alg».proof.Proof.Gen.KernelIdeal.Frame
import proofs.«118031_j18141941859038_2_alg».proof.Proof.Spec
import proofs.«118031_j18141941859038_2_alg».proof.Proof.LibKeepdims

import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.KV

open Cert.KernelIdeal Cert.KernelIdeal.Gen Idealize.ShloMosaic Idealize.ShloMosaic.TcCoe Idealize.SL.Sem
open Idealize.ShloMosaic.ValueIdx Cert.Spec
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The dot's operand indices at a result index and a contraction index, coordinate by coordinate. -/
theorem lhs2_0 (i : S3000x128.Idx) (q : dot_S3000x128_S128x128_S3000x128_1_0_0_1_n_n.contr.Idx) : (dot_S3000x128_S128x128_S3000x128_1_0_0_1_n_n.lhsIdx i q 0).val = (i 0).val := by
  unfold DotDims.lhsIdx
  rw [dif_neg (show ¬(0 : Fin S3000x128.rank) ∈ dot_S3000x128_S128x128_S3000x128_1_0_0_1_n_n.lhsBatch by decide), dif_pos (show (0 : Fin S3000x128.rank) ∈ dot_S3000x128_S128x128_S3000x128_1_0_0_1_n_n.lhsNonContracting by decide)]
  rfl
theorem lhs2_1 (i : S3000x128.Idx) (q : dot_S3000x128_S128x128_S3000x128_1_0_0_1_n_n.contr.Idx) : (dot_S3000x128_S128x128_S3000x128_1_0_0_1_n_n.lhsIdx i q 1).val = (q ⟨0, by decide⟩).val :=
  dot_S3000x128_S128x128_S3000x128_1_0_0_1_n_n.lhsIdx_val_of_single rfl i q
theorem rhs2_0 (i : S3000x128.Idx) (q : dot_S3000x128_S128x128_S3000x128_1_0_0_1_n_n.contr.Idx) : (dot_S3000x128_S128x128_S3000x128_1_0_0_1_n_n.rhsIdx i q 0).val = (q ⟨0, by decide⟩).val :=
  dot_S3000x128_S128x128_S3000x128_1_0_0_1_n_n.rhsIdx_val_of_single rfl i q
theorem rhs2_1 (i : S3000x128.Idx) (q : dot_S3000x128_S128x128_S3000x128_1_0_0_1_n_n.contr.Idx) : (dot_S3000x128_S128x128_S3000x128_1_0_0_1_n_n.rhsIdx i q 1).val = (i 1).val := by
  unfold DotDims.rhsIdx
  rw [dif_neg (show ¬(1 : Fin S128x128.rank) ∈ dot_S3000x128_S128x128_S3000x128_1_0_0_1_n_n.rhsBatch by decide), dif_pos (show (1 : Fin S128x128.rank) ∈ dot_S3000x128_S128x128_S3000x128_1_0_0_1_n_n.rhsNonContracting by decide)]
  rfl

/-- The matrix unit's product into a zero accumulator, read at row `p`, column `q`: the row of the left operand
    against the column of the right one. -/
theorem dot2_apply {φ₁ φ₂ : FTy} (l : FVec Ideal S3000x128 φ₁) (r : FVec Ideal S128x128 φ₂) (p : Fin 3000) (q : Fin 128) :
    matmul (F := Ideal) dot_S3000x128_S128x128_S3000x128_1_0_0_1_n_n none l r (constant S3000x128 .f32 0x00000000#32) (ix2 p q) = ∑ k : Fin 128, l (ix2 p k) * r (ix2 k q) := by
  refine (Ideal.matmul_constant_zero_apply dot_S3000x128_S128x128_S3000x128_1_0_0_1_n_n none l r (ix2 p q)).trans ?_
  rw [← Equiv.sum_comp (contrEquiv1 dot_S3000x128_S128x128_S3000x128_1_0_0_1_n_n 128 rfl rfl).symm]
  refine Finset.sum_congr rfl fun k _ => ?_
  have hk := contrEquiv1_symm_val dot_S3000x128_S128x128_S3000x128_1_0_0_1_n_n 128 rfl rfl k
  have el : dot_S3000x128_S128x128_S3000x128_1_0_0_1_n_n.lhsIdx (ix2 p q) ((contrEquiv1 dot_S3000x128_S128x128_S3000x128_1_0_0_1_n_n 128 rfl rfl).symm k) = ix2 p k := funext fun a => Fin.ext (by
    match a with
    | ⟨0, _⟩ => exact lhs2_0 _ _
    | ⟨1, _⟩ => exact (lhs2_1 _ _).trans hk)
  have er : dot_S3000x128_S128x128_S3000x128_1_0_0_1_n_n.rhsIdx (ix2 p q) ((contrEquiv1 dot_S3000x128_S128x128_S3000x128_1_0_0_1_n_n 128 rfl rfl).symm k) = ix2 k q := funext fun a => Fin.ext (by
    match a with
    | ⟨0, _⟩ => exact (rhs2_0 _ _).trans hk
    | ⟨1, _⟩ => exact rhs2_1 _ _)
  rw [el, er]

/-- The body's value at row `p`, column `q` of a block: the row scaled by its column entry, against the weight
    column, plus the bias, clipped at zero. -/
theorem pay2_apply (x0 : Vec Ideal S3000x128 .f32) (x1 : Vec Ideal S3000x1 .f32) (x2 : Vec Ideal S128x128 .f32) (x3 : Vec Ideal S1x128 .f32) (p : Fin 3000) (q : Fin 128) :
    k2_pay1 (F := Ideal) x0 x1 x2 x3 (ix2 p q) = max ((∑ k : Fin 128, (x0 (ix2 p k) * x1 (ix2 p (0 : Fin 1))) * x2 (ix2 k q)) + x3 (ix2 (0 : Fin 1) q)) 0 := by
  unfold k2_pay1
  simp only [shapeCast_self]
  refine (maximumf_apply _ _ _).trans ?_
  refine congrArg₂ max ?_ Ideal.ofBits_zero_f32
  refine (addf_apply _ _ _).trans ?_
  refine congrArg₂ (· + ·) ?_ (broadcastTo_1b_ab_apply _ _ p q)
  refine (dot2_apply _ _ p q).trans ?_
  refine Finset.sum_congr rfl fun k _ => ?_
  refine congrArg₂ (· * ·) ?_ rfl
  exact congrArg (x0 (ix2 p k) * ·) (broadcastTo_a1_ab_apply _ _ p k)

/-- Where the blocks sit: the row block, the column block and the result block at point `t` are rows `3000·t …`,
    the weight matrix and the bias row are one block each. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The array the step leaves, as a function of the arrays it finds. -/
abbrev h2 (c : Dev nD) : A2 15000 128 := scaleMmBiasRelu (V c (Pipeline.arrRef spec2 0)) (V c (Pipeline.arrRef spec2 1)) (V c (Pipeline.arrRef spec2 2)) (V c (Pipeline.arrRef spec2 3))

/-- What point `t` writes back is block `t` of that array. -/
theorem flushed2 (c : Dev nD) (t : Fin cfg2.N) :
    (dat2 V c).flushed 4 t = ((cfg2.win 4).blk t).view.read (Elt Ideal) (h2 V c) := by
  show (cfg2.win 4).cut (grid2.coords t) ((dat2 V c).after 4 t) = _
  rw [after2_4]
  unfold out2_4
  rw [View.canon_unit_zero hz2]
  simp only [View.ld_unit_zero (S := S3000x128) hz2, View.ld_unit_zero (S := S3000x1) hz2, View.ld_unit_zero (S := S128x128) hz2, View.ld_unit_zero (S := S1x128) hz2]
  obtain ⟨e0, e1, e2, e3, e4, e5, e6, e7, e8, e9⟩ := idx_facts2 t
  funext y
  obtain ⟨p, q, rfl⟩ : ∃ (p : Fin 3000) (q : Fin 128), y = ix2 p q := ⟨y 0, y 1, eq_ix2 y⟩
  refine (pay2_apply _ _ _ _ p q).trans ?_
  show _ = scaleMmBiasRelu (V c (Pipeline.arrRef spec2 0)) (V c (Pipeline.arrRef spec2 1)) (V c (Pipeline.arrRef spec2 2)) (V c (Pipeline.arrRef spec2 3)) (((cfg2.win 4).blk t).view.emb (ix2 p q))
  unfold scaleMmBiasRelu scaleMmBias
  have h0 : ∀ k : Fin 128, iblk2 V c 0 t (ix2 p k) = V c (Pipeline.arrRef spec2 0) (ix2 (row (((cfg2.win 4).blk t).view.emb (ix2 p q))) k) := fun k => by
    show V c (Pipeline.arrRef spec2 0) (((cfg2.win 0).blk t).view.emb (ix2 p k)) = _
    refine congrArg _ (funext fun a => Fin.ext ?_)
    match a with
    | ⟨0, _⟩ => show win2_0.index t (0 : Fin 2) * 3000 + 1 * p.val = win2_4.index t (0 : Fin 2) * 3000 + 1 * p.val; omega
    | ⟨1, _⟩ => show win2_0.index t (1 : Fin 2) * 128 + 1 * k.val = k.val; omega
  have h1 : iblk2 V c 1 t (ix2 p (0 : Fin 1)) = V c (Pipeline.arrRef spec2 1) (ix2 (row (((cfg2.win 4).blk t).view.emb (ix2 p q))) (0 : Fin 1)) := by
    show V c (Pipeline.arrRef spec2 1) (((cfg2.win 1).blk t).view.emb (ix2 p (0 : Fin 1))) = _
    refine congrArg _ (funext fun a => Fin.ext ?_)
    match a with
    | ⟨0, _⟩ => show win2_1.index t (0 : Fin 2) * 3000 + 1 * p.val = win2_4.index t (0 : Fin 2) * 3000 + 1 * p.val; omega
    | ⟨1, _⟩ => show win2_1.index t (1 : Fin 2) * 1 + 1 * 0 = 0; omega
  have h2 : ∀ k : Fin 128, iblk2 V c 2 t (ix2 k q) = V c (Pipeline.arrRef spec2 2) (ix2 k (col (((cfg2.win 4).blk t).view.emb (ix2 p q)))) := fun k => by
    show V c (Pipeline.arrRef spec2 2) (((cfg2.win 2).blk t).view.emb (ix2 k q)) = _
    refine congrArg _ (funext fun a => Fin.ext ?_)
    match a with
    | ⟨0, _⟩ => show win2_2.index t (0 : Fin 2) * 128 + 1 * k.val = k.val; omega
    | ⟨1, _⟩ => show win2_2.index t (1 : Fin 2) * 128 + 1 * q.val = win2_4.index t (1 : Fin 2) * 128 + 1 * q.val; omega
  have h3 : iblk2 V c 3 t (ix2 (0 : Fin 1) q) = V c (Pipeline.arrRef spec2 3) (ix2 (0 : Fin 1) (col (((cfg2.win 4).blk t).view.emb (ix2 p q)))) := by
    show V c (Pipeline.arrRef spec2 3) (((cfg2.win 3).blk t).view.emb (ix2 (0 : Fin 1) q)) = _
    refine congrArg _ (funext fun a => Fin.ext ?_)
    match a with
    | ⟨0, _⟩ => show win2_3.index t (0 : Fin 2) * 1 + 1 * 0 = 0; omega
    | ⟨1, _⟩ => show win2_3.index t (1 : Fin 2) * 128 + 1 * q.val = win2_4.index t (1 : Fin 2) * 128 + 1 * q.val; omega
  exact congrArg₂ max (congrArg₂ (· + ·) (Finset.sum_congr rfl fun k _ => congrArg₂ (· * ·) (congrArg₂ (· * ·) (h0 k) h1) (h2 k)) h3) rfl

/-- An index of the result array is in point `t`'s block iff each coordinate is in the block's range. -/
theorem mem_blk2 (t : Fin cfg2.N) (i : S15000x128.Idx) :
    i ∈ ((cfg2.win 4).blk t).view.set ↔ ∀ a : Fin 2, win2_4.index t a * S3000x128.size a ≤ (i a).val ∧ (i a).val < win2_4.index t a * S3000x128.size a + S3000x128.size a := by
  show i ∈ ((View.whole main_v42).slice (win2_4.rect t)).set ↔ _
  rw [View.set_slice_whole, Rect.mem_set_unit]
  exact Iff.rfl

/-- Every row of the result is in the block of the point `row / 3000`. -/
theorem cover2 (i : S15000x128.Idx) : ∃ t : Fin cfg2.N, (cfg2.win 4).flush t = true ∧ i ∈ ((cfg2.win 4).blk t).view.set := by
  have hi0 : (i 0).val < 15000 := (i 0).isLt
  have hi1 : (i 1).val < 128 := (i 1).isLt
  have hN : grid2.N = 5 := N_2
  let t : Fin cfg2.N := ⟨(i 0).val / 3000, by show (i 0).val / 3000 < grid2.N; rw [hN]; omega⟩
  obtain ⟨e0, e1, e2, e3, e4, e5, e6, e7, e8, e9⟩ := idx_facts2 t
  have ht : t.val = (i 0).val / 3000 := rfl
  refine ⟨t, flush2_4 t, ?_⟩
  rw [mem_blk2]
  intro a
  match a with
  | ⟨0, _⟩ => show win2_4.index t (0 : Fin 2) * 3000 ≤ (i 0).val ∧ (i 0).val < win2_4.index t (0 : Fin 2) * 3000 + 3000; omega
  | ⟨1, _⟩ => show win2_4.index t (1 : Fin 2) * 128 ≤ (i 1).val ∧ (i 1).val < win2_4.index t (1 : Fin 2) * 128 + 128; omega

/-- THE ARRAY the step leaves. -/
theorem final2 (c : Dev nD) : (dat2 V c).arrAt 4 cfg2.N = h2 V c :=
  (dat2 V c).arrAt_eq_of_cover 4 (h2 V c) (fun t _ => flushed2 V c t) cover2

end Cert.KernelIdeal.KV

end
-- ==== Proof.Region3.lean ====
/-
  The third layer's dense step: every block of 2000 rows of the summed features is scaled row by row by the
  reciprocal in-degree (one entry per row, a column), multiplied by the whole third weight matrix (held in a
  128-column array), and the bias row is added, with no clipping; so the array the step leaves is, index by index,
  `Σ_k (S[r, k] · v[r, 0]) · W[k, n] + b[0, n]` (the roundings to bf16 on the way into the matrix unit are the identity on
  the extended reals, and the accumulator starts at zero).
-/
import proofs.«118031_j18141941859038_2_alg».proof.Proof.Gen.KernelIdeal.Frame
import proofs.«118031_j18141941859038_2_alg».proof.Proof.Spec
import proofs.«118031_j18141941859038_2_alg».proof.Proof.LibKeepdims

import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.KV

open Cert.KernelIdeal Cert.KernelIdeal.Gen Idealize.ShloMosaic Idealize.ShloMosaic.TcCoe Idealize.SL.Sem
open Idealize.ShloMosaic.ValueIdx Cert.Spec
open Idealize.ShloMosaic.Pipeline (Dat)

variable (V : (c : Dev nD) → (b : Ref sig .tc) → Buf (Elt Ideal) ((c : Thread nD τ).loc b))

theorem hz3 : (![0, 0] : Fin 2 → Nat) = fun _ => 0 := funext fun a => by fin_cases a <;> rfl

/-- The dot's operand indices at a result index and a contraction index, coordinate by coordinate. -/
theorem lhs3_0 (i : S2000x128.Idx) (q : dot_S2000x128_S128x128_S2000x128_1_0_0_1_n_n.contr.Idx) : (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs3_1 (i : S2000x128.Idx) (q : dot_S2000x128_S128x128_S2000x128_1_0_0_1_n_n.contr.Idx) : (dot_S2000x128_S128x128_S2000x128_1_0_0_1_n_n.lhsIdx i q 1).val = (q ⟨0, by decide⟩).val :=
  dot_S2000x128_S128x128_S2000x128_1_0_0_1_n_n.lhsIdx_val_of_single rfl i q
theorem rhs3_0 (i : S2000x128.Idx) (q : dot_S2000x128_S128x128_S2000x128_1_0_0_1_n_n.contr.Idx) : (dot_S2000x128_S128x128_S2000x128_1_0_0_1_n_n.rhsIdx i q 0).val = (q ⟨0, by decide⟩).val :=
  dot_S2000x128_S128x128_S2000x128_1_0_0_1_n_n.rhsIdx_val_of_single rfl i q
theorem rhs3_1 (i : S2000x128.Idx) (q : dot_S2000x128_S128x128_S2000x128_1_0_0_1_n_n.contr.Idx) : (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The matrix unit's product into a zero accumulator, read at row `p`, column `q`: the row of the left operand
    against the column of the right one. -/
theorem dot3_apply {φ₁ φ₂ : FTy} (l : FVec Ideal S2000x128 φ₁) (r : FVec Ideal S128x128 φ₂) (p : Fin 2000) (q : Fin 128) :
    matmul (F := Ideal) dot_S2000x128_S128x128_S2000x128_1_0_0_1_n_n none l r (constant S2000x128 .f32 0x00000000#32) (ix2 p q) = ∑ k : Fin 128, l (ix2 p k) * r (ix2 k q) := by
  refine (Ideal.matmul_constant_zero_apply dot_S2000x128_S128x128_S2000x128_1_0_0_1_n_n none l r (ix2 p q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs3_0 _ _
    | ⟨1, _⟩ => exact (lhs3_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs3_0 _ _).trans hk
    | ⟨1, _⟩ => exact rhs3_1 _ _)
  rw [el, er]

/-- The body's value at row `p`, column `q` of a block: the row scaled by its column entry, against the weight
    column, plus the bias. -/
theorem pay3_apply (x0 : Vec Ideal S2000x128 .f32) (x1 : Vec Ideal S2000x1 .f32) (x2 : Vec Ideal S128x128 .f32) (x3 : Vec Ideal S1x128 .f32) (p : Fin 2000) (q : Fin 128) :
    k3_pay1 (F := Ideal) x0 x1 x2 x3 (ix2 p q) = (∑ k : Fin 128, (x0 (ix2 p k) * x1 (ix2 p (0 : Fin 1))) * x2 (ix2 k q)) + x3 (ix2 (0 : Fin 1) q) := by
  unfold k3_pay1
  simp only [shapeCast_self]
  refine (addf_apply _ _ _).trans ?_
  refine congrArg₂ (· + ·) ?_ (broadcastTo_1b_ab_apply _ _ p q)
  refine (dot3_apply _ _ p q).trans ?_
  refine Finset.sum_congr rfl fun k _ => ?_
  refine congrArg₂ (· * ·) ?_ rfl
  exact congrArg (x0 (ix2 p k) * ·) (broadcastTo_a1_ab_apply _ _ p k)

/-- Where the blocks sit: the row block, the column block and the result block at point `t` are rows `2000·t …`,
    the weight matrix and the bias row are one block each. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The array the step leaves, as a function of the arrays it finds. -/
abbrev out3 (c : Dev nD) : A2 4000 128 := scaleMmBias (V c (Pipeline.arrRef spec3 0)) (V c (Pipeline.arrRef spec3 1)) (V c (Pipeline.arrRef spec3 2)) (V c (Pipeline.arrRef spec3 3))

set_option maxHeartbeats 1000000 in
/-- What point `t` writes back is block `t` of that array. -/
theorem flushed3 (c : Dev nD) (t : Fin cfg3.N) :
    (dat3 V c).flushed 4 t = ((cfg3.win 4).blk t).view.read (Elt Ideal) (out3 V c) := by
  show (cfg3.win 4).cut (grid3.coords t) ((dat3 V c).after 4 t) = _
  rw [after3_4]
  unfold out3_4
  rw [View.canon_unit_zero hz3]
  simp only [View.ld_unit_zero (S := S2000x128) hz3, View.ld_unit_zero (S := S2000x1) hz3, View.ld_unit_zero (S := S128x128) hz3, View.ld_unit_zero (S := S1x128) hz3]
  obtain ⟨e0, e1, e2, e3, e4, e5, e6, e7, e8, e9⟩ := idx_facts3 t
  funext y
  obtain ⟨p, q, rfl⟩ : ∃ (p : Fin 2000) (q : Fin 128), y = ix2 p q := ⟨y 0, y 1, eq_ix2 y⟩
  refine (pay3_apply _ _ _ _ p q).trans ?_
  show _ = scaleMmBias (V c (Pipeline.arrRef spec3 0)) (V c (Pipeline.arrRef spec3 1)) (V c (Pipeline.arrRef spec3 2)) (V c (Pipeline.arrRef spec3 3)) (((cfg3.win 4).blk t).view.emb (ix2 p q : S2000x128.Idx))
  unfold scaleMmBias
  have h0 : ∀ k : Fin 128, iblk3 V c 0 t (ix2 p k : S2000x128.Idx) = V c (Pipeline.arrRef spec3 0) (ix2 (row (((cfg3.win 4).blk t).view.emb (ix2 p q : S2000x128.Idx))) k) := fun k => by
    show V c (Pipeline.arrRef spec3 0) (((cfg3.win 0).blk t).view.emb (ix2 p k : S2000x128.Idx)) = _
    refine congrArg _ (funext fun a => Fin.ext ?_)
    match a with
    | ⟨0, _⟩ => show win3_0.index t (0 : Fin 2) * 2000 + 1 * p.val = win3_4.index t (0 : Fin 2) * 2000 + 1 * p.val; omega
    | ⟨1, _⟩ => show win3_0.index t (1 : Fin 2) * 128 + 1 * k.val = k.val; omega
  have h1 : iblk3 V c 1 t (ix2 p (0 : Fin 1) : S2000x1.Idx) = V c (Pipeline.arrRef spec3 1) (ix2 (row (((cfg3.win 4).blk t).view.emb (ix2 p q : S2000x128.Idx))) (0 : Fin 1)) := by
    show V c (Pipeline.arrRef spec3 1) (((cfg3.win 1).blk t).view.emb (ix2 p (0 : Fin 1) : S2000x1.Idx)) = _
    refine congrArg _ (funext fun a => Fin.ext ?_)
    match a with
    | ⟨0, _⟩ => show win3_1.index t (0 : Fin 2) * 2000 + 1 * p.val = win3_4.index t (0 : Fin 2) * 2000 + 1 * p.val; omega
    | ⟨1, _⟩ => show win3_1.index t (1 : Fin 2) * 1 + 1 * 0 = 0; omega
  have h2 : ∀ k : Fin 128, iblk3 V c 2 t (ix2 k q : S128x128.Idx) = V c (Pipeline.arrRef spec3 2) (ix2 k (col (((cfg3.win 4).blk t).view.emb (ix2 p q : S2000x128.Idx)))) := fun k => by
    show V c (Pipeline.arrRef spec3 2) (((cfg3.win 2).blk t).view.emb (ix2 k q : S128x128.Idx)) = _
    refine congrArg _ (funext fun a => Fin.ext ?_)
    match a with
    | ⟨0, _⟩ => show win3_2.index t (0 : Fin 2) * 128 + 1 * k.val = k.val; omega
    | ⟨1, _⟩ => show win3_2.index t (1 : Fin 2) * 128 + 1 * q.val = win3_4.index t (1 : Fin 2) * 128 + 1 * q.val; omega
  have h3 : iblk3 V c 3 t (ix2 (0 : Fin 1) q : S1x128.Idx) = V c (Pipeline.arrRef spec3 3) (ix2 (0 : Fin 1) (col (((cfg3.win 4).blk t).view.emb (ix2 p q : S2000x128.Idx)))) := by
    show V c (Pipeline.arrRef spec3 3) (((cfg3.win 3).blk t).view.emb (ix2 (0 : Fin 1) q : S1x128.Idx)) = _
    refine congrArg _ (funext fun a => Fin.ext ?_)
    match a with
    | ⟨0, _⟩ => show win3_3.index t (0 : Fin 2) * 1 + 1 * 0 = 0; omega
    | ⟨1, _⟩ => show win3_3.index t (1 : Fin 2) * 128 + 1 * q.val = win3_4.index t (1 : Fin 2) * 128 + 1 * q.val; omega
  exact (congrArg₂ (· + ·) (Finset.sum_congr rfl fun k _ => congrArg₂ (· * ·) (congrArg₂ (· * ·) (h0 k) h1) (h2 k)) h3)

/-- An index of the result array is in point `t`'s block iff each coordinate is in the block's range. -/
theorem mem_blk3 (t : Fin cfg3.N) (i : S4000x128.Idx) :
    i ∈ ((cfg3.win 4).blk t).view.set ↔ ∀ a : Fin 2, win3_4.index t a * S2000x128.size a ≤ (i a).val ∧ (i a).val < win3_4.index t a * S2000x128.size a + S2000x128.size a := by
  show i ∈ ((View.whole main_v65).slice (win3_4.rect t)).set ↔ _
  rw [View.set_slice_whole, Rect.mem_set_unit]
  exact Iff.rfl

/-- Every row of the result is in the block of the point `row / 2000`. -/
theorem cover3 (i : S4000x128.Idx) : ∃ t : Fin cfg3.N, (cfg3.win 4).flush t = true ∧ i ∈ ((cfg3.win 4).blk t).view.set := by
  have hi0 : (i 0).val < 4000 := (i 0).isLt
  have hi1 : (i 1).val < 128 := (i 1).isLt
  have hN : grid3.N = 2 := N_3
  let t : Fin cfg3.N := ⟨(i 0).val / 2000, by show (i 0).val / 2000 < grid3.N; rw [hN]; omega⟩
  obtain ⟨e0, e1, e2, e3, e4, e5, e6, e7, e8, e9⟩ := idx_facts3 t
  have ht : t.val = (i 0).val / 2000 := rfl
  refine ⟨t, flush3_4 t, ?_⟩
  rw [mem_blk3]
  intro a
  match a with
  | ⟨0, _⟩ => show win3_4.index t (0 : Fin 2) * 2000 ≤ (i 0).val ∧ (i 0).val < win3_4.index t (0 : Fin 2) * 2000 + 2000; omega
  | ⟨1, _⟩ => show win3_4.index t (1 : Fin 2) * 128 ≤ (i 1).val ∧ (i 1).val < win3_4.index t (1 : Fin 2) * 128 + 128; omega

/-- THE ARRAY the step leaves. -/
theorem final3 (c : Dev nD) : (dat3 V c).arrAt 4 cfg3.N = out3 V c :=
  (dat3 V c).arrAt_eq_of_cover 4 (out3 V c) (fun t _ => flushed3 V c t) cover3

end Cert.KernelIdeal.KV

end
-- ==== Proof.KernelValue.lean ====
/-
  What the result buffer holds at the end of the kernel's run, read back through the run's fold: each dense step's
  array is its closed form of the arrays the step finds, each host stretch's results are the host operations of what
  the stretch finds, and an argument array is found unchanged wherever it is read — so the result is the one function
  `KV.result` of the thirteen argument arrays as launched.
-/
import proofs.«118031_j18141941859038_2_alg».proof.Proof.Gen.KernelIdeal.Frame
import proofs.«118031_j18141941859038_2_alg».proof.Proof.KernelTerms
import proofs.«118031_j18141941859038_2_alg».proof.Proof.Region0
import proofs.«118031_j18141941859038_2_alg».proof.Proof.Region1
import proofs.«118031_j18141941859038_2_alg».proof.Proof.Region2
import proofs.«118031_j18141941859038_2_alg».proof.Proof.Region3
import Idealize.ShloMosaic.Lib.StableHlo.Run

set_option maxRecDepth 16384

noncomputable section

namespace Cert.KernelIdeal.KV

open Cert.KernelIdeal Cert.KernelIdeal.Gen Idealize.ShloMosaic Idealize.ShloMosaic.TcCoe Idealize.SL.Sem
open Idealize.ShloMosaic.StableHlo Cert.Spec

variable (m : (ℓ : Loc nD τ sig) → Buf (Elt Ideal) ℓ) (ρ : Dev nD → PrngReg)

/-! ## The argument arrays are found as launched -/

theorem W1_arg1 (c : Dev nD) : W1 m ρ c (Proc.devRef .tc main_arg1) = m ((c : Thread nD τ).loc main_arg1) :=
  (W1_of_ne m ρ c main_arg1 (by decide)).trans rfl
theorem W1_arg2 (c : Dev nD) : W1 m ρ c (Proc.devRef .tc main_arg2) = m ((c : Thread nD τ).loc main_arg2) :=
  (W1_of_ne m ρ c main_arg2 (by decide)).trans rfl
theorem W1_arg8 (c : Dev nD) : W1 m ρ c (Proc.devRef .tc main_arg8) = m ((c : Thread nD τ).loc main_arg8) :=
  (W1_of_ne m ρ c main_arg8 (by decide)).trans rfl
theorem W3_arg3 (c : Dev nD) : W3 m ρ c (Proc.devRef .tc main_arg3) = m ((c : Thread nD τ).loc main_arg3) := by
  rw [W3_of_ne m ρ c main_arg3 (by decide)]
  show StableHlo.after hostOps1 (W1 m ρ c) (Proc.devRef .tc main_arg3) = _
  dsimp only [hostOps1]
  after_results
  exact (W1_of_ne m ρ c main_arg3 (by decide)).trans rfl
theorem W3_arg4 (c : Dev nD) : W3 m ρ c (Proc.devRef .tc main_arg4) = m ((c : Thread nD τ).loc main_arg4) := by
  rw [W3_of_ne m ρ c main_arg4 (by decide)]
  show StableHlo.after hostOps1 (W1 m ρ c) (Proc.devRef .tc main_arg4) = _
  dsimp only [hostOps1]
  after_results
  exact (W1_of_ne m ρ c main_arg4 (by decide)).trans rfl
theorem W3_arg9 (c : Dev nD) : W3 m ρ c (Proc.devRef .tc main_arg9) = m ((c : Thread nD τ).loc main_arg9) := by
  rw [W3_of_ne m ρ c main_arg9 (by decide)]
  show StableHlo.after hostOps1 (W1 m ρ c) (Proc.devRef .tc main_arg9) = _
  dsimp only [hostOps1]
  after_results
  exact (W1_of_ne m ρ c main_arg9 (by decide)).trans rfl
theorem W3_arg10 (c : Dev nD) : W3 m ρ c (Proc.devRef .tc main_arg10) = m ((c : Thread nD τ).loc main_arg10) := by
  rw [W3_of_ne m ρ c main_arg10 (by decide)]
  show StableHlo.after hostOps1 (W1 m ρ c) (Proc.devRef .tc main_arg10) = _
  dsimp only [hostOps1]
  after_results
  exact (W1_of_ne m ρ c main_arg10 (by decide)).trans rfl
theorem W5_arg5 (c : Dev nD) : W5 m ρ c (Proc.devRef .tc main_arg5) = m ((c : Thread nD τ).loc main_arg5) := by
  rw [W5_of_ne m ρ c main_arg5 (by decide)]
  show StableHlo.after hostOps2 (W3 m ρ c) (Proc.devRef .tc main_arg5) = _
  dsimp only [hostOps2]
  after_results
  rw [W3_of_ne m ρ c main_arg5 (by decide)]
  show StableHlo.after hostOps1 (W1 m ρ c) (Proc.devRef .tc main_arg5) = _
  dsimp only [hostOps1]
  after_results
  exact (W1_of_ne m ρ c main_arg5 (by decide)).trans rfl
theorem W5_arg6 (c : Dev nD) : W5 m ρ c (Proc.devRef .tc main_arg6) = m ((c : Thread nD τ).loc main_arg6) := by
  rw [W5_of_ne m ρ c main_arg6 (by decide)]
  show StableHlo.after hostOps2 (W3 m ρ c) (Proc.devRef .tc main_arg6) = _
  dsimp only [hostOps2]
  after_results
  rw [W3_of_ne m ρ c main_arg6 (by decide)]
  show StableHlo.after hostOps1 (W1 m ρ c) (Proc.devRef .tc main_arg6) = _
  dsimp only [hostOps1]
  after_results
  exact (W1_of_ne m ρ c main_arg6 (by decide)).trans rfl
theorem W5_arg11 (c : Dev nD) : W5 m ρ c (Proc.devRef .tc main_arg11) = m ((c : Thread nD τ).loc main_arg11) := by
  rw [W5_of_ne m ρ c main_arg11 (by decide)]
  show StableHlo.after hostOps2 (W3 m ρ c) (Proc.devRef .tc main_arg11) = _
  dsimp only [hostOps2]
  after_results
  rw [W3_of_ne m ρ c main_arg11 (by decide)]
  show StableHlo.after hostOps1 (W1 m ρ c) (Proc.devRef .tc main_arg11) = _
  dsimp only [hostOps1]
  after_results
  exact (W1_of_ne m ρ c main_arg11 (by decide)).trans rfl
theorem W5_arg12 (c : Dev nD) : W5 m ρ c (Proc.devRef .tc main_arg12) = m ((c : Thread nD τ).loc main_arg12) := by
  rw [W5_of_ne m ρ c main_arg12 (by decide)]
  show StableHlo.after hostOps2 (W3 m ρ c) (Proc.devRef .tc main_arg12) = _
  dsimp only [hostOps2]
  after_results
  rw [W3_of_ne m ρ c main_arg12 (by decide)]
  show StableHlo.after hostOps1 (W1 m ρ c) (Proc.devRef .tc main_arg12) = _
  dsimp only [hostOps1]
  after_results
  exact (W1_of_ne m ρ c main_arg12 (by decide)).trans rfl

/-! ## Layer 0 -/

/-- The first dense step leaves the product of the features with the first weight matrix. -/
theorem W1_v0 (c : Dev nD) : W1 m ρ c (Proc.devRef .tc main_v0) = mm (m ((c : Thread nD τ).loc main_arg0)) (m ((c : Thread nD τ).loc main_arg7)) :=
  (W1_arr m ρ c 2).trans (final0 (V0 m ρ) c)

theorem V2_v10 (c : Dev nD) : V2 m ρ c main_v10
    = segSum0 (mm (m ((c : Thread nD τ).loc main_arg0)) (m ((c : Thread nD τ).loc main_arg7))) (m ((c : Thread nD τ).loc main_arg1)) (m ((c : Thread nD τ).loc main_arg2)) := by
  rw [← W1_v0 m ρ c, ← W1_arg1 m ρ c, ← W1_arg2 m ρ c]
  show StableHlo.after hostOps1 (W1 m ρ c) (Proc.devRef .tc main_v10) = _
  dsimp only [hostOps1]
  after_results
  rfl

theorem V2_v19 (c : Dev nD) : V2 m ρ c main_v19 = invDeg0 (m ((c : Thread nD τ).loc main_arg2)) := by
  rw [← W1_arg2 m ρ c]
  show StableHlo.after hostOps1 (W1 m ρ c) (Proc.devRef .tc main_v19) = _
  dsimp only [hostOps1]
  after_results
  rfl

theorem V2_v20 (c : Dev nD) : V2 m ρ c main_v20 = biasRow (m ((c : Thread nD τ).loc main_arg8)) := by
  rw [← W1_arg8 m ρ c]
  show StableHlo.after hostOps1 (W1 m ρ c) (Proc.devRef .tc main_v20) = _
  dsimp only [hostOps1]
  after_results
  rfl

/-- The second dense step leaves the first hidden layer. -/
theorem W3_v21 (c : Dev nD) : W3 m ρ c (Proc.devRef .tc main_v21)
    = hidden1 (m ((c : Thread nD τ).loc main_arg0)) (m ((c : Thread nD τ).loc main_arg1)) (m ((c : Thread nD τ).loc main_arg2)) (m ((c : Thread nD τ).loc main_arg7)) (m ((c : Thread nD τ).loc main_arg8)) := by
  refine (W3_arr m ρ c 3).trans ((final1 (V2 m ρ) c).trans ?_)
  show scaleBiasRelu (V2 m ρ c main_v10) (V2 m ρ c main_v19) (V2 m ρ c main_v20) = _
  rw [V2_v10, V2_v19, V2_v20]
  rfl

/-! ## Layer 1 -/

set_option maxHeartbeats 4000000 in
theorem V4_v31 (c : Dev nD) : V4 m ρ c main_v31
    = segSum1 (W3 m ρ c (Proc.devRef .tc main_v21)) (m ((c : Thread nD τ).loc main_arg3)) (m ((c : Thread nD τ).loc main_arg4)) := by
  rw [← W3_arg3 m ρ c, ← W3_arg4 m ρ c]
  show StableHlo.after hostOps2 (W3 m ρ c) (Proc.devRef .tc main_v31) = _
  dsimp only [hostOps2]
  after_results_simp
  try rfl

set_option maxHeartbeats 4000000 in
theorem V4_v40 (c : Dev nD) : V4 m ρ c main_v40 = invDeg1 (m ((c : Thread nD τ).loc main_arg4)) := by
  rw [← W3_arg4 m ρ c]
  show StableHlo.after hostOps2 (W3 m ρ c) (Proc.devRef .tc main_v40) = _
  dsimp only [hostOps2]
  after_results_simp
  try rfl

set_option maxHeartbeats 4000000 in
theorem V4_arg9 (c : Dev nD) : V4 m ρ c main_arg9 = m ((c : Thread nD τ).loc main_arg9) := by
  rw [← W3_arg9 m ρ c]
  show StableHlo.after hostOps2 (W3 m ρ c) (Proc.devRef .tc main_arg9) = _
  dsimp only [hostOps2]
  after_results_simp
  try rfl

set_option maxHeartbeats 4000000 in
theorem V4_v41 (c : Dev nD) : V4 m ρ c main_v41 = biasRow (m ((c : Thread nD τ).loc main_arg10)) := by
  rw [← W3_arg10 m ρ c]
  show StableHlo.after hostOps2 (W3 m ρ c) (Proc.devRef .tc main_v41) = _
  dsimp only [hostOps2]
  after_results_simp
  try rfl

/-- The third dense step leaves the second hidden layer. -/
theorem W5_v42 (c : Dev nD) : W5 m ρ c (Proc.devRef .tc main_v42)
    = hidden2 (W3 m ρ c (Proc.devRef .tc main_v21)) (m ((c : Thread nD τ).loc main_arg3)) (m ((c : Thread nD τ).loc main_arg4)) (m ((c : Thread nD τ).loc main_arg9)) (m ((c : Thread nD τ).loc main_arg10)) := by
  refine (W5_arr m ρ c 4).trans ((final2 (V4 m ρ) c).trans ?_)
  show scaleMmBiasRelu (V4 m ρ c main_v31) (V4 m ρ c main_v40) (V4 m ρ c main_arg9) (V4 m ρ c main_v41) = _
  rw [V4_v31, V4_v40, V4_arg9, V4_v41]
  rfl

/-! ## Layer 2 -/

set_option maxHeartbeats 4000000 in
theorem V10_v54 (c : Dev nD) : V10 m ρ c main_v54
    = segSum2 (W5 m ρ c (Proc.devRef .tc main_v42)) (m ((c : Thread nD τ).loc main_arg5)) (m ((c : Thread nD τ).loc main_arg6)) := by
  rw [← W5_arg5 m ρ c, ← W5_arg6 m ρ c]
  show StableHlo.after hostOps3_4 (StableHlo.after hostOps3_3 (StableHlo.after hostOps3_2 (StableHlo.after hostOps3_1 (StableHlo.after hostOps3 (W5 m ρ c))))) (Proc.devRef .tc main_v54) = _
  dsimp only [hostOps3, hostOps3_1, hostOps3_2, hostOps3_3, hostOps3_4]
  after_results_simp
  try rfl

set_option maxHeartbeats 4000000 in
theorem V10_v63 (c : Dev nD) : V10 m ρ c main_v63 = invDeg2 (m ((c : Thread nD τ).loc main_arg6)) := by
  rw [← W5_arg6 m ρ c]
  show StableHlo.after hostOps3_4 (StableHlo.after hostOps3_3 (StableHlo.after hostOps3_2 (StableHlo.after hostOps3_1 (StableHlo.after hostOps3 (W5 m ρ c))))) (Proc.devRef .tc main_v63) = _
  dsimp only [hostOps3, hostOps3_1, hostOps3_2, hostOps3_3, hostOps3_4]
  after_results_simp
  try rfl

set_option maxHeartbeats 4000000 in
theorem V10_v43 (c : Dev nD) : V10 m ρ c main_v43 = padW (m ((c : Thread nD τ).loc main_arg11)) := by
  rw [← W5_arg11 m ρ c]
  show StableHlo.after hostOps3_4 (StableHlo.after hostOps3_3 (StableHlo.after hostOps3_2 (StableHlo.after hostOps3_1 (StableHlo.after hostOps3 (W5 m ρ c))))) (Proc.devRef .tc main_v43) = _
  dsimp only [hostOps3, hostOps3_1, hostOps3_2, hostOps3_3, hostOps3_4]
  after_results_simp
  try rfl

set_option maxHeartbeats 4000000 in
theorem V10_v64 (c : Dev nD) : V10 m ρ c main_v64 = biasRow (padB (m ((c : Thread nD τ).loc main_arg12))) := by
  rw [← W5_arg12 m ρ c]
  show StableHlo.after hostOps3_4 (StableHlo.after hostOps3_3 (StableHlo.after hostOps3_2 (StableHlo.after hostOps3_1 (StableHlo.after hostOps3 (W5 m ρ c))))) (Proc.devRef .tc main_v64) = _
  dsimp only [hostOps3, hostOps3_1, hostOps3_2, hostOps3_3, hostOps3_4]
  after_results_simp
  try rfl

/-- The fourth dense step leaves the padded output layer. -/
theorem W11_v65 (c : Dev nD) : W11 m ρ c (Proc.devRef .tc main_v65)
    = outPad (W5 m ρ c (Proc.devRef .tc main_v42)) (m ((c : Thread nD τ).loc main_arg5)) (m ((c : Thread nD τ).loc main_arg6)) (m ((c : Thread nD τ).loc main_arg11)) (m ((c : Thread nD τ).loc main_arg12)) := by
  refine (W11_arr m ρ c 4).trans ((final3 (V10 m ρ) c).trans ?_)
  show scaleMmBias (V10 m ρ c main_v54) (V10 m ρ c main_v63) (V10 m ρ c main_v43) (V10 m ρ c main_v64) = _
  rw [V10_v54, V10_v63, V10_v43, V10_v64]
  rfl

/-! ## The result -/

set_option maxHeartbeats 4000000 in
/-- THE RESULT BUFFER at the end of the run is `KV.result` of the argument arrays as launched. -/
theorem W12_v66 (c : Dev nD) : W12 m ρ c (Proc.devRef .tc main_v66)
    = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  unfold result
  rw [← W3_v21 m ρ c, ← W5_v42 m ρ c, ← W11_v65 m ρ c]
  show StableHlo.after hostOps4 (W11 m ρ c) (Proc.devRef .tc main_v66) = _
  dsimp only [hostOps4]
  after_results_simp
  try rfl

end Cert.KernelIdeal.KV

end
-- ==== Proof.FiniteInputs.lean ====
/-
  From the finiteness precondition to real entries.

  The precondition is a conjunction of seven statements "every entry x of this array has |x| < +∞".  On the extended
  reals |x| is max(x, -x), which is +∞ exactly when x is an infinity; so |x| < +∞ says that x is a real number.  Only
  the first two conjuncts are used here: the node-feature array and the first weight matrix have real entries.
-/
import proofs.«118031_j18141941859038_2_alg».proof.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.FiniteInputs

open Idealize.ShloMosaic

/-- The scalar shape has a single index. -/
instance : Subsingleton Cert.Pre_finite_inputs.S_.Idx := ⟨fun _ _ => funext fun d => d.elim0⟩

/-- The single-precision pattern 0x7F800000 denotes +∞. -/
theorem ofBits_inf : Ideal.ofBits .f32 0x7F800000#32 = (⊤ : EReal) := by
  simp [Ideal.ofBits, Ideal.ieee]

/-- |x| < +∞ on the extended reals says x is a real: for x = ±∞ the absolute value max(x, -x) is +∞. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | top => simp [Ideal.cmp] at h
  | coe r => exact ⟨r, rfl⟩

variable [Cert.Pre_finite_inputs.Facts]

open Cert.Pre_finite_inputs in
/-- Under the precondition every entry of the feature array (argument 0) and of the first weight matrix
    (argument 7) is a real. -/
theorem finite_of_pre (a0 : FVec Ideal Cert.Pre_finite_inputs.S300000x256 .f32)
    (a1 a2 : IVec Cert.Pre_finite_inputs.S960000 32) (a3 a4 : IVec Cert.Pre_finite_inputs.S240000 32)
    (a5 a6 : IVec Cert.Pre_finite_inputs.S64000 32) (a7 : FVec Ideal Cert.Pre_finite_inputs.S256x128 .f32)
    (a8 : FVec Ideal Cert.Pre_finite_inputs.S128 .f32) (a9 : FVec Ideal Cert.Pre_finite_inputs.S128x128 .f32)
    (a10 : FVec Ideal Cert.Pre_finite_inputs.S128 .f32) (a11 : FVec Ideal Cert.Pre_finite_inputs.S128x47 .f32)
    (a12 : FVec Ideal Cert.Pre_finite_inputs.S47 .f32)
    (h : Cert.Pre_finite_inputs.fn (F := Ideal) a0 a1 a2 a3 a4 a5 a6 a7 a8 a9 a10 a11 a12 = fun _ => 1#1) :
    (∀ i, ∃ r : ℝ, a0 i = (r : EReal)) ∧ (∀ i, ∃ r : ℝ, a7 i = (r : EReal)) := by
  have h0 := congrFun h ValueIdx.ix0
  dsimp only [Cert.Pre_finite_inputs.fn, Cert.Pre_finite_inputs.fn_part1] at h0
  -- the conjunction is nested to the left: peel the five outer conjuncts off
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨hx, hw⟩ := IntOp.andi_eq_one.1 h0
  exact ⟨fun i => real_of_abs_lt_inf (a0 i) (Host.reduce_andi_all _ _ _ _ _ hx i),
    fun i => real_of_abs_lt_inf (a7 i) (Host.reduce_andi_all _ _ _ _ _ hw i)⟩

end Cert.FiniteInputs

end
-- ==== Proof.MeanAlgebra.lean ====
/-
  The algebra behind mean aggregation followed by a linear projection, on the extended reals.

  A mean over a node's incoming edges divides a sum by max(count, 1).  That divisor is at least 1, so it is never
  zero and its reciprocal is a finite non-negative real.  Dividing by it is therefore multiplying by a finite
  non-negative real factor, and such a factor commutes with finite sums: projecting the features of every edge
  first, summing, and scaling afterwards gives the same value as summing, dividing, and projecting afterwards,
  when the features and the weights are reals.
-/
import Idealize.ShloMosaic.PureOps.Ideal

noncomputable section

namespace Cert.MeanAlgebra

open Idealize.ShloMosaic
open scoped BigOperators

/-- max(c, 1) is at least 1, hence not zero. -/
theorem max_one_ne_zero (c : EReal) : max c 1 ≠ 0 :=
  ne_of_gt (lt_of_lt_of_le zero_lt_one (le_max_right c 1))

/-- Dividing by max(c, 1) is multiplying by its reciprocal. -/
theorem div_max_one (x c : EReal) : Ideal.div x (max c 1) = x * Ideal.div 1 (max c 1) := by
  rw [Ideal.div, Ideal.div, if_neg (max_one_ne_zero c), if_neg (max_one_ne_zero c), one_mul]

/-- The reciprocal of max(c, 1) is a finite non-negative real (zero when c is +∞). -/
theorem recip_max_one_real (c : EReal) : ∃ r : ℝ, 0 ≤ r ∧ Ideal.div 1 (max c 1) = (r : EReal) := by
  rw [Ideal.div, if_neg (max_one_ne_zero c), one_mul]
  induction c using EReal.rec with
  | bot => exact ⟨1, zero_le_one, by simp⟩
  | top => exact ⟨0, le_refl _, by simp⟩
  | coe y =>
    refine ⟨(max y 1)⁻¹, inv_nonneg.mpr (le_trans zero_le_one (le_max_right _ _)), ?_⟩
    rw [EReal.coe_inv, EReal.coe_strictMono.monotone.map_max, EReal.coe_one]

/-- The coercion of the reals into the extended reals commutes with finite sums. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- Mean then project equals project, sum, then scale: for real features a and real weights w,
    Σₖ ((Σₑ a e k) / max(c,1)) · w k = (Σₑ Σₖ a e k · w k) · (1 / max(c,1)). -/
theorem mean_then_project {ι κ : Type*} [Fintype κ] (s : Finset ι) (a : ι → κ → ℝ) (w : κ → ℝ) (c : EReal) :
    ∑ k, Ideal.div (0 + ∑ e ∈ s, ((a e k : ℝ) : EReal)) (max c 1) * ((w k : ℝ) : EReal)
      = (0 + ∑ e ∈ s, ∑ k, ((a e k : ℝ) : EReal) * ((w k : ℝ) : EReal)) * Ideal.div 1 (max c 1) := by
  obtain ⟨r, _, hr⟩ := recip_max_one_real c
  simp only [div_max_one, hr, zero_add, ← EReal.coe_mul, ← coe_sum]
  congr 1
  simp only [Finset.sum_mul]
  rw [Finset.sum_comm]
  exact Finset.sum_congr rfl fun e _ => Finset.sum_congr rfl fun k _ => by ring

end Cert.MeanAlgebra

end
-- ==== Proof.LibScatterRead.lean ====
/-
  An accumulating scatter (each update added onto the operand element its start index names, an update
  whose start index names no element dropped) and a gather (each result element the operand element its
  start index names, the start index clamped into range), read at an index, for the dimension numbers of
  an edge list scattered into, or gathered from, an array of nodes: one start index per edge, or a pair.
-/
import Idealize.ShloMosaic.Lib.ValueIdx

open scoped BigOperators

namespace Cert.LibScatterRead

open Idealize.ShloMosaic Idealize.ShloMosaic.ValueIdx

/-! ## Generalities -/

/-- An update lands on operand index `i` exactly when, on every axis, its start (read signed, not
    clamped) plus its window coordinate is `i`'s coordinate: a sum that leaves `[0, size)` on some axis
    drops the update, and no coordinate of `i` is outside that range. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hi a
      have := congrArg (fun f => (f a).val) hi
      simp only at this
      have := h a
      omega
    · intro hi
      funext a
      refine Fin.ext ?_
      have := hi a
      show (d.start j idx a + (d.window j a : ℤ)).toNat = (i a).val
      omega
  · rename_i h
    constructor
    · intro hi; cases hi
    · intro hi
      exfalso
      refine h fun a => ?_
      have := hi a
      have := (i a).isLt
      omega

/-- Rank-1 indices are the coordinates. -/
def ix1Equiv (n : Nat) : Fin n ≃ (⟨1, ![n]⟩ : Shape).Idx where
  toFun := ix1
  invFun j := j 0
  left_inv _ := rfl
  right_inv j := (eq_ix1 j).symm

/-- Indices of an `[n, 1]` array are the first coordinates. -/
def ix2Equiv1 (n : Nat) : Fin n ≃ (⟨2, ![n, 1]⟩ : Shape).Idx where
  toFun e := ix2 e 0
  invFun j := j 0
  left_inv _ := rfl
  right_inv j := by
    funext a
    refine Fin.ext ?_
    match a with
    | ⟨0, _⟩ => rfl
    | ⟨1, _⟩ =>
      show (0 : ℕ) = (j 1).val
      have := idx2_lt1 j
      omega

/-- A sum over the members of a finite type that satisfy `P`, carried along a bijection. -/
theorem sum_filter_equiv {α β M : Type*} [Fintype α] [Fintype β] [AddCommMonoid M] (σ : α ≃ β)
    (P : β → Prop) [DecidablePred P] (f : β → M) :
    ∑ b ∈ Finset.univ.filter P, f b = ∑ a ∈ Finset.univ.filter (fun a => P (σ a)), f (σ a) := by
  rw [Finset.sum_filter, Finset.sum_filter, ← Equiv.sum_comp σ]

/-! ## One start index per edge, into a rank-1 array of nodes -/

section Scatter1
variable {N E w : Nat} (wf : ScatterDims.WF ⟨1, ![N]⟩ ⟨2, ![E, 1]⟩ ⟨1, ![E]⟩ [] [0] [0] 1)

/-- `x.at[idx].add(upd)` for `x : [N]`, `idx : [E, 1]`, `upd : [E]`: no window axes, the operand's one
    axis inserted and named by the start index's one component. -/
abbrev scatter1Dims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Edge `e`'s start on the node axis is `idx[e, 0]` read signed. -/
theorem scatter1_start (e : Fin E) (idx : IVec ⟨2, ![E, 1]⟩ w) :
    (scatter1Dims N E wf).start (ix1 e) idx 0 = (idx (ix2 e 0)).toInt := by
  unfold ScatterDims.start
  rw [dif_pos (show (0 : Fin 1) ∈ (scatter1Dims N E wf).scatterDimsToOperandDims from List.mem_singleton.mpr rfl)]
  have hsi : (scatter1Dims N E wf).siIdx (ix1 e) ⟨List.idxOf (0 : Fin 1) (scatter1Dims N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- There is no window: the window coordinate on the node axis is `0`. -/
theorem scatter1_window (j : (⟨1, ![E]⟩ : Shape).Idx) : (scatter1Dims N E wf).window j 0 = 0 := by
  unfold ScatterDims.window
  have hk : (0 : Fin 1) ∉ (scatter1Dims N E wf).sKept := by
    show (0 : Fin 1) ∉ ([] : List (Fin 1))
    exact List.not_mem_nil
  rw [dif_neg hk]

/-- Edge `e` lands on node `i` exactly when `idx[e, 0]`, read signed, is `i`. -/
theorem scatter1_resultIdx?_iff (e : Fin E) (i : Fin N) (idx : IVec ⟨2, ![E, 1]⟩ w) :
    (scatter1Dims N E wf).resultIdx? (ix1 e) idx = some (ix1 i) ↔ (idx (ix2 e 0)).toInt = (i.val : ℤ) := by
  rw [resultIdx?_eq_some_iff]
  constructor
  · intro h
    have := h 0
    rw [scatter1_start, scatter1_window, Nat.cast_zero, add_zero] at this
    exact this
  · intro h a
    obtain rfl : a = 0 := Subsingleton.elim _ _
    rw [scatter1_start, scatter1_window, Nat.cast_zero, add_zero]
    exact h

/-- THE SCATTER-ADD READ AT NODE `i`: the operand there plus the updates of the edges whose start index is `i`. -/
theorem scatterAdd1_apply {φ : FTy} (x : FVec Ideal ⟨1, ![N]⟩ φ) (idx : IVec ⟨2, ![E, 1]⟩ w)
    (upd : FVec Ideal ⟨1, ![E]⟩ φ) (i : Fin N) :
    Host.scatterAdd (F := Ideal) (scatter1Dims N E wf) x idx upd (ix1 i)
      = x (ix1 i) + ∑ e ∈ Finset.univ.filter (fun e : Fin E => (idx (ix2 e 0)).toInt = (i.val : ℤ)), upd (ix1 e) := by
  unfold Host.scatterAdd
  rw [Ideal.hostScatterAdd_def]
  unfold Ideal.hostScatterAdd
  congr 1
  rw [sum_filter_equiv (ix1Equiv E)]
  exact Finset.sum_congr (Finset.filter_congr fun e _ => scatter1_resultIdx?_iff wf e i idx) fun _ _ => rfl

/-- The same read when the start indices are known to name nodes: `col e` is edge `e`'s node. -/
theorem scatterAdd1_apply_of_nodes {φ : FTy} (x : FVec Ideal ⟨1, ![N]⟩ φ) (idx : IVec ⟨2, ![E, 1]⟩ w)
    (upd : FVec Ideal ⟨1, ![E]⟩ φ) (col : Fin E → Fin N)
    (hcol : ∀ e, (idx (ix2 e 0)).toInt = ((col e).val : ℤ)) (i : Fin N) :
    Host.scatterAdd (F := Ideal) (scatter1Dims N E wf) x idx upd (ix1 i)
      = x (ix1 i) + ∑ e ∈ Finset.univ.filter (fun e : Fin E => col e = i), upd (ix1 e) := by
  rw [scatterAdd1_apply]
  congr 1
  refine Finset.sum_congr (Finset.filter_congr fun e _ => ?_) fun _ _ => rfl
  rw [hcol e, Nat.cast_inj, Fin.val_inj]

end Scatter1

/-! ## One start index per edge, into an `[N, 1]` array of nodes: a window axis of size 1 -/

section Scatter1Col
variable {N E w : Nat} (wf : ScatterDims.WF ⟨2, ![N, 1]⟩ ⟨2, ![E, 1]⟩ ⟨2, ![E, 1]⟩ [1] [0] [0] 1)

/-- `x.at[idx].add(upd)` for `x : [N, 1]`, `idx : [E, 1]`, `upd : [E, 1]`: the updates' trailing axis is a
    window over the operand's trailing axis, the operand's leading axis inserted and named by the start
    index's one component. -/
abbrev scatter1ColDims (N E : Nat) (wf : ScatterDims.WF ⟨2, ![N, 1]⟩ ⟨2, ![E, 1]⟩ ⟨2, ![E, 1]⟩ [1] [0] [0] 1) :
    ScatterDims ⟨2, ![N, 1]⟩ ⟨2, ![E, 1]⟩ ⟨2, ![E, 1]⟩ where
  updateWindowDims := [1]
  insertedWindowDims := [0]
  scatterDimsToOperandDims := [0]
  indexVectorDim := 1
  wf := wf

/-- Edge `e`'s start on the node axis is `idx[e, 0]` read signed. -/
theorem scatter1Col_start0 (e : Fin E) (idx : IVec ⟨2, ![E, 1]⟩ w) :
    (scatter1ColDims N E wf).start (ix2 e 0) idx 0 = (idx (ix2 e 0)).toInt := by
  unfold ScatterDims.start
  rw [dif_pos (show (0 : Fin 2) ∈ (scatter1ColDims N E wf).scatterDimsToOperandDims from List.mem_singleton.mpr rfl)]
  have hsi : (scatter1ColDims N E wf).siIdx (ix2 e 0) ⟨List.idxOf (0 : Fin 2) (scatter1ColDims N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- The start index names no position on the trailing axis: the start there is `0`. -/
theorem scatter1Col_start1 (j : (⟨2, ![E, 1]⟩ : Shape).Idx) (idx : IVec ⟨2, ![E, 1]⟩ w) :
    (scatter1ColDims N E wf).start j idx 1 = 0 := by
  unfold ScatterDims.start
  have h : (1 : Fin 2) ∉ (scatter1ColDims N E wf).scatterDimsToOperandDims := by
    show (1 : Fin 2) ∉ ([0] : List (Fin 2))
    decide
  rw [dif_neg h]

/-- The node axis is inserted: the window coordinate there is `0`. -/
theorem scatter1Col_window0 (j : (⟨2, ![E, 1]⟩ : Shape).Idx) : (scatter1ColDims N E wf).window j 0 = 0 := by
  unfold ScatterDims.window
  have hk : (0 : Fin 2) ∉ (scatter1ColDims N E wf).sKept := by
    show (0 : Fin 2) ∉ ([1] : List (Fin 2))
    decide
  rw [dif_neg hk]

/-- The window coordinate on the trailing axis is the update's trailing coordinate, `0`. -/
theorem scatter1Col_window1 (e : Fin E) : (scatter1ColDims N E wf).window (ix2 e 0) 1 = 0 := by
  unfold ScatterDims.window
  have hk : (1 : Fin 2) ∈ (scatter1ColDims N E wf).sKept := by
    show (1 : Fin 2) ∈ ([1] : List (Fin 2))
    decide
  rw [dif_pos hk]
  rfl

/-- Update `(e, 0)` lands on `(i, 0)` exactly when `idx[e, 0]`, read signed, is `i`. -/
theorem scatter1Col_resultIdx?_iff (e : Fin E) (i : Fin N) (idx : IVec ⟨2, ![E, 1]⟩ w) :
    (scatter1ColDims N E wf).resultIdx? (ix2 e 0) idx = some (ix2 i 0) ↔ (idx (ix2 e 0)).toInt = (i.val : ℤ) := by
  rw [resultIdx?_eq_some_iff]
  constructor
  · intro h
    have := h 0
    rw [scatter1Col_start0, scatter1Col_window0, Nat.cast_zero, add_zero] at this
    exact this
  · intro h a
    match a with
    | ⟨0, _⟩ =>
      show (scatter1ColDims N E wf).start (ix2 e 0) idx 0 + ((scatter1ColDims N E wf).window (ix2 e 0) 0 : ℤ) = (i.val : ℤ)
      rw [scatter1Col_start0, scatter1Col_window0, Nat.cast_zero, add_zero]
      exact h
    | ⟨1, _⟩ =>
      show (scatter1ColDims N E wf).start (ix2 e 0) idx 1 + ((scatter1ColDims N E wf).window (ix2 e 0) 1 : ℤ) = ((0 : ℕ) : ℤ)
      rw [scatter1Col_start1, scatter1Col_window1, Nat.cast_zero, add_zero]

/-- THE SCATTER-ADD READ AT `(i, 0)`: the operand there plus the updates `(e, 0)` of the edges whose start index is `i`. -/
theorem scatterAdd1Col_apply {φ : FTy} (x : FVec Ideal ⟨2, ![N, 1]⟩ φ) (idx : IVec ⟨2, ![E, 1]⟩ w)
    (upd : FVec Ideal ⟨2, ![E, 1]⟩ φ) (i : Fin N) :
    Host.scatterAdd (F := Ideal) (scatter1ColDims N E wf) x idx upd (ix2 i 0)
      = x (ix2 i 0) + ∑ e ∈ Finset.univ.filter (fun e : Fin E => (idx (ix2 e 0)).toInt = (i.val : ℤ)), upd (ix2 e 0) := by
  unfold Host.scatterAdd
  rw [Ideal.hostScatterAdd_def]
  unfold Ideal.hostScatterAdd
  congr 1
  rw [sum_filter_equiv (ix2Equiv1 E)]
  exact Finset.sum_congr (Finset.filter_congr fun e _ => scatter1Col_resultIdx?_iff wf e i idx) fun _ _ => rfl

/-- The same read when the start indices are known to name nodes: `col e` is edge `e`'s node. -/
theorem scatterAdd1Col_apply_of_nodes {φ : FTy} (x : FVec Ideal ⟨2, ![N, 1]⟩ φ) (idx : IVec ⟨2, ![E, 1]⟩ w)
    (upd : FVec Ideal ⟨2, ![E, 1]⟩ φ) (col : Fin E → Fin N)
    (hcol : ∀ e, (idx (ix2 e 0)).toInt = ((col e).val : ℤ)) (i : Fin N) :
    Host.scatterAdd (F := Ideal) (scatter1ColDims N E wf) x idx upd (ix2 i 0)
      = x (ix2 i 0) + ∑ e ∈ Finset.univ.filter (fun e : Fin E => col e = i), upd (ix2 e 0) := by
  rw [scatterAdd1Col_apply]
  congr 1
  refine Finset.sum_congr (Finset.filter_congr fun e _ => ?_) fun _ _ => rfl
  rw [hcol e, Nat.cast_inj, Fin.val_inj]

end Scatter1Col

/-! ## A pair of start indices per edge, into a rank-2 array: the dense adjacency accumulation -/

section Scatter2
variable {N0 N1 E w : Nat} (wf : ScatterDims.WF ⟨2, ![N0, N1]⟩ ⟨2, ![E, 2]⟩ ⟨1, ![E]⟩ [] [0, 1] [0, 1] 1)

/-- `x.at[idx[:, 0], idx[:, 1]].add(upd)` for `x : [N0, N1]`, `idx : [E, 2]`, `upd : [E]`: no window axes, both
    operand axes inserted, the start index's two components naming them in order. -/
abbrev scatter2Dims (N0 N1 E : Nat) (wf : ScatterDims.WF ⟨2, ![N0, N1]⟩ ⟨2, ![E, 2]⟩ ⟨1, ![E]⟩ [] [0, 1] [0, 1] 1) :
    ScatterDims ⟨2, ![N0, N1]⟩ ⟨2, ![E, 2]⟩ ⟨1, ![E]⟩ where
  updateWindowDims := []
  insertedWindowDims := [0, 1]
  scatterDimsToOperandDims := [0, 1]
  indexVectorDim := 1
  wf := wf

/-- Edge `e`'s start on the first axis is `idx[e, 0]` read signed. -/
theorem scatter2_start0 (e : Fin E) (idx : IVec ⟨2, ![E, 2]⟩ w) :
    (scatter2Dims N0 N1 E wf).start (ix1 e) idx 0 = (idx (ix2 e 0)).toInt := by
  unfold ScatterDims.start
  have hm : (0 : Fin 2) ∈ (scatter2Dims N0 N1 E wf).scatterDimsToOperandDims := by
    show (0 : Fin 2) ∈ ([0, 1] : List (Fin 2))
    decide
  rw [dif_pos hm]
  have hsi : (scatter2Dims N0 N1 E wf).siIdx (ix1 e) ⟨List.idxOf (0 : Fin 2) (scatter2Dims N0 N1 E wf).scatterDimsToOperandDims,
      List.idxOf_lt_length_iff.2 hm⟩ = ix2 e 0 := by
    funext b; refine Fin.ext ?_
    match b with
    | ⟨0, _⟩ => rfl
    | ⟨1, _⟩ => rfl
  rw [hsi]

/-- Edge `e`'s start on the second axis is `idx[e, 1]` read signed. -/
theorem scatter2_start1 (e : Fin E) (idx : IVec ⟨2, ![E, 2]⟩ w) :
    (scatter2Dims N0 N1 E wf).start (ix1 e) idx 1 = (idx (ix2 e 1)).toInt := by
  unfold ScatterDims.start
  have hm : (1 : Fin 2) ∈ (scatter2Dims N0 N1 E wf).scatterDimsToOperandDims := by
    show (1 : Fin 2) ∈ ([0, 1] : List (Fin 2))
    decide
  rw [dif_pos hm]
  have hsi : (scatter2Dims N0 N1 E wf).siIdx (ix1 e) ⟨List.idxOf (1 : Fin 2) (scatter2Dims N0 N1 E wf).scatterDimsToOperandDims,
      List.idxOf_lt_length_iff.2 hm⟩ = ix2 e 1 := by
    funext b; refine Fin.ext ?_
    match b with
    | ⟨0, _⟩ => rfl
    | ⟨1, _⟩ => rfl
  rw [hsi]

/-- There is no window: the window coordinate is `0` on both axes. -/
theorem scatter2_window (j : (⟨1, ![E]⟩ : Shape).Idx) (a : Fin 2) : (scatter2Dims N0 N1 E wf).window j a = 0 := by
  unfold ScatterDims.window
  have hk : a ∉ (scatter2Dims N0 N1 E wf).sKept := by
    show a ∉ ([] : List (Fin 2))
    exact List.not_mem_nil
  rw [dif_neg hk]

/-- Edge `e` lands on `(j, i)` exactly when `idx[e, 0]` is `j` and `idx[e, 1]` is `i`, both read signed. -/
theorem scatter2_resultIdx?_iff (e : Fin E) (j : Fin N0) (i : Fin N1) (idx : IVec ⟨2, ![E, 2]⟩ w) :
    (scatter2Dims N0 N1 E wf).resultIdx? (ix1 e) idx = some (ix2 j i)
      ↔ (idx (ix2 e 0)).toInt = (j.val : ℤ) ∧ (idx (ix2 e 1)).toInt = (i.val : ℤ) := by
  rw [resultIdx?_eq_some_iff]
  constructor
  · intro h
    have h0 := h 0
    have h1 := h 1
    rw [scatter2_start0, scatter2_window, Nat.cast_zero, add_zero] at h0
    rw [scatter2_start1, scatter2_window, Nat.cast_zero, add_zero] at h1
    exact ⟨h0, h1⟩
  · rintro ⟨h0, h1⟩ a
    match a with
    | ⟨0, _⟩ =>
      show (scatter2Dims N0 N1 E wf).start (ix1 e) idx 0 + ((scatter2Dims N0 N1 E wf).window (ix1 e) 0 : ℤ) = (j.val : ℤ)
      rw [scatter2_start0, scatter2_window, Nat.cast_zero, add_zero]
      exact h0
    | ⟨1, _⟩ =>
      show (scatter2Dims N0 N1 E wf).start (ix1 e) idx 1 + ((scatter2Dims N0 N1 E wf).window (ix1 e) 1 : ℤ) = (i.val : ℤ)
      rw [scatter2_start1, scatter2_window, Nat.cast_zero, add_zero]
      exact h1

/-- THE SCATTER-ADD READ AT `(j, i)`: the operand there plus the updates of the edges whose pair of start
    indices is `(j, i)`. -/
theorem scatterAdd2_apply {φ : FTy} (x : FVec Ideal ⟨2, ![N0, N1]⟩ φ) (idx : IVec ⟨2, ![E, 2]⟩ w)
    (upd : FVec Ideal ⟨1, ![E]⟩ φ) (j : Fin N0) (i : Fin N1) :
    Host.scatterAdd (F := Ideal) (scatter2Dims N0 N1 E wf) x idx upd (ix2 j i)
      = x (ix2 j i) + ∑ e ∈ Finset.univ.filter (fun e : Fin E =>
          (idx (ix2 e 0)).toInt = (j.val : ℤ) ∧ (idx (ix2 e 1)).toInt = (i.val : ℤ)), upd (ix1 e) := by
  unfold Host.scatterAdd
  rw [Ideal.hostScatterAdd_def]
  unfold Ideal.hostScatterAdd
  congr 1
  rw [sum_filter_equiv (ix1Equiv E)]
  exact Finset.sum_congr (Finset.filter_congr fun e _ => scatter2_resultIdx?_iff wf e j i idx) fun _ _ => rfl

/-- The same read when both start indices are known to name nodes: `row e` and `col e` are edge `e`'s two
    nodes, and the edges summed are those with `row e = j ∧ col e = i`. -/
theorem scatterAdd2_apply_of_nodes {φ : FTy} (x : FVec Ideal ⟨2, ![N0, N1]⟩ φ) (idx : IVec ⟨2, ![E, 2]⟩ w)
    (upd : FVec Ideal ⟨1, ![E]⟩ φ) (row : Fin E → Fin N0) (col : Fin E → Fin N1)
    (hrow : ∀ e, (idx (ix2 e 0)).toInt = ((row e).val : ℤ)) (hcol : ∀ e, (idx (ix2 e 1)).toInt = ((col e).val : ℤ))
    (j : Fin N0) (i : Fin N1) :
    Host.scatterAdd (F := Ideal) (scatter2Dims N0 N1 E wf) x idx upd (ix2 j i)
      = x (ix2 j i) + ∑ e ∈ Finset.univ.filter (fun e : Fin E => row e = j ∧ col e = i), upd (ix1 e) := by
  rw [scatterAdd2_apply]
  congr 1
  refine Finset.sum_congr (Finset.filter_congr fun e _ => ?_) fun _ _ => rfl
  rw [hrow e, hcol e, Nat.cast_inj, Nat.cast_inj, Fin.val_inj, Fin.val_inj]

end Scatter2

/-! ## Clamped start indices -/

/-- The node a signed start index names once clamped into `[0, N − 1]`, as a gather reads it. -/
def clampIdx {N : Nat} (hN : 0 < N) (z : ℤ) : Fin N := ⟨min z.toNat (N - 1), by omega⟩

/-- Inside `[0, N)` the clamp is the identity. -/
theorem clampIdx_of_inRange {N : Nat} (hN : 0 < N) {z : ℤ} (h0 : 0 ≤ z) (h1 : z < N) :
    clampIdx hN z = ⟨z.toNat, by omega⟩ := by
  refine Fin.ext ?_
  show min z.toNat (N - 1) = z.toNat
  omega

/-- A signed start index is node `j` (a scatter's landing condition) exactly when it is inside `[0, N)` and
    clamps to `j` (a gather's reading). -/
theorem eq_coe_iff_clampIdx {N : Nat} (hN : 0 < N) (z : ℤ) (j : Fin N) :
    z = (j.val : ℤ) ↔ (0 ≤ z ∧ z < N) ∧ clampIdx hN z = j := by
  have hj := j.isLt
  constructor
  · intro h
    refine ⟨⟨by omega, by omega⟩, Fin.ext ?_⟩
    show min z.toNat (N - 1) = j.val
    omega
  · rintro ⟨⟨h0, h1⟩, h⟩
    have := congrArg Fin.val h
    change min z.toNat (N - 1) = j.val at this
    omega

/-! ## Gathers: one start index per edge -/

section Gather1
variable {N E w : Nat} {α : Type} (wf : GatherDims.WF ⟨1, ![N]⟩ ⟨2, ![E, 1]⟩ ⟨1, ![E]⟩ [] [0] [] [0] [] 1 ![1])

/-- `x[idx]` for `x : [N]`, `idx : [E, 1]`: slices of one element, the operand's axis collapsed and named by
    the start index's one component. -/
abbrev gather1Dims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE GATHER READ AT EDGE `e`: the operand at `idx[e, 0]`, read signed and clamped into `[0, N − 1]`. -/
theorem gather1_apply (hN : 0 < N) (x : (⟨1, ![N]⟩ : Shape).Idx → α) (idx : IVec ⟨2, ![E, 1]⟩ w) (e : Fin E) :
    Host.gather (gather1Dims N E wf) x idx (ix1 e) = x (ix1 (clampIdx hN (idx (ix2 e 0)).toInt)) := by
  unfold Host.gather
  congr 1
  funext a
  obtain rfl : a = 0 := Subsingleton.elim _ _
  refine Fin.ext ?_
  show (gather1Dims N E wf).start (ix1 e) idx 0 + (gather1Dims N E wf).batchCoord (ix1 e) 0
    + (gather1Dims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gather1Dims N E wf).startIndexMap from List.mem_singleton.mpr rfl)]
  have hsi : (gather1Dims N E wf).siIdx (ix1 e) ⟨List.idxOf (0 : Fin 1) (gather1Dims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- The gather read at edge `e` when `idx[e, 0]` names a node: the operand at that node. -/
theorem gather1_apply_of_inRange (x : (⟨1, ![N]⟩ : Shape).Idx → α) (idx : IVec ⟨2, ![E, 1]⟩ w) (e : Fin E)
    (h0 : 0 ≤ (idx (ix2 e 0)).toInt) (h1 : (idx (ix2 e 0)).toInt < N) :
    Host.gather (gather1Dims N E wf) x idx (ix1 e) = x (ix1 ⟨(idx (ix2 e 0)).toInt.toNat, by omega⟩) := by
  have hN : 0 < N := by omega
  rw [gather1_apply wf hN, clampIdx_of_inRange hN h0 h1]

end Gather1

section Gather1Col
variable {N E w : Nat} {α : Type}
  (wf : GatherDims.WF ⟨2, ![N, 1]⟩ ⟨2, ![E, 1]⟩ ⟨2, ![E, 1]⟩ [1] [0] [] [0] [] 1 ![1, 1])

/-- `x[idx]` for `x : [N, 1]`, `idx : [E, 1]`: slices `[1, 1]`, the operand's leading axis collapsed and named by
    the start index's one component, its trailing axis the result's offset axis. -/
abbrev gather1ColDims (N E : Nat)
    (wf : GatherDims.WF ⟨2, ![N, 1]⟩ ⟨2, ![E, 1]⟩ ⟨2, ![E, 1]⟩ [1] [0] [] [0] [] 1 ![1, 1]) :
    GatherDims ⟨2, ![N, 1]⟩ ⟨2, ![E, 1]⟩ ⟨2, ![E, 1]⟩ where
  offsetDims := [1]
  collapsedSliceDims := [0]
  operandBatchingDims := []
  startIndicesBatchingDims := []
  startIndexMap := [0]
  indexVectorDim := 1
  sliceSizes := ![1, 1]
  wf := wf

/-- THE GATHER READ AT `(e, 0)`: the operand at `(idx[e, 0], 0)`, the start index read signed and clamped into
    `[0, N − 1]`. -/
theorem gather1Col_apply (hN : 0 < N) (x : (⟨2, ![N, 1]⟩ : Shape).Idx → α) (idx : IVec ⟨2, ![E, 1]⟩ w) (e : Fin E) :
    Host.gather (gather1ColDims N E wf) x idx (ix2 e 0) = x (ix2 (clampIdx hN (idx (ix2 e 0)).toInt) 0) := by
  unfold Host.gather
  congr 1
  funext a
  refine Fin.ext ?_
  match a with
  | ⟨0, _⟩ =>
    show (gather1ColDims N E wf).start (ix2 e 0) idx 0 + (gather1ColDims N E wf).batchCoord (ix2 e 0) 0
      + (gather1ColDims N E wf).offCoord (ix2 e 0) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather1ColDims N E wf).startIndexMap from List.mem_singleton.mpr rfl)]
    have hsi : (gather1ColDims N E wf).siIdx (ix2 e 0) ⟨List.idxOf (0 : Fin 2) (gather1ColDims N E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (gather1ColDims N E wf).start (ix2 e 0) idx 1 + (gather1ColDims N E wf).batchCoord (ix2 e 0) 1
      + (gather1ColDims N E wf).offCoord (ix2 e 0) 1 = 0
    have hs : (gather1ColDims N E wf).start (ix2 e 0) idx 1 = 0 := by
      unfold GatherDims.start
      have h : (1 : Fin 2) ∉ (gather1ColDims N E wf).startIndexMap := by
        show (1 : Fin 2) ∉ ([0] : List (Fin 2))
        decide
      rw [dif_neg h]
    have ho : (gather1ColDims N E wf).offCoord (ix2 e 0) 1 = 0 := by
      unfold GatherDims.offCoord
      have hk : (1 : Fin 2) ∈ (gather1ColDims N E wf).sKept := by
        show (1 : Fin 2) ∈ ([1] : List (Fin 2))
        decide
      rw [dif_pos hk]
      rfl
    rw [hs, GatherDims.batchCoord_eq_zero _ _ _ List.not_mem_nil, ho]

/-- The gather read at `(e, 0)` when `idx[e, 0]` names a node: the operand at `(that node, 0)`. -/
theorem gather1Col_apply_of_inRange (x : (⟨2, ![N, 1]⟩ : Shape).Idx → α) (idx : IVec ⟨2, ![E, 1]⟩ w) (e : Fin E)
    (h0 : 0 ≤ (idx (ix2 e 0)).toInt) (h1 : (idx (ix2 e 0)).toInt < N) :
    Host.gather (gather1ColDims N E wf) x idx (ix2 e 0) = x (ix2 ⟨(idx (ix2 e 0)).toInt.toNat, by omega⟩ 0) := by
  have hN : 0 < N := by omega
  rw [gather1Col_apply wf hN, clampIdx_of_inRange hN h0 h1]

end Gather1Col

end Cert.LibScatterRead
-- ==== Proof.LibRowScatter.lean ====
/-
  The row forms of an accumulating scatter and of a gather, read at an index: an array of `N` nodes with `C`
  channels each, and one start index per edge. A scatter adds edge `e`'s whole row of `C` updates onto the
  row of the node its start index names (dropped when it names none); a gather copies, for edge `e`, the whole
  row of the node its start index names once clamped into range. In both the channel coordinate is carried
  through unchanged, so at channel `c` each is the rank-1 statement about column `c`.
-/
import proofs.«118031_j18141941859038_2_alg».proof.Proof.LibScatterRead

open scoped BigOperators

namespace Cert.LibRowScatter

open Idealize.ShloMosaic Idealize.ShloMosaic.ValueIdx Cert.LibScatterRead

/-! ## Scatter of rows -/

section ScatterRow
variable {N C E w : Nat} (wf : ScatterDims.WF ⟨2, ![N, C]⟩ ⟨2, ![E, 1]⟩ ⟨2, ![E, C]⟩ [1] [0] [0] 1)

/-- `x.at[idx].add(upd)` for `x : [N, C]`, `idx : [E, 1]`, `upd : [E, C]`: the updates' trailing axis is a
    window over the operand's channel axis, the operand's node axis inserted and named by the start
    index's one component. -/
abbrev scatterRowDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Update `(e, c)`'s start on the node axis is `idx[e, 0]` read signed, whatever the channel. -/
theorem scatterRow_start0 (e : Fin E) (c : Fin C) (idx : IVec ⟨2, ![E, 1]⟩ w) :
    (scatterRowDims N C E wf).start (ix2 e c) idx 0 = (idx (ix2 e 0)).toInt := by
  unfold ScatterDims.start
  rw [dif_pos (show (0 : Fin 2) ∈ (scatterRowDims N C E wf).scatterDimsToOperandDims from List.mem_singleton.mpr rfl)]
  have hsi : (scatterRowDims N C E wf).siIdx (ix2 e c) ⟨List.idxOf (0 : Fin 2) (scatterRowDims N C E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- The start index names no position on the channel axis: the start there is `0`. -/
theorem scatterRow_start1 (j : (⟨2, ![E, C]⟩ : Shape).Idx) (idx : IVec ⟨2, ![E, 1]⟩ w) :
    (scatterRowDims N C E wf).start j idx 1 = 0 := by
  unfold ScatterDims.start
  have h : (1 : Fin 2) ∉ (scatterRowDims N C E wf).scatterDimsToOperandDims := by
    show (1 : Fin 2) ∉ ([0] : List (Fin 2))
    decide
  rw [dif_neg h]

/-- The node axis is inserted: the window coordinate there is `0`. -/
theorem scatterRow_window0 (j : (⟨2, ![E, C]⟩ : Shape).Idx) : (scatterRowDims N C E wf).window j 0 = 0 := by
  unfold ScatterDims.window
  have hk : (0 : Fin 2) ∉ (scatterRowDims N C E wf).sKept := by
    show (0 : Fin 2) ∉ ([1] : List (Fin 2))
    decide
  rw [dif_neg hk]

/-- The window coordinate on the channel axis is the update's channel. -/
theorem scatterRow_window1 (e : Fin E) (c : Fin C) : (scatterRowDims N C E wf).window (ix2 e c) 1 = c.val := by
  unfold ScatterDims.window
  have hk : (1 : Fin 2) ∈ (scatterRowDims N C E wf).sKept := by
    show (1 : Fin 2) ∈ ([1] : List (Fin 2))
    decide
  rw [dif_pos hk]
  rfl

/-- Update `(e, c')` lands on `(i, c)` exactly when `idx[e, 0]`, read signed, is `i` and the channels agree. -/
theorem scatterRow_resultIdx?_iff (e : Fin E) (c' c : Fin C) (i : Fin N) (idx : IVec ⟨2, ![E, 1]⟩ w) :
    (scatterRowDims N C E wf).resultIdx? (ix2 e c') idx = some (ix2 i c)
      ↔ (idx (ix2 e 0)).toInt = (i.val : ℤ) ∧ c' = c := by
  rw [resultIdx?_eq_some_iff]
  constructor
  · intro h
    have h0 := h 0
    have h1 := h 1
    rw [scatterRow_start0, scatterRow_window0, Nat.cast_zero, add_zero] at h0
    rw [scatterRow_start1, scatterRow_window1, zero_add] at h1
    refine ⟨h0, Fin.ext ?_⟩
    have h1' : ((c'.val : ℕ) : ℤ) = ((c.val : ℕ) : ℤ) := h1
    exact_mod_cast h1'
  · rintro ⟨h0, rfl⟩ a
    match a with
    | ⟨0, _⟩ =>
      show (scatterRowDims N C E wf).start (ix2 e c') idx 0 + ((scatterRowDims N C E wf).window (ix2 e c') 0 : ℤ) = (i.val : ℤ)
      rw [scatterRow_start0, scatterRow_window0, Nat.cast_zero, add_zero]
      exact h0
    | ⟨1, _⟩ =>
      show (scatterRowDims N C E wf).start (ix2 e c') idx 1 + ((scatterRowDims N C E wf).window (ix2 e c') 1 : ℤ) = ((c'.val : ℕ) : ℤ)
      rw [scatterRow_start1, scatterRow_window1, zero_add]

/-- THE ROW SCATTER-ADD READ AT `(i, c)`: the operand there plus channel `c` of the rows of the edges whose
    start index is `i`. -/
theorem scatterAddRow_apply {φ : FTy} (x : FVec Ideal ⟨2, ![N, C]⟩ φ) (idx : IVec ⟨2, ![E, 1]⟩ w)
    (upd : FVec Ideal ⟨2, ![E, C]⟩ φ) (i : Fin N) (c : Fin C) :
    Host.scatterAdd (F := Ideal) (scatterRowDims N C E wf) x idx upd (ix2 i c)
      = x (ix2 i c) + ∑ e ∈ Finset.univ.filter (fun e : Fin E => (idx (ix2 e 0)).toInt = (i.val : ℤ)), upd (ix2 e c) := by
  unfold Host.scatterAdd
  rw [Ideal.hostScatterAdd_def]
  unfold Ideal.hostScatterAdd
  congr 1
  rw [Finset.sum_filter, sum_idx2, Finset.sum_filter]
  refine Finset.sum_congr rfl fun e _ => ?_
  have h : ∀ c' : Fin C,
      (if (scatterRowDims N C E wf).resultIdx? (ix2 e c') idx = some (ix2 i c) then upd (ix2 e c') else 0)
        = if c' = c then (if (idx (ix2 e 0)).toInt = (i.val : ℤ) then upd (ix2 e c) else 0) else 0 := by
    intro c'
    by_cases hc : c' = c
    · subst hc
      rw [if_pos rfl]
      exact if_congr ((scatterRow_resultIdx?_iff wf e c' c' i idx).trans (and_iff_left rfl)) rfl rfl
    · rw [if_neg hc, if_neg]
      intro hr
      exact hc ((scatterRow_resultIdx?_iff wf e c' c i idx).mp hr).2
  rw [Finset.sum_congr rfl fun c' _ => h c', Finset.sum_ite_eq' Finset.univ c]
  simp only [Finset.mem_univ, if_true]

end ScatterRow

/-! ## Gather of rows -/

section GatherRow
variable {N C E w : Nat} {α : Type}
  (wf : GatherDims.WF ⟨2, ![N, C]⟩ ⟨2, ![E, 1]⟩ ⟨2, ![E, C]⟩ [1] [0] [] [0] [] 1 ![1, C])

/-- `x[idx]` for `x : [N, C]`, `idx : [E, 1]`: slices `[1, C]`, the operand's node axis collapsed and named by
    the start index's one component, its channel axis the result's offset axis. -/
abbrev gatherRowDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the operand at `(idx[e, 0], c)`, the start index read signed and clamped
    into `[0, N − 1]`. -/
theorem gatherRow_apply (hN : 0 < N) (x : (⟨2, ![N, C]⟩ : Shape).Idx → α) (idx : IVec ⟨2, ![E, 1]⟩ w)
    (e : Fin E) (c : Fin C) :
    Host.gather (gatherRowDims N C E wf) x idx (ix2 e c) = x (ix2 (clampIdx hN (idx (ix2 e 0)).toInt) c) := by
  unfold Host.gather
  congr 1
  funext a
  refine Fin.ext ?_
  match a with
  | ⟨0, _⟩ =>
    show (gatherRowDims N C E wf).start (ix2 e c) idx 0 + (gatherRowDims N C E wf).batchCoord (ix2 e c) 0
      + (gatherRowDims N C E wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherRowDims N C E wf).startIndexMap from List.mem_singleton.mpr rfl)]
    have hsi : (gatherRowDims N C E wf).siIdx (ix2 e c) ⟨List.idxOf (0 : Fin 2) (gatherRowDims N C E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (gatherRowDims N C E wf).start (ix2 e c) idx 1 + (gatherRowDims N C E wf).batchCoord (ix2 e c) 1
      + (gatherRowDims N C E wf).offCoord (ix2 e c) 1 = c.val
    have hs : (gatherRowDims N C E wf).start (ix2 e c) idx 1 = 0 := by
      unfold GatherDims.start
      have h : (1 : Fin 2) ∉ (gatherRowDims N C E wf).startIndexMap := by
        show (1 : Fin 2) ∉ ([0] : List (Fin 2))
        decide
      rw [dif_neg h]
    have ho : (gatherRowDims N C E wf).offCoord (ix2 e c) 1 = c.val := by
      unfold GatherDims.offCoord
      have hk : (1 : Fin 2) ∈ (gatherRowDims N C E wf).sKept := by
        show (1 : Fin 2) ∈ ([1] : List (Fin 2))
        decide
      rw [dif_pos hk]
      rfl
    rw [hs, GatherDims.batchCoord_eq_zero _ _ _ List.not_mem_nil, ho]
    omega

end GatherRow

end Cert.LibRowScatter
-- ==== Proof.LibSegmentSum.lean ====
/-
  A segment sum read at an index: scattering, with addition, the gathered rows of an array onto the rows of another.
  Entry `(j, n)` of the result is the operand's entry there plus the sum, over the edges whose destination index is
  `j`, of entry `n` of the row of `P` that the edge's source index names (clamped into range).
-/
import proofs.«118031_j18141941859038_2_alg».proof.Proof.LibRowScatter

open scoped BigOperators

namespace Cert.LibSegmentSum

open Idealize.ShloMosaic Idealize.ShloMosaic.ValueIdx Cert.LibScatterRead Cert.LibRowScatter

/-- `z.at[dst].add(P[src])` at `(j, n)`, for `z : [N, C]`, `P : [M, C]`, `dst src : [E, 1]`. -/
theorem scatter_gather_apply {N C E M w : Nat} {φ : FTy}
    (wfS : ScatterDims.WF ⟨2, ![N, C]⟩ ⟨2, ![E, 1]⟩ ⟨2, ![E, C]⟩ [1] [0] [0] 1)
    (wfG : GatherDims.WF ⟨2, ![M, C]⟩ ⟨2, ![E, 1]⟩ ⟨2, ![E, C]⟩ [1] [0] [] [0] [] 1 ![1, C]) (hM : 0 < M)
    (z : FVec Ideal ⟨2, ![N, C]⟩ φ) (dst src : IVec ⟨2, ![E, 1]⟩ w) (P : FVec Ideal ⟨2, ![M, C]⟩ φ) (j : Fin N) (n : Fin C) :
    Host.scatterAdd (F := Ideal) (scatterRowDims N C E wfS) z dst (Host.gather (gatherRowDims M C E wfG) P src) (ix2 j n)
      = z (ix2 j n) + ∑ e ∈ Finset.univ.filter (fun e : Fin E => (dst (ix2 e 0)).toInt = (j.val : ℤ)),
          P (ix2 (clampIdx hM (src (ix2 e 0)).toInt) n) := by
  rw [scatterAddRow_apply]
  exact congrArg (z (ix2 j n) + ·) (Finset.sum_congr rfl fun e _ => gatherRow_apply wfG hM P src e n)

end Cert.LibSegmentSum
-- ==== Proof.Bridge0.lean ====
/-
  The first layer of the two programs is one function of the arguments when the features and the first weight matrix are
  finite. The kernel multiplies the features by the weight matrix first, sums the projected rows over a node's incoming
  edges and scales by the reciprocal of `max(in-degree, 1)`; the reference sums the feature rows over the edges,
  divides by `max(in-degree, 1)` and multiplies by the weight matrix afterwards. A finite sum of products is the product
  of the sums (the law `mean_then_project`, which needs every summand real); the bias and the clip at zero are the same
  on both sides. Both programs read the same source rows (the same wrapped and clamped indices) and sum over the same
  edge set (the same destination indices).
-/
import proofs.«118031_j18141941859038_2_alg».proof.Proof.KernelTerms
import proofs.«118031_j18141941859038_2_alg».proof.Proof.MeanAlgebra
import proofs.«118031_j18141941859038_2_alg».proof.Proof.LibSegmentSum
import proofs.«118031_j18141941859038_2_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.Bridge

open Idealize.ShloMosaic Idealize.ShloMosaic.ValueIdx Cert.Spec Cert.LibScatterRead Cert.LibRowScatter Cert.LibSegmentSum
open Cert.KernelIdeal.KV Cert.ReferenceIdeal.Read

/-- The f32 word of one denotes the extended real one. -/
theorem one_f32 : Ideal.ofBits .f32 0x3F800000#32 = (1 : EReal) := by
  simp [Ideal.ofBits, Ideal.ieee, -EReal.coe_mul]; norm_num

/-! ## Arrays the two programs share -/

/-- The wrapped source indices, the destination column and the in-degrees are the same arrays in both programs. -/
theorem wrapIdx0_eq (x1 : IVec Cert.KernelIdeal.S960000 32) : wrapIdx0 x1 = val_main_v5 (F := Ideal) x1 := by
  unfold wrapIdx0 val_main_v5 val_main_v4 val_main_v3 val_main_v2 val_main_v1 val_main_v0 val_main_c val_main_c_0
  rfl
theorem dstCol0_eq (x2 : IVec Cert.KernelIdeal.S960000 32) :
    (broadcastInDim Cert.KernelIdeal.S960000x1 ![0] Cert.KernelIdeal.Facts₀.bcast_S960000_S960000x1_0 x2 : IVec Cert.KernelIdeal.S960000x1 32) = val_main_v8 (F := Ideal) x2 := by
  unfold val_main_v8
  rfl
theorem deg0_eq (x2 : IVec Cert.KernelIdeal.S960000 32) : deg0 x2 = val_main_v13 (F := Ideal) x2 := by
  unfold deg0 val_main_v13 val_main_v12 val_main_v11 val_main_v10 val_main_cst_1 val_main_cst_2
  rfl

/-! ## The kernel's side at an index -/

/-- The kernel's message sums at `(j, n)`: over the edges into `j`, entry `n` of the projected row of the source. -/
theorem segSum0_apply (P : A2 300000 128) (x1 x2 : IVec Cert.KernelIdeal.S960000 32) (j : Fin 60000) (n : Fin 128) :
    segSum0 P x1 x2 (ix2 j n)
      = 0 + ∑ e ∈ Finset.univ.filter (fun e : Fin 960000 => (val_main_v8 (F := Ideal) x2 (ix2 e 0)).toInt = (j.val : ℤ)),
          P (ix2 (clampIdx (by decide : 0 < 300000) (val_main_v5 (F := Ideal) x1 (ix2 e 0)).toInt) n) := by
  unfold segSum0
  rw [wrapIdx0_eq, dstCol0_eq]
  refine (scatter_gather_apply Cert.KernelIdeal.Facts₀.scatter_S60000x128_S960000x1_S960000x128_1_0_0_1_wf
    Cert.KernelIdeal.Facts₀.gather_S300000x128_S960000x1_S960000x128_1_0_n_n_0_1_1128_wf (by decide) _ _ _ P j n).trans ?_
  rw [broadcastInDim_apply _ _ _ (ix2 j n) ix0 (fun a => a.elim0)]
  show Ideal.ofBits .f32 0x00000000#32 + _ = _
  rw [Ideal.ofBits_zero_f32]

/-- The reciprocal column at row `j`. -/
theorem invDeg0_apply (x2 : IVec Cert.KernelIdeal.S960000 32) (j : Fin 60000) :
    invDeg0 x2 (ix2 j (0 : Fin 1)) = Ideal.div 1 (max (val_main_v13 (F := Ideal) x2 (ix1 j)) 1) := by
  unfold invDeg0
  refine (broadcastInDim_apply _ _ _ (ix2 j (0 : Fin 1)) (ix1 j) (fun a => match a with
    | ⟨0, _⟩ => by show j.val = if (60000 : Nat) = 1 then 0 else j.val; rw [if_neg (by decide)])).trans ?_
  have hdiv : ∀ (a b : FVec Ideal Cert.KernelIdeal.S60000 .f32) (i : Cert.KernelIdeal.S60000.Idx), Host.divf (F := Ideal) a b i = Ideal.div (a i) (b i) :=
    fun _ _ _ => rfl
  rw [hdiv, maximumf_apply, broadcastInDim_apply _ _ _ (ix1 j) ix0 (fun a => a.elim0), constant_apply, one_f32, deg0_eq]

/-- The bias row at column `n`. -/
theorem biasRow_apply (b : FVec Ideal Cert.KernelIdeal.S128 .f32) (n : Fin 128) : biasRow b (ix2 (0 : Fin 1) n) = b (ix1 n) :=
  shapeCast_a_1a_apply b _ 0 n

/-! ## The reference's side at an index -/

/-- The reference's message sums at `(j, k)`: over the edges into `j`, entry `k` of the feature row of the source. -/
theorem ref_sum_apply (x0 : FVec Ideal Cert.ReferenceIdeal.S300000x256 .f32) (x1 x2 : IVec Cert.ReferenceIdeal.S960000 32) (j : Fin 60000) (k : Fin 256) :
    val_main_v9 (F := Ideal) x0 x1 x2 (ix2 j k)
      = 0 + ∑ e ∈ Finset.univ.filter (fun e : Fin 960000 => (val_main_v8 (F := Ideal) x2 (ix2 e 0)).toInt = (j.val : ℤ)),
          x0 (ix2 (clampIdx (by decide : 0 < 300000) (val_main_v5 (F := Ideal) x1 (ix2 e 0)).toInt) k) := by
  unfold val_main_v9 val_main_v6
  refine (scatter_gather_apply Cert.ReferenceIdeal.Facts₀.scatter_S60000x256_S960000x1_S960000x256_1_0_0_1_wf
    Cert.ReferenceIdeal.Facts₀.gather_S300000x256_S960000x1_S960000x256_1_0_n_n_0_1_1256_wf (by decide) _ _ _ x0 j k).trans ?_
  rw [val_main_v7_apply, val_main_cst_apply]
  show Ideal.ofBits .f32 0x00000000#32 + _ = _
  rw [Ideal.ofBits_zero_f32]

/-- The reference's divisor at `(j, k)`: `max(in-degree of j, 1)`. -/
theorem ref_div_apply (x2 : IVec Cert.ReferenceIdeal.S960000 32) (j : Fin 60000) (k : Fin 256) :
    val_main_v17 (F := Ideal) x2 (ix2 j k) = max (val_main_v13 (F := Ideal) x2 (ix1 j)) 1 := by
  rw [val_main_v17_apply, val_main_v16_apply, val_main_v15_apply]
  have e1 : idx_main_v16 (idx_main_v17 (ix2 j k)) = ix1 j := funext fun a => Fin.ext (by match a with | ⟨0, _⟩ => rfl)
  rw [e1, val_main_v14_apply]
  show max _ (Ideal.ofBits .f32 0x3F800000#32) = _
  rw [one_f32]

/-- The reference's bias at `(j, n)`. -/
theorem ref_bias_apply (x8 : FVec Ideal Cert.ReferenceIdeal.S128 .f32) (j : Fin 60000) (n : Fin 128) :
    val_main_v21 (F := Ideal) x8 (ix2 j n) = x8 (ix1 n) := by
  rw [val_main_v21_apply, val_main_v20_apply]
  exact congrArg x8 (funext fun a => Fin.ext (by match a with | ⟨0, _⟩ => rfl))

/-! ## The first hidden layer -/

/-- THE FIRST HIDDEN LAYER of the kernel is the reference's, for finite features and weights. -/
theorem hidden1_eq (x0 : FVec Ideal Cert.KernelIdeal.S300000x256 .f32) (x1 x2 : IVec Cert.KernelIdeal.S960000 32) (x7 : FVec Ideal Cert.KernelIdeal.S256x128 .f32)
    (x8 : FVec Ideal Cert.KernelIdeal.S128 .f32) (h0 : ∀ i, ∃ r : ℝ, x0 i = (r : EReal)) (h7 : ∀ i, ∃ r : ℝ, x7 i = (r : EReal)) :
    hidden1 x0 x1 x2 x7 x8 = val_main_v23 (F := Ideal) x0 x1 x2 x7 x8 := by
  choose f hf using h0
  choose w hw using h7
  funext i
  obtain ⟨j, n, rfl⟩ : ∃ (j : Fin 60000) (n : Fin 128), i = ix2 j n := ⟨i 0, i 1, eq_ix2 i⟩
  -- the reference, read at (j, n)
  rw [val_main_v23_apply, val_main_v22_apply, val_main_v19_apply, ref_bias_apply, val_main_call0_v0_apply, val_main_call0_cst_apply]
  have hR : ∀ k : Fin 256, val_main_v18 (F := Ideal) x0 x1 x2 (lidx_main_v19 (ix2 j n) k) * x7 (ridx_main_v19 (ix2 j n) k)
      = Ideal.div (0 + ∑ e ∈ Finset.univ.filter (fun e : Fin 960000 => (val_main_v8 (F := Ideal) x2 (ix2 e 0)).toInt = (j.val : ℤ)),
          ((f (ix2 (clampIdx (by decide : 0 < 300000) (val_main_v5 (F := Ideal) x1 (ix2 e 0)).toInt) k) : ℝ) : EReal))
            (max (val_main_v13 (F := Ideal) x2 (ix1 j)) 1) * ((w (ix2 k n) : ℝ) : EReal) := by
    intro k
    have el : lidx_main_v19 (ix2 j n) k = ix2 j k := funext fun a => Fin.ext (by match a with | ⟨0, _⟩ => rfl | ⟨1, _⟩ => rfl)
    have er : ridx_main_v19 (ix2 j n) k = ix2 k n := funext fun a => Fin.ext (by match a with | ⟨0, _⟩ => rfl | ⟨1, _⟩ => rfl)
    rw [el, er, val_main_v18_apply, ref_sum_apply, ref_div_apply, hw]
    rw [Finset.sum_congr rfl fun e _ => hf (ix2 (clampIdx (by decide : 0 < 300000) (val_main_v5 (F := Ideal) x1 (ix2 e 0)).toInt) k)]
    rfl
  rw [Finset.sum_congr rfl fun k _ => hR k]
  -- the kernel, read at (j, n)
  unfold hidden1 scaleBiasRelu
  show max (segSum0 (mm x0 x7) x1 x2 (ix2 j n) * invDeg0 x2 (ix2 j (0 : Fin 1)) + biasRow x8 (ix2 (0 : Fin 1) n)) 0 = _
  rw [segSum0_apply, invDeg0_apply, biasRow_apply]
  have hK : ∀ e : Fin 960000, mm x0 x7 (ix2 (clampIdx (by decide : 0 < 300000) (val_main_v5 (F := Ideal) x1 (ix2 e 0)).toInt) n)
      = ∑ k : Fin 256, ((f (ix2 (clampIdx (by decide : 0 < 300000) (val_main_v5 (F := Ideal) x1 (ix2 e 0)).toInt) k) : ℝ) : EReal) * ((w (ix2 k n) : ℝ) : EReal) := by
    intro e
    show ∑ k : Fin 256, x0 (ix2 _ k) * x7 (ix2 k n) = _
    exact Finset.sum_congr rfl fun k _ => by rw [hf, hw]
  rw [Finset.sum_congr rfl fun e _ => hK e]
  -- the law
  rw [Cert.MeanAlgebra.mean_then_project]
  show max _ 0 = max _ (Ideal.ofBits .f32 0x00000000#32)
  rw [Ideal.ofBits_zero_f32]
  rfl

end Cert.Bridge

end
-- ==== Proof.BridgeUpper.lean ====
/-
  The two upper layers of the two programs are one function of the layer below. Both sum the rows of the layer below
  over a node's incoming edges and take max(in-degree, 1); the reference divides the sums by it and the kernel multiplies
  them by its reciprocal. The divisor is at least 1, so the two are equal for every extended real (the law
  `div_max_one`), with no finiteness hypothesis. The weight matrix, the bias and the clip at zero are the same on both
  sides; in the last layer the kernel pads the weight matrix and the bias with zero columns to 128 and cuts the result
  back to its first 47 columns, which reads the unpadded entries.
-/
import proofs.«118031_j18141941859038_2_alg».proof.Proof.KernelTerms
import proofs.«118031_j18141941859038_2_alg».proof.Proof.MeanAlgebra
import proofs.«118031_j18141941859038_2_alg».proof.Proof.Gen.ReferenceIdeal.Read
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

set_option maxRecDepth 16384

noncomputable section

open scoped BigOperators

namespace Cert.Bridge

open Idealize.ShloMosaic Idealize.ShloMosaic.ValueIdx Cert.Spec
open Cert.KernelIdeal.KV Cert.ReferenceIdeal.Read

/-- The f32 word of one denotes the extended real one. -/
theorem ofBits_one_f32 : Ideal.ofBits .f32 0x3F800000#32 = (1 : EReal) := by
  simp [Ideal.ofBits, Ideal.ieee, -EReal.coe_mul]; norm_num

/-- The bias row at column `n`. -/
theorem biasRow_at (b : FVec Ideal Cert.KernelIdeal.S128 .f32) (n : Fin 128) : biasRow b (ix2 (0 : Fin 1) n) = b (ix1 n) :=
  shapeCast_a_1a_apply b _ 0 n

/-- The host's quotient at an index is the quotient of the entries. -/
theorem hostDivf_at {s : Shape} (a b : FVec Ideal s .f32) (i : s.Idx) : Host.divf (F := Ideal) a b i = Ideal.div (a i) (b i) := rfl

/-- A scalar broadcast to any shape reads the scalar everywhere. -/
theorem splat_at {s : Shape} (h : Cert.KernelIdeal.S_.BroadcastsInDim s (![] : Fin 0 → Fin s.rank)) (c : FVec Ideal Cert.KernelIdeal.S_ .f32) (i : s.Idx) :
    broadcastInDim s ![] h c i = c ix0 :=
  broadcastInDim_apply _ _ _ i ix0 (fun a => a.elim0)

/-! ## The second hidden layer -/

/-- The wrapped source indices, the destination column, the zero array and the two operations' dimension records are
    the same in both programs. -/
theorem wrapIdx1_eq (xs : IVec Cert.KernelIdeal.S240000 32) : wrapIdx1 xs = val_main_v29 (F := Ideal) xs := by
  unfold wrapIdx1 val_main_v29 val_main_v28 val_main_v27 val_main_v26 val_main_v25 val_main_v24 val_main_c_4 val_main_c_5
  rfl
theorem dstCol1_eq (xd : IVec Cert.KernelIdeal.S240000 32) :
    (broadcastInDim Cert.KernelIdeal.S240000x1 ![0] Cert.KernelIdeal.Facts₀.bcast_S240000_S240000x1_0 xd : IVec Cert.KernelIdeal.S240000x1 32) = val_main_v32 (F := Ideal) xd := by
  unfold val_main_v32
  rfl
theorem zero1_eq :
    (broadcastInDim Cert.KernelIdeal.S15000x128 ![] Cert.KernelIdeal.Facts₀.bcast_S_S15000x128 (constant (F := Ideal) Cert.KernelIdeal.S_ .f32 0x00000000#32) : FVec Ideal Cert.KernelIdeal.S15000x128 .f32) = val_main_v31 (F := Ideal) := by
  unfold val_main_v31 val_main_cst_6
  rfl
theorem scatter1_eq : Cert.KernelIdeal.scatter_S15000x128_S240000x1_S240000x128_1_0_0_1 = Cert.ReferenceIdeal.scatter_S15000x128_S240000x1_S240000x128_1_0_0_1 := rfl
theorem gather1_eq : Cert.KernelIdeal.gather_S60000x128_S240000x1_S240000x128_1_0_n_n_0_1_1128 = Cert.ReferenceIdeal.gather_S60000x128_S240000x1_S240000x128_1_0_n_n_0_1_1128 := rfl

/-- The message sums and the in-degrees are the same arrays in both programs. -/
theorem segSum1_eq (x0 : FVec Ideal Cert.KernelIdeal.S300000x256 .f32) (x1 x2 : IVec Cert.KernelIdeal.S960000 32) (x3 x4 : IVec Cert.KernelIdeal.S240000 32)
    (x7 : FVec Ideal Cert.KernelIdeal.S256x128 .f32) (x8 : FVec Ideal Cert.KernelIdeal.S128 .f32) :
    segSum1 (val_main_v23 (F := Ideal) x0 x1 x2 x7 x8) x3 x4 = val_main_v33 (F := Ideal) x0 x1 x2 x3 x4 x7 x8 := by
  unfold segSum1 val_main_v33 val_main_v30
  rw [wrapIdx1_eq, dstCol1_eq, zero1_eq, scatter1_eq, gather1_eq]
theorem deg1_eq (x4 : IVec Cert.KernelIdeal.S240000 32) : deg1 x4 = val_main_v37 (F := Ideal) x4 := by
  unfold deg1 val_main_v37 val_main_v36 val_main_v35 val_main_v34 val_main_cst_7 val_main_cst_8
  rfl

/-- The reciprocal column at row `j`. -/
theorem invDeg1_apply (x4 : IVec Cert.KernelIdeal.S240000 32) (j : Fin 15000) :
    invDeg1 x4 (ix2 j (0 : Fin 1)) = Ideal.div 1 (max (deg1 x4 (ix1 j)) 1) := by
  unfold invDeg1
  refine (broadcastInDim_apply _ _ _ (ix2 j (0 : Fin 1)) (ix1 j) (fun a => match a with
    | ⟨0, _⟩ => by show j.val = if (15000 : Nat) = 1 then 0 else j.val; rw [if_neg (by decide)])).trans ?_
  refine (hostDivf_at _ _ _).trans ?_
  refine congrArg₂ Ideal.div ((splat_at _ _ _).trans ofBits_one_f32) ?_
  refine (maximumf_apply _ _ _).trans ?_
  exact congrArg (max (deg1 x4 (ix1 j))) ((splat_at _ _ _).trans ofBits_one_f32)

/-- The reference's divisor at `(j, k)`: `max(in-degree of j, 1)`. -/
theorem ref_div1_apply (x4 : IVec Cert.ReferenceIdeal.S240000 32) (j : Fin 15000) (k : Fin 128) :
    val_main_v41 (F := Ideal) x4 (ix2 j k) = max (val_main_v37 (F := Ideal) x4 (ix1 j)) 1 := by
  rw [val_main_v41_apply, val_main_v40_apply, val_main_v39_apply]
  have e1 : idx_main_v40 (idx_main_v41 (ix2 j k)) = ix1 j := funext fun a => Fin.ext (by match a with | ⟨0, _⟩ => rfl)
  rw [e1, val_main_v38_apply]
  show max _ (Ideal.ofBits .f32 0x3F800000#32) = _
  rw [ofBits_one_f32]

/-- The reference's bias at `(j, n)`. -/
theorem ref_bias1_apply (x10 : FVec Ideal Cert.ReferenceIdeal.S128 .f32) (j : Fin 15000) (n : Fin 128) :
    val_main_v45 (F := Ideal) x10 (ix2 j n) = x10 (ix1 n) := by
  rw [val_main_v45_apply, val_main_v44_apply]
  exact congrArg x10 (funext fun a => Fin.ext (by match a with | ⟨0, _⟩ => rfl))

/-- THE SECOND HIDDEN LAYER of the kernel is the reference's, from the same first hidden layer. -/
theorem hidden2_eq (H : FVec Ideal Cert.KernelIdeal.S60000x128 .f32) (x0 : FVec Ideal Cert.KernelIdeal.S300000x256 .f32) (x1 x2 : IVec Cert.KernelIdeal.S960000 32)
    (x3 x4 : IVec Cert.KernelIdeal.S240000 32) (x7 : FVec Ideal Cert.KernelIdeal.S256x128 .f32) (x8 : FVec Ideal Cert.KernelIdeal.S128 .f32)
    (x9 : FVec Ideal Cert.KernelIdeal.S128x128 .f32) (x10 : FVec Ideal Cert.KernelIdeal.S128 .f32)
    (hH : H = val_main_v23 (F := Ideal) x0 x1 x2 x7 x8) :
    hidden2 H x3 x4 x9 x10 = val_main_v47 (F := Ideal) x0 x1 x2 x3 x4 x7 x8 x9 x10 := by
  subst hH
  funext i
  obtain ⟨j, n, rfl⟩ : ∃ (j : Fin 15000) (n : Fin 128), i = ix2 j n := ⟨i 0, i 1, eq_ix2 i⟩
  -- the reference, read at (j, n)
  rw [val_main_v47_apply, val_main_v46_apply, val_main_v43_apply, ref_bias1_apply, val_main_call1_v0_apply, val_main_call1_cst_apply]
  have hR : ∀ k : Fin 128, val_main_v42 (F := Ideal) x0 x1 x2 x3 x4 x7 x8 (lidx_main_v43 (ix2 j n) k) * x9 (ridx_main_v43 (ix2 j n) k)
      = (segSum1 (val_main_v23 (F := Ideal) x0 x1 x2 x7 x8) x3 x4 (ix2 j k) * Ideal.div 1 (max (deg1 x4 (ix1 j)) 1)) * x9 (ix2 k n) := by
    intro k
    have el : lidx_main_v43 (ix2 j n) k = ix2 j k := funext fun a => Fin.ext (by match a with | ⟨0, _⟩ => rfl | ⟨1, _⟩ => rfl)
    have er : ridx_main_v43 (ix2 j n) k = ix2 k n := funext fun a => Fin.ext (by match a with | ⟨0, _⟩ => rfl | ⟨1, _⟩ => rfl)
    rw [el, er, val_main_v42_apply, ref_div1_apply, segSum1_eq, deg1_eq]
    show Ideal.div _ _ * _ = _
    rw [Cert.MeanAlgebra.div_max_one]
  rw [Finset.sum_congr rfl fun k _ => hR k]
  -- the kernel, read at (j, n)
  unfold hidden2 scaleMmBiasRelu scaleMmBias
  show max ((∑ k : Fin 128, (segSum1 (val_main_v23 (F := Ideal) x0 x1 x2 x7 x8) x3 x4 (ix2 j k) * invDeg1 x4 (ix2 j (0 : Fin 1))) * x9 (ix2 k n))
      + biasRow x10 (ix2 (0 : Fin 1) n)) 0 = _
  rw [invDeg1_apply, biasRow_at]
  show max _ 0 = max _ (Ideal.ofBits .f32 0x00000000#32)
  rw [Ideal.ofBits_zero_f32]
  rfl

/-! ## The output layer -/

/-- The wrapped source indices, the destination column, the zero array and the two operations' dimension records are
    the same in both programs. -/
theorem wrapIdx2_eq (xs : IVec Cert.KernelIdeal.S64000 32) : wrapIdx2 xs = val_main_v53 (F := Ideal) xs := by
  unfold wrapIdx2 val_main_v53 val_main_v52 val_main_v51 val_main_v50 val_main_v49 val_main_v48 val_main_c_10 val_main_c_11
  rfl
theorem dstCol2_eq (xd : IVec Cert.KernelIdeal.S64000 32) :
    (broadcastInDim Cert.KernelIdeal.S64000x1 ![0] Cert.KernelIdeal.Facts₀.bcast_S64000_S64000x1_0 xd : IVec Cert.KernelIdeal.S64000x1 32) = val_main_v56 (F := Ideal) xd := by
  unfold val_main_v56
  rfl
theorem zero2_eq :
    (broadcastInDim Cert.KernelIdeal.S4000x128 ![] Cert.KernelIdeal.Facts₀.bcast_S_S4000x128 (constant (F := Ideal) Cert.KernelIdeal.S_ .f32 0x00000000#32) : FVec Ideal Cert.KernelIdeal.S4000x128 .f32) = val_main_v55 (F := Ideal) := by
  unfold val_main_v55 val_main_cst_12
  rfl
theorem scatter2_eq : Cert.KernelIdeal.scatter_S4000x128_S64000x1_S64000x128_1_0_0_1 = Cert.ReferenceIdeal.scatter_S4000x128_S64000x1_S64000x128_1_0_0_1 := rfl
theorem gather2_eq : Cert.KernelIdeal.gather_S15000x128_S64000x1_S64000x128_1_0_n_n_0_1_1128 = Cert.ReferenceIdeal.gather_S15000x128_S64000x1_S64000x128_1_0_n_n_0_1_1128 := rfl

/-- The message sums and the in-degrees are the same arrays in both programs. -/
theorem segSum2_eq (x0 : FVec Ideal Cert.KernelIdeal.S300000x256 .f32) (x1 x2 : IVec Cert.KernelIdeal.S960000 32) (x3 x4 : IVec Cert.KernelIdeal.S240000 32)
    (x5 x6 : IVec Cert.KernelIdeal.S64000 32) (x7 : FVec Ideal Cert.KernelIdeal.S256x128 .f32) (x8 : FVec Ideal Cert.KernelIdeal.S128 .f32)
    (x9 : FVec Ideal Cert.KernelIdeal.S128x128 .f32) (x10 : FVec Ideal Cert.KernelIdeal.S128 .f32) :
    segSum2 (val_main_v47 (F := Ideal) x0 x1 x2 x3 x4 x7 x8 x9 x10) x5 x6 = val_main_v57 (F := Ideal) x0 x1 x2 x3 x4 x5 x6 x7 x8 x9 x10 := by
  unfold segSum2 val_main_v57 val_main_v54
  rw [wrapIdx2_eq, dstCol2_eq, zero2_eq, scatter2_eq, gather2_eq]
theorem deg2_eq (x6 : IVec Cert.KernelIdeal.S64000 32) : deg2 x6 = val_main_v61 (F := Ideal) x6 := by
  unfold deg2 val_main_v61 val_main_v60 val_main_v59 val_main_v58 val_main_cst_13 val_main_cst_14
  rfl

/-- The reciprocal column at row `j`. -/
theorem invDeg2_apply (x6 : IVec Cert.KernelIdeal.S64000 32) (j : Fin 4000) :
    invDeg2 x6 (ix2 j (0 : Fin 1)) = Ideal.div 1 (max (deg2 x6 (ix1 j)) 1) := by
  unfold invDeg2
  refine (broadcastInDim_apply _ _ _ (ix2 j (0 : Fin 1)) (ix1 j) (fun a => match a with
    | ⟨0, _⟩ => by show j.val = if (4000 : Nat) = 1 then 0 else j.val; rw [if_neg (by decide)])).trans ?_
  refine (hostDivf_at _ _ _).trans ?_
  refine congrArg₂ Ideal.div ((splat_at _ _ _).trans ofBits_one_f32) ?_
  refine (maximumf_apply _ _ _).trans ?_
  exact congrArg (max (deg2 x6 (ix1 j))) ((splat_at _ _ _).trans ofBits_one_f32)

/-- The reference's divisor at `(j, k)`: `max(in-degree of j, 1)`. -/
theorem ref_div2_apply (x6 : IVec Cert.ReferenceIdeal.S64000 32) (j : Fin 4000) (k : Fin 128) :
    val_main_v65 (F := Ideal) x6 (ix2 j k) = max (val_main_v61 (F := Ideal) x6 (ix1 j)) 1 := by
  rw [val_main_v65_apply, val_main_v64_apply, val_main_v63_apply]
  have e1 : idx_main_v64 (idx_main_v65 (ix2 j k)) = ix1 j := funext fun a => Fin.ext (by match a with | ⟨0, _⟩ => rfl)
  rw [e1, val_main_v62_apply]
  show max _ (Ideal.ofBits .f32 0x3F800000#32) = _
  rw [ofBits_one_f32]

/-- The reference's bias at `(j, n)`. -/
theorem ref_bias2_apply (x12 : FVec Ideal Cert.ReferenceIdeal.S47 .f32) (j : Fin 4000) (n : Fin 47) :
    val_main_v69 (F := Ideal) x12 (ix2 j n) = x12 (ix1 n) := by
  rw [val_main_v69_apply, val_main_v68_apply]
  exact congrArg x12 (funext fun a => Fin.ext (by match a with | ⟨0, _⟩ => rfl))

/-- Column `n < 47` as a column of the padded width 128. -/
abbrev col128 (n : Fin 47) : Fin 128 := ⟨n.val, Nat.lt_of_lt_of_le n.isLt (by decide)⟩

/-- The padded weight matrix at one of its first 47 columns is the weight matrix. -/
theorem padW_apply (w : FVec Ideal Cert.KernelIdeal.S128x47 .f32) (k : Fin 128) (n : Fin 47) :
    padW w (ix2 k (col128 n)) = w (ix2 k n) := by
  unfold padW
  exact pad_apply_of_inside _ _ _ w _ _ _ (ix2 k (col128 n)) (ix2 k n) (fun a => match a with
    | ⟨0, _⟩ => by show k.val = 0 + k.val * (0 + 1); omega
    | ⟨1, _⟩ => by show n.val = 0 + n.val * (0 + 1); omega)

/-- The padded bias at one of its first 47 entries is the bias. -/
theorem padB_apply (b : FVec Ideal Cert.KernelIdeal.S47 .f32) (n : Fin 47) :
    padB b (ix1 (col128 n)) = b (ix1 n) := by
  unfold padB
  exact pad_apply_of_inside _ _ _ b _ _ _ (ix1 (col128 n)) (ix1 n) (fun a => match a with
    | ⟨0, _⟩ => by show n.val = 0 + n.val * (0 + 1); omega)

/-- THE OUTPUT LAYER of the kernel, cut back to its first 47 columns, is the reference's, from the same second hidden
    layer. -/
theorem result_eq (H2 : FVec Ideal Cert.KernelIdeal.S15000x128 .f32) (x0 : FVec Ideal Cert.KernelIdeal.S300000x256 .f32) (x1 x2 : IVec Cert.KernelIdeal.S960000 32)
    (x3 x4 : IVec Cert.KernelIdeal.S240000 32) (x5 x6 : IVec Cert.KernelIdeal.S64000 32) (x7 : FVec Ideal Cert.KernelIdeal.S256x128 .f32)
    (x8 : FVec Ideal Cert.KernelIdeal.S128 .f32) (x9 : FVec Ideal Cert.KernelIdeal.S128x128 .f32) (x10 : FVec Ideal Cert.KernelIdeal.S128 .f32)
    (x11 : FVec Ideal Cert.KernelIdeal.S128x47 .f32) (x12 : FVec Ideal Cert.KernelIdeal.S47 .f32)
    (hH2 : H2 = val_main_v47 (F := Ideal) x0 x1 x2 x3 x4 x7 x8 x9 x10) :
    extractStridedSlice Cert.KernelIdeal.S4000x47 ![0, 0] (outPad H2 x5 x6 x11 x12) Cert.KernelIdeal.Facts₀.slices_S4000x128_S4000x47_0_0
      = val_main_v70 (F := Ideal) x0 x1 x2 x3 x4 x5 x6 x7 x8 x9 x10 x11 x12 := by
  subst hH2
  funext i
  obtain ⟨j, n, rfl⟩ : ∃ (j : Fin 4000) (n : Fin 47), i = ix2 j n := ⟨i 0, i 1, eq_ix2 i⟩
  -- the reference, read at (j, n)
  rw [val_main_v70_apply, val_main_v67_apply, ref_bias2_apply]
  have hR : ∀ k : Fin 128, val_main_v66 (F := Ideal) x0 x1 x2 x3 x4 x5 x6 x7 x8 x9 x10 (lidx_main_v67 (ix2 j n) k) * x11 (ridx_main_v67 (ix2 j n) k)
      = (segSum2 (val_main_v47 (F := Ideal) x0 x1 x2 x3 x4 x7 x8 x9 x10) x5 x6 (ix2 j k) * Ideal.div 1 (max (deg2 x6 (ix1 j)) 1)) * x11 (ix2 k n) := by
    intro k
    have el : lidx_main_v67 (ix2 j n) k = ix2 j k := funext fun a => Fin.ext (by match a with | ⟨0, _⟩ => rfl | ⟨1, _⟩ => rfl)
    have er : ridx_main_v67 (ix2 j n) k = ix2 k n := funext fun a => Fin.ext (by match a with | ⟨0, _⟩ => rfl | ⟨1, _⟩ => rfl)
    rw [el, er, val_main_v66_apply, ref_div2_apply, segSum2_eq, deg2_eq]
    show Ideal.div _ _ * _ = _
    rw [Cert.MeanAlgebra.div_max_one]
  rw [Finset.sum_congr rfl fun k _ => hR k]
  -- the kernel, read at (j, n): the slice reads column n of the padded width
  refine (extractStridedSlice_apply _ _ _ (ix2 j n) (ix2 j (col128 n)) (fun a => match a with
    | ⟨0, _⟩ => by show j.val = 0 + j.val; omega
    | ⟨1, _⟩ => by show n.val = 0 + n.val; omega)).trans ?_
  unfold outPad scaleMmBias
  show (∑ k : Fin 128, (segSum2 (val_main_v47 (F := Ideal) x0 x1 x2 x3 x4 x7 x8 x9 x10) x5 x6 (ix2 j k) * invDeg2 x6 (ix2 j (0 : Fin 1))) * padW x11 (ix2 k (col128 n)))
      + biasRow (padB x12) (ix2 (0 : Fin 1) (col128 n)) = _
  rw [invDeg2_apply, biasRow_at, padB_apply]
  rw [Finset.sum_congr rfl fun k _ => by rw [padW_apply]]
  rfl

/-- THE KERNEL'S RESULT is the reference's, once the first hidden layers agree. -/
theorem result_eq_of_hidden1 (x0 : FVec Ideal Cert.KernelIdeal.S300000x256 .f32) (x1 x2 : IVec Cert.KernelIdeal.S960000 32)
    (x3 x4 : IVec Cert.KernelIdeal.S240000 32) (x5 x6 : IVec Cert.KernelIdeal.S64000 32) (x7 : FVec Ideal Cert.KernelIdeal.S256x128 .f32)
    (x8 : FVec Ideal Cert.KernelIdeal.S128 .f32) (x9 : FVec Ideal Cert.KernelIdeal.S128x128 .f32) (x10 : FVec Ideal Cert.KernelIdeal.S128 .f32)
    (x11 : FVec Ideal Cert.KernelIdeal.S128x47 .f32) (x12 : FVec Ideal Cert.KernelIdeal.S47 .f32)
    (h1 : hidden1 x0 x1 x2 x7 x8 = val_main_v23 (F := Ideal) x0 x1 x2 x7 x8) :
    result x0 x1 x2 x3 x4 x5 x6 x7 x8 x9 x10 x11 x12 = val_main_v70 (F := Ideal) x0 x1 x2 x3 x4 x5 x6 x7 x8 x9 x10 x11 x12 := by
  unfold result
  exact result_eq _ x0 x1 x2 x3 x4 x5 x6 x7 x8 x9 x10 x11 x12 (hidden2_eq _ x0 x1 x2 x3 x4 x7 x8 x9 x10 h1)

end Cert.Bridge

end
-- ==== Proof.lean ====
/-
  The certificate of a three-layer mean-aggregating graph network computed by four dense kernels with host gathers and
  segment sums between them, against its plain reference. At the ideal values both programs compute one function of
  the thirteen argument arrays:

  * the kernel's run ends with its result buffer at the fold of its four dense steps and host stretches over the launch
    memory (`KV.run_result`), and that fold is the closed form `KV.result` of the arguments (`KV.W12_v66`: each dense
    step's array is one whole-array function of what the step finds, each host stretch its operations);
  * the reference's run ends at the composition of its operations (the generated run, read stage by stage);
  * the two functions agree index by index: in the first layer the kernel multiplies by the weight matrix before
    summing over a node's incoming edges and the reference after, equal for finite features and weights — which is
    where the precondition is used —, and in every layer the kernel's product with the reciprocal of
    `max(in-degree, 1)` is the reference's quotient by it; the zero columns padded onto the last weight matrix and bias
    are cut away again.

  The three frames are the generated frame proofs (the reference's is its run with the result dropped); the ideal pass
  rewrote nothing, so `preserves` is trivial.
-/
import proofs.«118031_j18141941859038_2_alg».proof.Defs
import proofs.«118031_j18141941859038_2_alg».proof.Proof.Gen.Kernel
import proofs.«118031_j18141941859038_2_alg».proof.Proof.Gen.Kernel.Frame
import proofs.«118031_j18141941859038_2_alg».proof.Proof.Gen.KernelIdeal
import proofs.«118031_j18141941859038_2_alg».proof.Proof.Gen.KernelIdeal.Frame
import proofs.«118031_j18141941859038_2_alg».proof.Proof.Gen.ReferenceIdeal
import proofs.«118031_j18141941859038_2_alg».proof.Proof.Gen.Pre_finite_inputs
import proofs.«118031_j18141941859038_2_alg».proof.Proof.Gen.ReferenceIdeal.Run
import proofs.«118031_j18141941859038_2_alg».proof.Proof.Gen.ReferenceIdeal.Read
import proofs.«118031_j18141941859038_2_alg».proof.Proof.KernelRun
import proofs.«118031_j18141941859038_2_alg».proof.Proof.KernelValue
import proofs.«118031_j18141941859038_2_alg».proof.Proof.FiniteInputs
import proofs.«118031_j18141941859038_2_alg».proof.Proof.Bridge0
import proofs.«118031_j18141941859038_2_alg».proof.Proof.BridgeUpper
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories that agree on the arguments both programs end at `KV.result` of the arguments: the kernel's fold is
    it, and the reference's composed term is it by the bridge, the precondition giving the finiteness the first layer's
    law needs. -/
theorem algebraic : Cert.algebraic_KernelIdeal_ReferenceIdeal := by
  intro m ρ m' ρ' hpre hagree
  refine ⟨fun c => Cert.KernelIdeal.KV.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono (fun r h c => ⟨(h c).1.trans (Cert.KernelIdeal.KV.W12_v66 m ρ c), (h c).2⟩)
      (Cert.KernelIdeal.KV.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9, a10, a11, a12⟩ := hagree c
    rw [Cert.ReferenceIdeal.Read.val_main_v70_eq, a0, a1, a2, a3, a4, a5, a6, a7, a8, a9, a10, a11, a12]
    obtain ⟨h0, h7⟩ := Cert.FiniteInputs.finite_of_pre _ _ _ _ _ _ _ _ _ _ _ _ _ (hpre c)
    exact (Cert.Bridge.result_eq_of_hidden1 _ _ _ _ _ _ _ _ _ _ _ _ _ (Cert.Bridge.hidden1_eq _ _ _ _ _ h0 h7)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
